-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x2048 : Shape := ⟨2, ![1024, 2048]⟩
abbrev S2048 : Shape := ⟨1, ![2048]⟩
abbrev S512x1024 : Shape := ⟨2, ![512, 1024]⟩
abbrev S512x2048 : Shape := ⟨2, ![512, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S1x512x1 : Shape := ⟨3, ![1, 512, 1]⟩
abbrev S1x1024 : Shape := ⟨2, ![1, 1024]⟩
abbrev S1x512 : Shape := ⟨2, ![1, 512]⟩

abbrev nBuf : Space → Nat
  | .hbm => 18
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S1024x1024, .bf16⟩
  | .hbm, ⟨10, _⟩ => ⟨S1024x2048, .f32⟩
  | .hbm, ⟨11, _⟩ => ⟨S1024x2048, .bf16⟩
  | .hbm, ⟨12, _⟩ => ⟨S2048, .f32⟩
  | .hbm, ⟨13, _⟩ => ⟨S8192x1024, .bf16⟩
  | .hbm, ⟨14, _⟩ => ⟨S8192x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1, .f32⟩
  | .local _ .vmem, ⟨19, _⟩ => ⟨S1x512x1, .f32⟩
  | .local _ .vmem, ⟨20, _⟩ => ⟨S1x512x1024, .f32⟩
  | .local _ .vmem, ⟨21, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v39 : BitVec 1 := Scalar.cmpi .eq arg2 c1_i32
  let v40 : BitVec 32 := Scalar.extui v39
  let c0_i32_33 : BitVec 32 := 0#32
  let v41 : BitVec 1 := Scalar.cmpi .ne v40 c0_i32_33
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x1024_S8192x1024 : S4x2048x1024.ShapeCasts S8192x1024
  bitsLt_bf16_f32 : FTy.bits .bf16 < FTy.bits .f32
  concatenates_S1024x1024_S1024x1024_S1024x2048_d1 : Shape.Concatenates [S1024x1024, S1024x1024] S1024x2048 1
  concatenates_S1024_S1024_S2048_d0 : Shape.Concatenates [S1024, S1024] S2048 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  slices_S512x2048_o0_0_S512x1024 : S512x2048.Slices ![0, 0] S512x1024
  packedbf16_S512x1024_S512x1024_0_0 : (Rect.unit (s := S512x1024) ![0, 0] S512x1024.size inb_S512x1024_S512x1024_0_0).PackedRows (EltTy.packing .bf16)
  slices_S512x2048_o0_1024_S512x1024 : S512x2048.Slices ![0, 1024] S512x1024
  shapeCasts_S8192x1024_S4x2048x1024 : S8192x1024.ShapeCasts S4x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  reduces_S1x512x1024_S1x512 : S1x512x1024.Reduces [2] S1x512
  shapeCasts_S1x512_S1x512x1 : S1x512.ShapeCasts S1x512x1
  broadcasts_S1x512x1_S1x512x1024 : S1x512x1.Broadcasts S1x512x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  dot_S1x512x1024_S1x1024x1024_S1x512x1024_2_2_1_1_0_0_wf : DotDims.WF S1x512x1024 S1x1024x1024 S1x512x1024 [2] [2] [1] [1] [0] [0]
  dot_S1x512x1024_S1x1024x1024_S1x512x1024_2_1_1_2_0_0_wf : DotDims.WF S1x512x1024 S1x1024x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .bf16 = 32 ∨ (Rect.block (s := S4x2048x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x2048x1024.size a
  hwx1_4 : ∀ i : grid1.Coords, EltTy.bits .bf16 = 32 ∨ (Rect.block (s := S4x2048x1024) S1x1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x1024_S1x1024x1024_S1x512x1024_2_2_1_1_0_0 : DotDims S1x512x1024 S1x1024x1024 S1x512x1024 where
  lhsContracting := [2]
  rhsContracting := [2]
  lhsNonContracting := [1]
  rhsNonContracting := [1]
  lhsBatch := [0]
  rhsBatch := [0]
  wf := dot_S1x512x1024_S1x1024x1024_S1x512x1024_2_2_1_1_0_0_wf
def dot_S1x512x1024_S1x1024x1024_S1x512x1024_2_1_1_2_0_0 : DotDims S1x512x1024 S1x1024x1024 S1x512x1024 where
  lhsContracting := [2]
  rhsContracting := [1]
  lhsNonContracting := [1]
  rhsNonContracting := [2]
  lhsBatch := [0]
  rhsBatch := [0]
  wf := dot_S1x512x1024_S1x1024x1024_S1x512x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4x2048x1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Word.KvProjPoint.lean ====
/-
  (The program as printed at word level; the statements and proofs are those of the idealized program's module of the
  same name, which hold at any interpretation of the floats.)
  The key/value projection at one grid point. The first kernel reads a block of 512 rows of the flattened image features
  (x, 512 × 1024), the joined weight [Wk | Wv] (1024 × 2048) and the joined bias [bk | bv] (2048), forms
  x · [Wk | Wv] + [bk | bv] (512 × 2048) and stores its left half as the block of keys and its right half as the block of
  values. Here: what the two output buffers hold after the body, as functions of the three input blocks, and the body's
  triple — the inputs' buffers are left as found, each output buffer is overwritten whole.
-/
import proofs.«101194_j90348932038964_2_alg».proof.Proof.Gen.Kernel.Launch
import proofs.«101194_j90348932038964_2_alg».proof.Proof.Gen.Kernel.Skeleton
import proofs.«101194_j90348932038964_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KvProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 512 × 1024 buffer, the whole weight buffer, the whole bias buffer, as rectangles. -/
abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S2048 := Rect.unit (s := S2048) ![0] S2048.size inb_S2048_S2048_0

/-- The block of keys the body leaves: the left half of x · [Wk | Wv] + [bk | bv], stored whole. -/
def keysOut (x : Vec F S512x1024 .f32) (w : Vec F S1024x2048 .bf16) (b : Vec F S2048 .f32) : Vec F S512x1024 .bf16 :=
  View.canon [⟨rX, k0_pay2 (View.ld x rX) (View.ld w rW) (View.ld b rB)⟩]

/-- The block of values the body leaves: the right half of the same sum, stored whole. -/
def valsOut (x : Vec F S512x1024 .f32) (w : Vec F S1024x2048 .bf16) (b : Vec F S2048 .f32) : Vec F S512x1024 .bf16 :=
  View.canon [⟨rX, k0_pay3 (View.ld x rX) (View.ld w rW) (View.ld b rB)⟩]

/-- One whole-buffer store covers the buffer. -/
theorem cover_whole (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

set_option maxHeartbeats 1000000 in
/-- The body on whole buffers: the three inputs at contents x, w, b and the two outputs at anything; it ends with the
    inputs as they were, the keys' buffer at `keysOut x w b` and the values' buffer at `valsOut x w b`. -/
theorem point_triple (c : Dev nD) (E : Set ℕ) (i : grid0.Coords)
    (arg1 : Memref sig .tc .vmem S512x1024 .f32) (harg1 : arg1.IsWhole)
    (arg2 : Memref sig .tc .vmem S1024x2048 .bf16) (harg2 : arg2.IsWhole)
    (arg3 : Memref sig .tc .vmem S2048 .f32) (harg3 : arg3.IsWhole)
    (arg4 : Memref sig .tc .vmem S512x1024 .bf16) (harg4 : arg4.IsWhole)
    (arg5 : Memref sig .tc .vmem S512x1024 .bf16) (harg5 : arg5.IsWhole)
    (x : Vec F S512x1024 .f32) (w : Vec F S1024x2048 .bf16) (b : Vec F S2048 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (keysOut x w b) ∗ owns (c : Thread nD τ) arg5 fullShare (valsOut x w b)) -∗ K ⟨⟩))
      ⊢ wp frame (wpE (defs₀ (F := F)) Variants.none c none) E
          (cc0__linear_kv_kernel i arg1 harg1 arg2 harg2 arg3 harg3 arg4 harg4 arg5 harg5) K := by
  simp only [cc0__linear_kv_kernel_eq_skeleton]; unfold cc0__linear_kv_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  iexists _; isplitr
  swap; · iexact H5
  ipureintro
  exact View.read_writes_eq_canon _ _ _ (cover_whole _)

end Cert.Kernel.KvProj

end
-- ==== Proof.Word.KvProjGrid.lean ====
/-
  (The program as printed at word level; the statements and proofs are those of the idealized program's module of the
  same name, which hold at any interpretation of the floats.)
  The key/value projection over its grid of sixteen row blocks. At point t the first kernel is handed block t (512 rows) of
  the flattened image features, and the whole joined weight and joined bias, which are fetched once and then stay; it
  leaves in its two output buffers the blocks of keys and of values that `KvProj.keysOut` / `valsOut` name, and both are
  written back at every point. Here: each window's block read off the arrays as the region finds them (a parameter `V`),
  that each input buffer holds its block at every point whether or not it was fetched there, the record of what each
  buffer holds after the body at each point, and the body's obligation at every point.
-/
import proofs.«101194_j90348932038964_2_alg».proof.Proof.Word.KvProjPoint

set_option maxRecDepth 16384

noncomputable section

namespace Cert.Kernel.KvProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' buffer holds block t at point t. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight's buffer holds the whole joined weight at every point: fetched at the first, untouched after. -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias's buffer holds the whole joined bias at every point. -/
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- What each buffer holds after the body at each point: the inputs their blocks, the outputs the blocks of keys and of
    values computed from them; nothing is carried from point to point and nothing is owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => keysOut (blk V c 0 t) (blk V c 1 t) (blk V c 2 t)
    | ⟨4, _⟩ => valsOut (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_keys (c : Dev nD) (t : Fin cfg0.N) :
    (dat V c).after 3 t = keysOut (blk V c 0 t) (blk V c 1 t) (blk V c 2 t) := by dsimp only [dat]
theorem after_vals (c : Dev nD) (t : Fin cfg0.N) :
    (dat V c).after 4 t = valsOut (blk V c 0 t) (blk V c 1 t) (blk V c 2 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d
theorem before_b (c : Dev nD) (t : Fin cfg0.N) (d) : (dat V c).before 2 t d = blk V c 2 t :=
  before_b_of V (dat V c) (A_eq V c 2) (after_b V c) t d

/-- What the body is called with at point `t`, the windows one by one, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the point's triple applies; the invariant and what
    the core owes pass through unread. -/
theorem sound_point (c : Dev nD) (t : Fin cfg0.N) :
    pointPre V c t ⊢ wp frame (wpE (defs₀ (F := F)) Variants.none c none) Set.univ (bodyAt0 t) (fun _ => pointPost V c t) := by
  unfold pointPre pointPost bodyAt0
  simp only [before_x, before_w, before_b]
  rw [show (dat V c).Φ t.succ = (dat V c).Φ t.castSucc from rfl,
    show (dat V c).owesAt () t.succ = (dat V c).owesAt () t.castSucc from rfl,
    after_x, after_w, after_b, after_keys, after_vals]
  iintro ⟨HΦ, Ho, ⟨%d0, H0⟩, ⟨%d1, H1⟩, ⟨%d2, H2⟩, ⟨%d3, H3⟩, ⟨%d4, H4⟩⟩
  iapply (point_triple c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation (c : Dev nD) : BodyObligation (dat (F := F) V c) (defs₀ (F := F)) Variants.none () Set.univ := fun t => by
  rw [bigSep_W0, bigSep_W0]
  exact sound_point V c t

end Cert.Kernel.KvProj

end
-- ==== Proof.Word.AttnPoint.lean ====
/-
  (The program as printed at word level; the statements and proofs are those of the idealized program's module of the
  same name, which hold at any interpretation of the floats.)
  The attention kernel at one grid point. Its grid is (batch, block of 512 queries, block of 1024 keys), the block of keys
  innermost and of extent two. Four buffers of the kernel's own live across the two key steps of a query block: the
  running row maximum m, the running row sum l, the running weighted sum of values acc, and the scaled queries q.
  At the FIRST key step the kernel resets m to −∞ and l, acc to 0 and computes q = (x · Wq + bq) · 2⁻⁵ from the block of
  event features; at every step it folds the step's block of keys and values into m, l and acc; at the LAST key step it
  stores acc / l as the block of the result. With two key steps each point is exactly one of: first and not last, or last
  and not first. Here: the two branch conditions in closed form over the 32 points, and the body's run in each of the two
  cases, on whole buffers — the input buffers are left as found, and each buffer the body stores into ends as some
  contents overwritten by a list of stored pieces, which the run itself determines.
-/
import proofs.«101194_j90348932038964_2_alg».proof.Proof.Gen.Kernel.Launch
import proofs.«101194_j90348932038964_2_alg».proof.Proof.Gen.Kernel.Skeleton
import proofs.«101194_j90348932038964_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first key step": the key-block coordinate is 0, as the kernel computes it. -/
abbrev isFirst (i : grid1.Coords) : Prop :=
  (Scalar.cmpi .ne (Scalar.extui (Scalar.cmpi .eq (BitVec.ofNat 32 (i 2).val) 0#32)) 0#32) = 1#1
/-- It holds at the even points. -/
theorem isFirst_iff : ∀ t : Fin cfg1.N, isFirst (grid1.coords t) ↔ t.val % 2 = 0 :=
  (by decide +kernel : ∀ t : Fin grid1.N, isFirst (grid1.coords t) ↔ t.val % 2 = 0)

/-- "This is the last key step": the key-block coordinate is 1, as the kernel computes it. -/
abbrev isLast (i : grid1.Coords) : Prop := k1_cond2 i = 1#1
/-- It holds at the odd points. -/
theorem isLast_iff : ∀ t : Fin cfg1.N, isLast (grid1.coords t) ↔ t.val % 2 = 1 :=
  (by decide +kernel : ∀ t : Fin grid1.N, isLast (grid1.coords t) ↔ t.val % 2 = 1)

/-! ## The body in each case -/

set_option maxHeartbeats 4000000 in
/-- THE FIRST KEY STEP (first and not last). The five input buffers at contents x0 … x4 are left as found, and the result's buffer, which
    this step does not touch, goes through at whatever it holds; the four buffers m, l, acc, q, at anything before, each end overwritten by the pieces the run finds. -/
noncomputable def firstStep (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : isFirst i) (hc1 : ¬isLast i)
    (x0 : Vec F S1x512x1024 .f32) (x1 : Vec F S1024x1024 .bf16) (x2 : Vec F S1024 .f32) (x3 : Vec F S1x1024x1024 .bf16) (x4 : Vec F S1x1024x1024 .bf16) :
    Σ' (Lm : List (View.Piece (Elt F) S1x512x1 .f32)) (Ll : List (View.Piece (Elt F) S1x512x1 .f32)) (Lacc : List (View.Piece (Elt F) S1x512x1024 .f32)), { Lq : List (View.Piece (Elt F) S1x512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
                ∗ (∃ f, arg9.view.loc (c : Thread nD τ) ↦[arg9.view.set]{fullShare} arg9.view.writes (Elt F) f Lm) ∗ (∃ f, arg10.view.loc (c : Thread nD τ) ↦[arg10.view.set]{fullShare} arg10.view.writes (Elt F) f Ll) ∗ (∃ f, arg11.view.loc (c : Thread nD τ) ↦[arg11.view.set]{fullShare} arg11.view.writes (Elt F) f Lacc) ∗ (∃ f, arg12.view.loc (c : Thread nD τ) ↦[arg12.view.set]{fullShare} arg12.view.writes (Elt F) f Lq)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    haveI : Fact (isFirst i) := ⟨hc0⟩
    haveI : Fact (¬isLast i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexists f5; isplitr; · ipureintro; rfl
      iexact H5
    isplitl [H6]; · iexists _; iexact H6
    isplitl [H7]; · iexists _; iexact H7
    isplitl [H8]; · iexists _; iexact H8
    iexists _; iexact H9

set_option maxHeartbeats 4000000 in
/-- THE LAST KEY STEP (last and not first). The five input buffers are left as found and so is q, which this step only
    reads; m, l and acc, at the contents xm, xl, xacc the step before left, and the result's buffer, at anything, each end
    overwritten by the pieces the run finds. -/
noncomputable def lastStep (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : ¬isFirst i) (hc1 : isLast i)
    (x0 : Vec F S1x512x1024 .f32) (x1 : Vec F S1024x1024 .bf16) (x2 : Vec F S1024 .f32) (x3 : Vec F S1x1024x1024 .bf16) (x4 : Vec F S1x1024x1024 .bf16)
    (xm : Vec F S1x512x1 .f32) (xl : Vec F S1x512x1 .f32) (xacc : Vec F S1x512x1024 .f32) (xq : Vec F S1x512x1024 .bf16) :
    Σ' (Lout : List (View.Piece (Elt F) S1x512x1024 .f32)) (Lm : List (View.Piece (Elt F) S1x512x1 .f32)) (Ll : List (View.Piece (Elt F) S1x512x1 .f32)), { Lacc : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xm ∗ owns (c : Thread nD τ) arg10 fullShare xl ∗ owns (c : Thread nD τ) arg11 fullShare xacc ∗ owns (c : Thread nD τ) arg12 fullShare xq
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f Lout)
                ∗ (∃ f, arg9.view.loc (c : Thread nD τ) ↦[arg9.view.set]{fullShare} arg9.view.writes (Elt F) f Lm) ∗ (∃ f, arg10.view.loc (c : Thread nD τ) ↦[arg10.view.set]{fullShare} arg10.view.writes (Elt F) f Ll) ∗ (∃ f, arg11.view.loc (c : Thread nD τ) ↦[arg11.view.set]{fullShare} arg11.view.writes (Elt F) f Lacc) ∗ owns (c : Thread nD τ) arg12 fullShare xq) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    haveI : Fact (¬isFirst i) := ⟨hc0⟩
    haveI : Fact (isLast i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hf6; obtain rfl := harg10.eq_unread hf7; obtain rfl := harg11.eq_unread hf8
    obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [H8]; · iexists _; iexact H8
    iexists _; isplitr; · ipureintro; exact harg12.read_unread _
    iexact H9

end Cert.Kernel.Attn

end
-- ==== Proof.Word.AttnPieces.lean ====
/-
  (The program as printed at word level; the statements and proofs are those of the idealized program's module of the
  same name, which hold at any interpretation of the floats.)
  What the attention kernel's body leaves, read back. In each of its two cases the run determines, for every buffer the
  body stores into, the list of stored pieces. Every such list tiles its buffer — each of these buffers is overwritten
  whole in the case that stores into it — so the buffer's contents afterwards do not depend on what it held before, and are
  the pieces read back over any background. Here: those covers, and the contents so read back, for the first key step
  (m, l, acc, q) and for the last key step (the result's block, m, l, acc).
-/
import proofs.«101194_j90348932038964_2_alg».proof.Proof.Word.AttnPoint

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The four carried buffers, and one buffer of the result's window, as views through which contents are stated. -/
abbrev scM : Memref sig .tc .vmem S1x512x1 .f32 := Memref.whole cc1_scratch0
abbrev scL : Memref sig .tc .vmem S1x512x1 .f32 := Memref.whole cc1_scratch1
abbrev scAcc : Memref sig .tc .vmem S1x512x1024 .f32 := Memref.whole cc1_scratch2
abbrev scQ : Memref sig .tc .vmem S1x512x1024 .bf16 := Memref.whole cc1_scratch3
abbrev outV : View sig .tc .vmem S1x512x1024 .f32 := (Memref.whole cc1_stg5_0 : Memref sig .tc .vmem S1x512x1024 .f32).view

section First

variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : isFirst i) (hc1 : ¬isLast i) (x0 : Vec F S1x512x1024 .f32) (x1 : Vec F S1024x1024 .bf16) (x2 : Vec F S1024 .f32) (x3 : Vec F S1x1024x1024 .bf16) (x4 : Vec F S1x1024x1024 .bf16)

local notation "FS" => firstStep (F := F) c i arg3 harg3 arg4 harg4 arg5 harg5 arg6 harg6 arg7 harg7 arg8 harg8 arg9 harg9 arg10 harg10 arg11 harg11 arg12 harg12 hc0 hc1 x0 x1 x2 x3 x4

theorem first_cover_m (y : S1x512x1.Idx) : ∃ pc ∈ (FS).1, y ∈ pc.1.set :=
  View.cover_of_tiledL (FS).1 S1x512x1.size (by sl_kernel_rfl) y
theorem first_cover_l (y : S1x512x1.Idx) : ∃ pc ∈ (FS).2.1, y ∈ pc.1.set :=
  View.cover_of_tiledL (FS).2.1 S1x512x1.size (by sl_kernel_rfl) y
theorem first_cover_acc (y : S1x512x1024.Idx) : ∃ pc ∈ (FS).2.2.1, y ∈ pc.1.set :=
  View.cover_of_tiledL (FS).2.2.1 S1x512x1024.size (by sl_kernel_rfl) y
theorem first_cover_q (y : S1x512x1024.Idx) : ∃ pc ∈ (FS).2.2.2.1, y ∈ pc.1.set :=
  View.cover_of_tiledL (FS).2.2.2.1 S1x512x1024.size (by sl_kernel_rfl) y

/-- m, l, acc and q after the first key step. -/
def first_m : Vec F S1x512x1 .f32 := scM.view.read (Elt F) (scM.view.writes (Elt F) scM.view.junk (FS).1)
def first_l : Vec F S1x512x1 .f32 := scL.view.read (Elt F) (scL.view.writes (Elt F) scL.view.junk (FS).2.1)
def first_acc : Vec F S1x512x1024 .f32 := scAcc.view.read (Elt F) (scAcc.view.writes (Elt F) scAcc.view.junk (FS).2.2.1)
def first_q : Vec F S1x512x1024 .bf16 := scQ.view.read (Elt F) (scQ.view.writes (Elt F) scQ.view.junk (FS).2.2.2.1)

end First

section Last

variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : ¬isFirst i) (hc1 : isLast i) (x0 : Vec F S1x512x1024 .f32) (x1 : Vec F S1024x1024 .bf16) (x2 : Vec F S1024 .f32) (x3 : Vec F S1x1024x1024 .bf16) (x4 : Vec F S1x1024x1024 .bf16)
  (xm : Vec F S1x512x1 .f32) (xl : Vec F S1x512x1 .f32) (xacc : Vec F S1x512x1024 .f32) (xq : Vec F S1x512x1024 .bf16)

local notation "LS" => lastStep (F := F) c i arg3 harg3 arg4 harg4 arg5 harg5 arg6 harg6 arg7 harg7 arg8 harg8 arg9 harg9 arg10 harg10 arg11 harg11 arg12 harg12 hc0 hc1 x0 x1 x2 x3 x4 xm xl xacc xq

theorem last_cover_out (y : S1x512x1024.Idx) : ∃ pc ∈ (LS).1, y ∈ pc.1.set :=
  View.cover_of_tiledL (LS).1 S1x512x1024.size (by sl_kernel_rfl) y
theorem last_cover_m (y : S1x512x1.Idx) : ∃ pc ∈ (LS).2.1, y ∈ pc.1.set :=
  View.cover_of_tiledL (LS).2.1 S1x512x1.size (by sl_kernel_rfl) y
theorem last_cover_l (y : S1x512x1.Idx) : ∃ pc ∈ (LS).2.2.1, y ∈ pc.1.set :=
  View.cover_of_tiledL (LS).2.2.1 S1x512x1.size (by sl_kernel_rfl) y
theorem last_cover_acc (y : S1x512x1024.Idx) : ∃ pc ∈ (LS).2.2.2.1, y ∈ pc.1.set :=
  View.cover_of_tiledL (LS).2.2.2.1 S1x512x1024.size (by sl_kernel_rfl) y

/-- The result's block, m, l and acc after the last key step. -/
def last_out : Vec F S1x512x1024 .f32 := outV.read (Elt F) (outV.writes (Elt F) outV.junk (LS).1)
def last_m : Vec F S1x512x1 .f32 := scM.view.read (Elt F) (scM.view.writes (Elt F) scM.view.junk (LS).2.1)
def last_l : Vec F S1x512x1 .f32 := scL.view.read (Elt F) (scL.view.writes (Elt F) scL.view.junk (LS).2.2.1)
def last_acc : Vec F S1x512x1024 .f32 := scAcc.view.read (Elt F) (scAcc.view.writes (Elt F) scAcc.view.junk (LS).2.2.2.1)

end Last

end Cert.Kernel.Attn

end
-- ==== Proof.Word.AttnState.lean ====
/-
  (The program as printed at word level; the statements and proofs are those of the idealized program's module of the
  same name, which hold at any interpretation of the floats.)
  The attention kernel over its grid of 32 points (batch, block of queries, key step; the key step innermost, of extent two),
  at the arrays as the region finds them (a parameter `V`). Even points are first key steps, odd points last key steps.
  After an even point the four carried buffers hold what the first step leaves, a function of that point's blocks alone
  (the first step resets them); after an odd point they hold what the last step leaves from that point's blocks and the
  state the even point before it left. The result's window is untouched at even points and holds acc / l, overwritten
  whole, after odd points, where it is written back. Here: that state in closed form, the invariant that carries it from
  point to point (before the first point: the kernel's buffers at anything), and the record of what every window's buffer
  holds after the body at each point.
-/
import proofs.«101194_j90348932038964_2_alg».proof.Proof.Word.AttnPieces

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and buffers -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Each window's current buffer at point `t`, as the body is called with it. -/
abbrev ms0 (t : Fin cfg1.N) : Memref sig .tc .vmem S1x512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512x1024 .f32 := win1_5.stage (cfg1.slots t 5)
abbrev hs5 (t : Fin cfg1.N) : (ms5 t).IsWhole := hstage1_5 ((cfg1.slots t 5).cast nbuf1_5)

/-! ## Parity of the point decides the case -/

theorem first_of_even (t : Fin cfg1.N) (h : t.val % 2 = 0) : isFirst (grid1.coords t) := (isFirst_iff t).mpr h
theorem not_last_of_even (t : Fin cfg1.N) (h : t.val % 2 = 0) : ¬isLast (grid1.coords t) :=
  fun h' => by have := (isLast_iff t).mp h'; omega
theorem not_first_of_odd (t : Fin cfg1.N) (h : t.val % 2 = 1) : ¬isFirst (grid1.coords t) :=
  fun h' => by have := (isFirst_iff t).mp h'; omega
theorem last_of_odd (t : Fin cfg1.N) (h : t.val % 2 = 1) : isLast (grid1.coords t) := (isLast_iff t).mpr h

/-- The point before. -/
abbrev prev (t : Fin cfg1.N) : Fin cfg1.N := ⟨t.val - 1, Nat.lt_of_le_of_lt (Nat.sub_le _ _) t.isLt⟩
theorem prev_even (t : Fin cfg1.N) (h : t.val % 2 = 1) : (prev t).val % 2 = 0 := by
  show (t.val - 1) % 2 = 0; omega

/-! ## The carried state, point by point -/

/-- m, l, acc, q after an even point. -/
def evM (c : Dev nD) (t : Fin cfg1.N) (h : t.val % 2 = 0) : Vec F S1x512x1 .f32 := first_m c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)
def evL (c : Dev nD) (t : Fin cfg1.N) (h : t.val % 2 = 0) : Vec F S1x512x1 .f32 := first_l c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)
def evAcc (c : Dev nD) (t : Fin cfg1.N) (h : t.val % 2 = 0) : Vec F S1x512x1024 .f32 := first_acc c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)
def evQ (c : Dev nD) (t : Fin cfg1.N) (h : t.val % 2 = 0) : Vec F S1x512x1024 .bf16 := first_q c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)

/-- The result's block, m, l, acc after an odd point: the last step from the state the even point before left. -/
def odOut (c : Dev nD) (t : Fin cfg1.N) (h : t.val % 2 = 1) : Vec F S1x512x1024 .f32 := last_out c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))
def odM (c : Dev nD) (t : Fin cfg1.N) (h : t.val % 2 = 1) : Vec F S1x512x1 .f32 := last_m c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))
def odL (c : Dev nD) (t : Fin cfg1.N) (h : t.val % 2 = 1) : Vec F S1x512x1 .f32 := last_l c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))
def odAcc (c : Dev nD) (t : Fin cfg1.N) (h : t.val % 2 = 1) : Vec F S1x512x1024 .f32 := last_acc c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))

theorem odd_of_not_even {n : ℕ} (h : ¬n % 2 = 0) : n % 2 = 1 := by omega

/-- The four carried buffers after point `t`. The last step only reads q, so after an odd point q is still what the even
    point before left. -/
def mAt (c : Dev nD) (t : Fin cfg1.N) : Vec F S1x512x1 .f32 :=
  if h : t.val % 2 = 0 then evM V c t h else odM V c t (odd_of_not_even h)
def lAt (c : Dev nD) (t : Fin cfg1.N) : Vec F S1x512x1 .f32 :=
  if h : t.val % 2 = 0 then evL V c t h else odL V c t (odd_of_not_even h)
def accAt (c : Dev nD) (t : Fin cfg1.N) : Vec F S1x512x1024 .f32 :=
  if h : t.val % 2 = 0 then evAcc V c t h else odAcc V c t (odd_of_not_even h)
def qAt (c : Dev nD) (t : Fin cfg1.N) : Vec F S1x512x1024 .bf16 :=
  if h : t.val % 2 = 0 then evQ V c t h else evQ V c (prev t) (prev_even t (odd_of_not_even h))
/-- The result's buffer after point `t`: at an odd point acc / l; at an even point the window is idle and nothing
    consults this value. -/
def outAt (c : Dev nD) (t : Fin cfg1.N) : Vec F S1x512x1024 .f32 :=
  if h : t.val % 2 = 1 then odOut V c t h else outV.read (Elt F) outV.junk

theorem mAt_even (c : Dev nD) (t : Fin cfg1.N) (h : t.val % 2 = 0) : mAt V c t = evM V c t h := by unfold mAt; rw [dif_pos h]
theorem lAt_even (c : Dev nD) (t : Fin cfg1.N) (h : t.val % 2 = 0) : lAt V c t = evL V c t h := by unfold lAt; rw [dif_pos h]
theorem accAt_even (c : Dev nD) (t : Fin cfg1.N) (h : t.val % 2 = 0) : accAt V c t = evAcc V c t h := by unfold accAt; rw [dif_pos h]
theorem qAt_even (c : Dev nD) (t : Fin cfg1.N) (h : t.val % 2 = 0) : qAt V c t = evQ V c t h := by unfold qAt; rw [dif_pos h]
theorem mAt_odd (c : Dev nD) (t : Fin cfg1.N) (h : t.val % 2 = 1) : mAt V c t = odM V c t h := by
  unfold mAt; rw [dif_neg (by omega)]
theorem lAt_odd (c : Dev nD) (t : Fin cfg1.N) (h : t.val % 2 = 1) : lAt V c t = odL V c t h := by
  unfold lAt; rw [dif_neg (by omega)]
theorem accAt_odd (c : Dev nD) (t : Fin cfg1.N) (h : t.val % 2 = 1) : accAt V c t = odAcc V c t h := by
  unfold accAt; rw [dif_neg (by omega)]
theorem qAt_odd (c : Dev nD) (t : Fin cfg1.N) (h : t.val % 2 = 1) : qAt V c t = evQ V c (prev t) (prev_even t h) := by
  unfold qAt; rw [dif_neg (by omega)]
theorem outAt_odd (c : Dev nD) (t : Fin cfg1.N) (h : t.val % 2 = 1) : outAt V c t = odOut V c t h := by
  unfold outAt; rw [dif_pos h]

/-! ## The invariant -/

/-- Before position `n`: before the first point the kernel's own buffers and the other kernel's staging buffers at
    anything, the generator register at some state; afterwards the four carried buffers at what point `n − 1` left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (mAt V c ⟨n, hn⟩) ∗ owns (c : Thread nD τ) scL fullShare (lAt V c ⟨n, hn⟩) ∗ owns (c : Thread nD τ) scAcc fullShare (accAt V c ⟨n, hn⟩) ∗ owns (c : Thread nD τ) scQ fullShare (qAt V c ⟨n, hn⟩)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (mAt V c ⟨n, hn⟩) ∗ owns (c : Thread nD τ) scL fullShare (lAt V c ⟨n, hn⟩) ∗ owns (c : Thread nD τ) scAcc fullShare (accAt V c ⟨n, hn⟩) ∗ owns (c : Thread nD τ) scQ fullShare (qAt V c ⟨n, hn⟩)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (mAt V c ⟨n - 1, by omega⟩) ∗ owns (c : Thread nD τ) scL fullShare (lAt V c ⟨n - 1, by omega⟩) ∗ owns (c : Thread nD τ) scAcc fullShare (accAt V c ⟨n - 1, by omega⟩) ∗ owns (c : Thread nD τ) scQ fullShare (qAt V c ⟨n - 1, by omega⟩)) ∗ (∃ r, prngReg c r)) := by
  cases n with
  | zero => exact absurd rfl hz
  | succ n => rfl

/-- The launch's invariant with the four carried buffers as whole buffers owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM fullShare d) ∗ (∃ d, owns (c : Thread nD τ) scL fullShare d) ∗ (∃ d, owns (c : Thread nD τ) scAcc fullShare d) ∗ (∃ d, owns (c : Thread nD τ) scQ fullShare d)) ∗ (∃ r, prngReg c r)) := by
  unfold Pipeline.ΦA; rw [scopedRest1_eq]; simp only [scM, scL, scAcc, scQ, owns_whole]; try rfl

/-! ## The record -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]
theorem after_in4 (c : Dev nD) (t : Fin cfg1.N) : (dat V c).after 4 t = blk V c 4 t := by dsimp only [dat]
theorem after_out (c : Dev nD) (t : Fin cfg1.N) : (dat V c).after 5 t = outAt V c t := by dsimp only [dat]

theorem before_in0 (c : Dev nD) (t : Fin cfg1.N) (d) : (dat V c).before 0 t d = blk V c 0 t :=
  before_in0_of V (dat V c) (A_eq V c 0) (after_in0 V c) t d
theorem before_in1 (c : Dev nD) (t : Fin cfg1.N) (d) : (dat V c).before 1 t d = blk V c 1 t :=
  before_in1_of V (dat V c) (A_eq V c 1) (after_in1 V c) t d
theorem before_in2 (c : Dev nD) (t : Fin cfg1.N) (d) : (dat V c).before 2 t d = blk V c 2 t :=
  before_in2_of V (dat V c) (A_eq V c 2) (after_in2 V c) t d
theorem before_in3 (c : Dev nD) (t : Fin cfg1.N) (d) : (dat V c).before 3 t d = blk V c 3 t :=
  before_in3_of V (dat V c) (A_eq V c 3) (after_in3 V c) t d
theorem before_in4 (c : Dev nD) (t : Fin cfg1.N) (d) : (dat V c).before 4 t d = blk V c 4 t :=
  before_in4_of V (dat V c) (A_eq V c 4) (after_in4 V c) t d

/-- At an even point the result's buffer holds whatever it held: the point is the first, or the point before wrote the
    block back. -/
theorem before_out_even (c : Dev nD) (t : Fin cfg1.N) (h : t.val % 2 = 0) (d) : (dat V c).before 5 t d = d := by
  refine (dat V c).before_out_reset 5 rfl t ?_ d
  by_cases hz : t.val = 0
  · exact .inl hz
  · exact .inr ⟨hz, (flush1_5 _).mpr (by show (t.val - 1) % 2 = 1; omega)⟩

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel
theorem live_in4 : ∀ t : Fin cfg1.N, cfg1.idle 4 (grid1.coords t) = false := by decide +kernel
theorem idle_out_even : ∀ t : Fin cfg1.N, t.val % 2 = 0 → cfg1.idle 5 (grid1.coords t) = true := by decide +kernel
theorem live_out_odd : ∀ t : Fin cfg1.N, t.val % 2 = 1 → cfg1.idle 5 (grid1.coords t) = false := by decide +kernel
theorem noflush_out_even (t : Fin cfg1.N) (h : t.val % 2 = 0) : (cfg1.win 5).flush t = false := by
  cases hf : (cfg1.win 5).flush t
  · rfl
  · have := (flush1_5 t).mp hf; omega

end Cert.Kernel.Attn

end
-- ==== Proof.Word.AttnGrid.lean ====
/-
  (The program as printed at word level; the statements and proofs are those of the idealized program's module of the
  same name, which hold at any interpretation of the floats.)
  The attention kernel's obligation to the pipeline at every point of its grid. By parity of the point: at an even point
  the first key step runs — the invariant hands it the four carried buffers at whatever they hold, and takes them back
  at the state that step leaves; the result's buffer goes through untouched. At an odd point the last key step runs — the
  invariant hands it the four buffers at the state the even point before left, and takes them back at the state this step
  leaves; the result's buffer ends at acc / l. What the core owes is nothing throughout.
-/
import proofs.«101194_j90348932038964_2_alg».proof.Proof.Word.AttnState

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At any position the invariant yields the four carried buffers at some contents. -/
theorem PhiS_any (c : Dev nD) (n : ℕ) (h : n ≤ cfg1.N) :
    PhiS V c n h ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM fullShare d) ∗ (∃ d, owns (c : Thread nD τ) scL fullShare d) ∗ (∃ d, owns (c : Thread nD τ) scAcc fullShare d) ∗ (∃ d, owns (c : Thread nD τ) scQ fullShare d)) ∗ (∃ r, prngReg c r)) := by
  by_cases hz : n = 0
  · rw [PhiS_zero V c n h hz, PhiA_eq]
  · rw [PhiS_pos V c n h hz]
    iintro ⟨⟨HA0, HA1, HA2, HA3, HA4, HA5, HA6, HA7, HS0, HS1, HS2, HS3⟩, Hg⟩
    isplitr [Hg]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HS0]; · iexists _; iexact HS0
      isplitl [HS1]; · iexists _; iexact HS1
      isplitl [HS2]; · iexists _; iexact HS2
      iexists _; iexact HS3
    · iexact Hg

/-- Before an odd point the invariant holds the four buffers at the state the even point before left. -/
theorem PhiS_before_odd (c : Dev nD) (t : Fin cfg1.N) (h : t.val % 2 = 1) :
    PhiS V c t.val (Nat.le_of_lt t.isLt) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (evM V c (prev t) (prev_even t h)) ∗ owns (c : Thread nD τ) scL fullShare (evL V c (prev t) (prev_even t h)) ∗ owns (c : Thread nD τ) scAcc fullShare (evAcc V c (prev t) (prev_even t h)) ∗ owns (c : Thread nD τ) scQ fullShare (evQ V c (prev t) (prev_even t h))) ∗ (∃ r, prngReg c r)) := by
  rw [PhiS_pos V c t.val _ (by omega)]
  rw [mAt_even V c (prev t) (prev_even t h), lAt_even V c (prev t) (prev_even t h), accAt_even V c (prev t) (prev_even t h), qAt_even V c (prev t) (prev_even t h)]

/-- What the body is called with at point `t`, the windows one by one, -/
def pointPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def pointPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem sound_point (c : Dev nD) (t : Fin cfg1.N) :
    pointPre V c t ⊢ wp frame (wpE (defs₀ (F := F)) Variants.none c none) Set.univ (bodyAt1 t) (fun _ => pointPost V c t) := by
  unfold pointPre pointPost bodyAt1
  simp only [before_in0, before_in1, before_in2, before_in3, before_in4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_in0 t], after_in0]
  rw [show (dat V c).leavesExact 1 t = owns (c : Thread nD τ) (ms1 t) fullShare ((dat V c).after 1 t) from by
    unfold Dat.leavesExact; rw [live_in1 t], after_in1]
  rw [show (dat V c).leavesExact 2 t = owns (c : Thread nD τ) (ms2 t) fullShare ((dat V c).after 2 t) from by
    unfold Dat.leavesExact; rw [live_in2 t], after_in2]
  rw [show (dat V c).leavesExact 3 t = owns (c : Thread nD τ) (ms3 t) fullShare ((dat V c).after 3 t) from by
    unfold Dat.leavesExact; rw [live_in3 t], after_in3]
  rw [show (dat V c).leavesExact 4 t = owns (c : Thread nD τ) (ms4 t) fullShare ((dat V c).after 4 t) from by
    unfold Dat.leavesExact; rw [live_in4 t], after_in4]
  rw [PhiS_castSucc V c t]
  by_cases h0 : t.val % 2 = 0
  · rw [Dat.leavesExact_idle (dat V c) 5 t (idle_out_even t h0) (noflush_out_even t h0)]
    simp only [before_out_even V c t h0]
    rw [mAt_even V c t h0, lAt_even V c t h0, accAt_even V c t h0, qAt_even V c t h0]
    unfold evM evL evAcc evQ first_m first_l first_acc first_q
    iintro ⟨HΦ, Ho, ⟨%d0, H0⟩, ⟨%d1, H1⟩, ⟨%d2, H2⟩, ⟨%d3, H3⟩, ⟨%d4, H4⟩, ⟨%d5, H5⟩⟩
    ihave HΦ' := (PhiS_any V c _ _) $$ HΦ
    icases HΦ' with ⟨⟨HA0, HA1, HA2, HA3, HA4, HA5, HA6, HA7, HS0, HS1, HS2, HS3⟩, Hg⟩
    iapply ((firstStep (F := F) c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h0) (not_last_of_even t h0) (blk V c 0 t) (blk V c 1 t) (blk V c 2 t) (blk V c 3 t) (blk V c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, ⟨%e0, HS0⟩, ⟨%e1, HS1⟩, ⟨%e2, HS2⟩, ⟨%e3, HS3⟩⟩
    isplitl [HA0 HA1 HA2 HA3 HA4 HA5 HA6 HA7 HS0 HS1 HS2 HS3 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HS0]
        · unfold owns; iexists _; isplitr
          swap; · iexact HS0
          ipureintro; exact View.read_writes_of_cover _ _ _ _ _ (first_cover_m c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (first_cover_l c _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (first_cover_acc c _ _ _ _ _ _ _ _ _ _ _ _ _ _ _ _ _ _ _ _ _ _ _ _ _ _ _ _)
        unfold owns; iexists _; isplitr
        swap; · iexact HS3
        ipureintro; exact View.read_writes_of_cover _ _ _ _ _ (first_cover_q c _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    iexact H5
  · have h1 : t.val % 2 = 1 := odd_of_not_even h0
    rw [show (dat V c).leavesExact 5 t = owns (c : Thread nD τ) (ms5 t) fullShare ((dat V c).after 5 t) from by
      unfold Dat.leavesExact; rw [live_out_odd t h1], after_out, outAt_odd V c t h1]
    rw [mAt_odd V c t h1, lAt_odd V c t h1, accAt_odd V c t h1, qAt_odd V c t h1]
    unfold odOut odM odL odAcc last_out last_m last_l last_acc
    rw [PhiS_before_odd V c t h1]
    iintro ⟨⟨⟨HA0, HA1, HA2, HA3, HA4, HA5, HA6, HA7, HS0, HS1, HS2, HS3⟩, Hg⟩, Ho, ⟨%d0, H0⟩, ⟨%d1, H1⟩, ⟨%d2, H2⟩, ⟨%d3, H3⟩, ⟨%d4, H4⟩, ⟨%d5, H5⟩⟩
    iapply ((lastStep (F := F) c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h1) (last_of_odd t h1) (blk V c 0 t) (blk V c 1 t) (blk V c 2 t) (blk V c 3 t) (blk V c 4 t) (evM V c (prev t) (prev_even t h1)) (evL V c (prev t) (prev_even t h1)) (evAcc V c (prev t) (prev_even t h1)) (evQ V c (prev t) (prev_even t h1))).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, ⟨%e5, H5⟩, ⟨%e0, HS0⟩, ⟨%e1, HS1⟩, ⟨%e2, HS2⟩, HS3⟩
    isplitl [HA0 HA1 HA2 HA3 HA4 HA5 HA6 HA7 HS0 HS1 HS2 HS3 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HS0]
        · unfold owns; iexists _; isplitr
          swap; · iexact HS0
          ipureintro; exact View.read_writes_of_cover _ _ _ _ _ (last_cover_m c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (last_cover_l c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (last_cover_acc c _ _ _ _ _ _ _ _ _ _ _ _ _ _ _ _ _ _ _ _ _ _ _ _ _ _ _ _ _ _ _ _)
        iexact HS3
      · iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (last_cover_out c _ _ _ _ _ _ _ _ _ _ _ _ _ _ _ _ _ _ _ _ _ _ _ _ _ _ _ _ _ _ _ _)

/-- The body's obligation to the pipeline, at every point. -/
theorem body_obligation (c : Dev nD) : BodyObligation (dat (F := F) V c) (defs₀ (F := F)) Variants.none () Set.univ := fun t => by
  rw [bigSep_W1, bigSep_W1]
  exact sound_point V c t

/-- What the launch hands the region is the invariant before the first point. -/
theorem inv_in (c : Dev nD) : Pipeline.ΦA spec1 c ⊢ (dat V c).Φ 0 := by
  rw [show (dat V c).Φ 0 = PhiS V c 0 (Nat.zero_le _) from rfl, PhiS_zero V c 0 _ rfl]

/-- After the last point the invariant gives the launch's back: the carried buffers' contents are forgotten. -/
theorem inv_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_eq]
  exact PhiS_any V c _ _

end Cert.Kernel.Attn

end
-- ==== Proof.Word.WholeRun.lean ====
/-
  (The program as printed at word level; the statements and proofs are those of the idealized program's module of the
  same name, which hold at any interpretation of the floats.)
  The whole program's run. @main is four items: host operations (the reshape of the image features, the casts and
  concatenations of the weights and biases), the key/value projection kernel, host operations (the reshapes of keys and
  values), the attention kernel. Core `c`'s buffers between items are a fold from the launch memory: a host stretch
  applies its operations; a kernel leaves each of its arrays at what its pipeline's write-backs make of it and every other
  buffer as it found it. Each kernel is a segment entered with every unscoped buffer at the fold's contents before it
  and left with them at the contents after it. The run: every weakly fair execution terminates, nothing faults, and at the
  end every unscoped buffer of every core holds the fold's last contents.
-/
import proofs.«101194_j90348932038964_2_alg».proof.Proof.Word.KvProjGrid
import proofs.«101194_j90348932038964_2_alg».proof.Proof.Word.AttnGrid
import proofs.«101194_j90348932038964_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: what the key/value kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the key/value kernel: its arrays at what its pipeline leaves, the rest as entered. -/
def W2 (c : Dev nD) : Valuation τ sig (Elt F) :=
  Pipeline.withArrays spec0 c (W1 m ρ c) fun w => (KvProj.dat (V1 m ρ) c).arrAt w cfg0.N
theorem W2_arr (c : Dev nD) (w : Fin cfg0.W) :
    W2 m ρ c (Proc.devRef .tc (Pipeline.arrRef spec0 w)) = (KvProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (KvProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the attention kernel is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The records and the thread state -/

abbrev adm : (p : Fin 2) → (pcfgs (F := F) p).Adm := fun p => (cfgs p).toPCfg_adm
/-- Each pipeline's record, at its kernel's entry contents. -/
def pdats : (p : Fin 2) → (c : Dev nD) → Dat τ (Elt F) Unit ℕ (UR sig nD τ) ℕ (Pipeline.pin (pcfgs (F := F)) adm p) c
  | ⟨0, _⟩ => fun c => KvProj.dat (V1 m ρ) c
  | ⟨1, _⟩ => fun c => Attn.dat (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- Region 0 over the thread state: entered with every unscoped buffer at `W1`, left with them at `W2`. Its arrays are split
    out of the unscoped buffers at entry and put back at what the pipeline leaves at exit; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (KvProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (by rw [show (pdats m ρ 0 c).Φ 0 = Pipeline.ΦA spec0 c from rfl])
    unfold Pipeline.ΦA
    iintro ⟨Hp, -, Hr⟩
    isplitl [Hr]; · iexact Hr
    iexact Hp
  hout c := by
    refine (show (pdats m ρ 0 c).Φ (Fin.last _) ⊢ Pipeline.ΦA spec0 c from by rw [show (pdats m ρ 0 c).Φ (Fin.last _) = Pipeline.ΦA spec0 c from rfl]).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are split
    out of the unscoped buffers at entry and put back at what the pipeline leaves at exit; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.inv_in (V3 m ρ) c)
    unfold Pipeline.ΦA
    iintro ⟨Hp, -, Hr⟩
    isplitl [Hr]; · iexact Hr
    iexact Hp
  hout c := by
    refine (show (pdats m ρ 1 c).Φ (Fin.last _) ⊢ Pipeline.ΦA spec1 c from Attn.inv_out (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Whole

end
-- ==== Proof.Word.WholeFrame.lean ====
/-
  (The program as printed at word level; the statements and proofs are those of the idealized program's module of the
  same name, which hold at any interpretation of the floats.)
  The arguments end as launched, and the frame. No host operation and neither kernel writes an argument array: the
  attention kernel reads the event features and the query bias through input windows, whose arrays the pipeline leaves as
  entered; every other argument bypasses both kernels; the host stretches write only their own results. So the fold of the
  buffers' contents, read at an argument, walks back to the launch memory; with the run, this is the frame: every weakly
  fair execution terminates, nothing faults, and the argument arrays end unchanged. The result array ends at what the
  attention kernel's write-backs make of it.
-/
import proofs.«101194_j90348932038964_2_alg».proof.Proof.Word.WholeRun

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((Attn.dat (V3 m ρ) c).arrAt_in 0 rfl _).trans (Attn.A_eq (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((Attn.dat (V3 m ρ) c).arrAt_in 2 rfl _).trans (Attn.A_eq (V3 m ρ) c 2))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- The result array at the end: what the attention kernel's pipeline leaves in its output window's array. -/
theorem W4_result (c : Dev nD) : W4 m ρ c (Proc.devRef .tc main_v8) = (Attn.dat (V3 m ρ) c).arrAt 5 cfg1.N :=
  W4_arr m ρ c 5

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c),
      (h c _ (mem_uc main_arg4 (by decide))).trans (W4_arg4 m ρ c),
      (h c _ (mem_uc main_arg5 (by decide))).trans (W4_arg5 m ρ c),
      (h c _ (mem_uc main_arg6 (by decide))).trans (W4_arg6 m ρ c),
      (h c _ (mem_uc main_arg7 (by decide))).trans (W4_arg7 m ρ c)⟩) (run_all m ρ)

/-- The run with the result named: the result array ends at what the attention kernel's pipeline leaves, the arguments
    unchanged. -/
theorem run_result : θ_run defs (onTc (τ := τ) (main (F := F))) ⟨m, fun _ => 0, ρ⟩ (fun r => ∀ c : Dev nD,
      r.2.mem ((c.tc : Thread nD τ).loc main_v8) = (Attn.dat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (W4_result m ρ c),
      (h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c),
      (h c _ (mem_uc main_arg4 (by decide))).trans (W4_arg4 m ρ c),
      (h c _ (mem_uc main_arg5 (by decide))).trans (W4_arg5 m ρ c),
      (h c _ (mem_uc main_arg6 (by decide))).trans (W4_arg6 m ρ c),
      (h c _ (mem_uc main_arg7 (by decide))).trans (W4_arg7 m ρ c)⟩) (run_all m ρ)

end Cert.Kernel.Whole

end
-- ==== Proof.KvProjPoint.lean ====
/-
  The key/value projection at one grid point. The first kernel reads a block of 512 rows of the flattened image features
  (x, 512 × 1024), the joined weight [Wk | Wv] (1024 × 2048) and the joined bias [bk | bv] (2048), forms
  x · [Wk | Wv] + [bk | bv] (512 × 2048) and stores its left half as the block of keys and its right half as the block of
  values. Here: what the two output buffers hold after the body, as functions of the three input blocks, and the body's
  triple — the inputs' buffers are left as found, each output buffer is overwritten whole.
-/
import proofs.«101194_j90348932038964_2_alg».proof.Proof.Gen.KernelIdeal.Launch
import proofs.«101194_j90348932038964_2_alg».proof.Proof.Gen.KernelIdeal.Skeleton
import proofs.«101194_j90348932038964_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KvProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 512 × 1024 buffer, the whole weight buffer, the whole bias buffer, as rectangles. -/
abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S2048 := Rect.unit (s := S2048) ![0] S2048.size inb_S2048_S2048_0

/-- The block of keys the body leaves: the left half of x · [Wk | Wv] + [bk | bv], stored whole. -/
def keysOut (x : Vec F S512x1024 .f32) (w : Vec F S1024x2048 .bf16) (b : Vec F S2048 .f32) : Vec F S512x1024 .bf16 :=
  View.canon [⟨rX, k0_pay2 (View.ld x rX) (View.ld w rW) (View.ld b rB)⟩]

/-- The block of values the body leaves: the right half of the same sum, stored whole. -/
def valsOut (x : Vec F S512x1024 .f32) (w : Vec F S1024x2048 .bf16) (b : Vec F S2048 .f32) : Vec F S512x1024 .bf16 :=
  View.canon [⟨rX, k0_pay3 (View.ld x rX) (View.ld w rW) (View.ld b rB)⟩]

/-- One whole-buffer store covers the buffer. -/
theorem cover_whole (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

set_option maxHeartbeats 1000000 in
/-- The body on whole buffers: the three inputs at contents x, w, b and the two outputs at anything; it ends with the
    inputs as they were, the keys' buffer at `keysOut x w b` and the values' buffer at `valsOut x w b`. -/
theorem point_triple (c : Dev nD) (E : Set ℕ) (i : grid0.Coords)
    (arg1 : Memref sig .tc .vmem S512x1024 .f32) (harg1 : arg1.IsWhole)
    (arg2 : Memref sig .tc .vmem S1024x2048 .bf16) (harg2 : arg2.IsWhole)
    (arg3 : Memref sig .tc .vmem S2048 .f32) (harg3 : arg3.IsWhole)
    (arg4 : Memref sig .tc .vmem S512x1024 .bf16) (harg4 : arg4.IsWhole)
    (arg5 : Memref sig .tc .vmem S512x1024 .bf16) (harg5 : arg5.IsWhole)
    (x : Vec F S512x1024 .f32) (w : Vec F S1024x2048 .bf16) (b : Vec F S2048 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (keysOut x w b) ∗ owns (c : Thread nD τ) arg5 fullShare (valsOut x w b)) -∗ K ⟨⟩))
      ⊢ wp frame (wpE (defs₀ (F := F)) Variants.none c none) E
          (cc0__linear_kv_kernel i arg1 harg1 arg2 harg2 arg3 harg3 arg4 harg4 arg5 harg5) K := by
  simp only [cc0__linear_kv_kernel_eq_skeleton]; unfold cc0__linear_kv_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  iexists _; isplitr
  swap; · iexact H5
  ipureintro
  exact View.read_writes_eq_canon _ _ _ (cover_whole _)

end Cert.KernelIdeal.KvProj

end
-- ==== Proof.KvProjGrid.lean ====
/-
  The key/value projection over its grid of sixteen row blocks. At point t the first kernel is handed block t (512 rows) of
  the flattened image features, and the whole joined weight and joined bias, which are fetched once and then stay; it
  leaves in its two output buffers the blocks of keys and of values that `KvProj.keysOut` / `valsOut` name, and both are
  written back at every point. Here: each window's block read off the arrays as the region finds them (a parameter `V`),
  that each input buffer holds its block at every point whether or not it was fetched there, the record of what each
  buffer holds after the body at each point, and the body's obligation at every point.
-/
import proofs.«101194_j90348932038964_2_alg».proof.Proof.KvProjPoint

set_option maxRecDepth 16384

noncomputable section

namespace Cert.KernelIdeal.KvProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' buffer holds block t at point t. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight's buffer holds the whole joined weight at every point: fetched at the first, untouched after. -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias's buffer holds the whole joined bias at every point. -/
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- What each buffer holds after the body at each point: the inputs their blocks, the outputs the blocks of keys and of
    values computed from them; nothing is carried from point to point and nothing is owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => keysOut (blk V c 0 t) (blk V c 1 t) (blk V c 2 t)
    | ⟨4, _⟩ => valsOut (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_keys (c : Dev nD) (t : Fin cfg0.N) :
    (dat V c).after 3 t = keysOut (blk V c 0 t) (blk V c 1 t) (blk V c 2 t) := by dsimp only [dat]
theorem after_vals (c : Dev nD) (t : Fin cfg0.N) :
    (dat V c).after 4 t = valsOut (blk V c 0 t) (blk V c 1 t) (blk V c 2 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d
theorem before_b (c : Dev nD) (t : Fin cfg0.N) (d) : (dat V c).before 2 t d = blk V c 2 t :=
  before_b_of V (dat V c) (A_eq V c 2) (after_b V c) t d

/-- What the body is called with at point `t`, the windows one by one, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the point's triple applies; the invariant and what
    the core owes pass through unread. -/
theorem sound_point (c : Dev nD) (t : Fin cfg0.N) :
    pointPre V c t ⊢ wp frame (wpE (defs₀ (F := F)) Variants.none c none) Set.univ (bodyAt0 t) (fun _ => pointPost V c t) := by
  unfold pointPre pointPost bodyAt0
  simp only [before_x, before_w, before_b]
  rw [show (dat V c).Φ t.succ = (dat V c).Φ t.castSucc from rfl,
    show (dat V c).owesAt () t.succ = (dat V c).owesAt () t.castSucc from rfl,
    after_x, after_w, after_b, after_keys, after_vals]
  iintro ⟨HΦ, Ho, ⟨%d0, H0⟩, ⟨%d1, H1⟩, ⟨%d2, H2⟩, ⟨%d3, H3⟩, ⟨%d4, H4⟩⟩
  iapply (point_triple c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation (c : Dev nD) : BodyObligation (dat (F := F) V c) (defs₀ (F := F)) Variants.none () Set.univ := fun t => by
  rw [bigSep_W0, bigSep_W0]
  exact sound_point V c t

end Cert.KernelIdeal.KvProj

end
-- ==== Proof.AttnPoint.lean ====
/-
  The attention kernel at one grid point. Its grid is (batch, block of 512 queries, block of 1024 keys), the block of keys
  innermost and of extent two. Four buffers of the kernel's own live across the two key steps of a query block: the
  running row maximum m, the running row sum l, the running weighted sum of values acc, and the scaled queries q.
  At the FIRST key step the kernel resets m to −∞ and l, acc to 0 and computes q = (x · Wq + bq) · 2⁻⁵ from the block of
  event features; at every step it folds the step's block of keys and values into m, l and acc; at the LAST key step it
  stores acc / l as the block of the result. With two key steps each point is exactly one of: first and not last, or last
  and not first. Here: the two branch conditions in closed form over the 32 points, and the body's run in each of the two
  cases, on whole buffers — the input buffers are left as found, and each buffer the body stores into ends as some
  contents overwritten by a list of stored pieces, which the run itself determines.
-/
import proofs.«101194_j90348932038964_2_alg».proof.Proof.Gen.KernelIdeal.Launch
import proofs.«101194_j90348932038964_2_alg».proof.Proof.Gen.KernelIdeal.Skeleton
import proofs.«101194_j90348932038964_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first key step": the key-block coordinate is 0, as the kernel computes it. -/
abbrev isFirst (i : grid1.Coords) : Prop :=
  (Scalar.cmpi .ne (Scalar.extui (Scalar.cmpi .eq (BitVec.ofNat 32 (i 2).val) 0#32)) 0#32) = 1#1
/-- It holds at the even points. -/
theorem isFirst_iff : ∀ t : Fin cfg1.N, isFirst (grid1.coords t) ↔ t.val % 2 = 0 :=
  (by decide +kernel : ∀ t : Fin grid1.N, isFirst (grid1.coords t) ↔ t.val % 2 = 0)

/-- "This is the last key step": the key-block coordinate is 1, as the kernel computes it. -/
abbrev isLast (i : grid1.Coords) : Prop := k1_cond2 i = 1#1
/-- It holds at the odd points. -/
theorem isLast_iff : ∀ t : Fin cfg1.N, isLast (grid1.coords t) ↔ t.val % 2 = 1 :=
  (by decide +kernel : ∀ t : Fin grid1.N, isLast (grid1.coords t) ↔ t.val % 2 = 1)

/-! ## The body in each case -/

set_option maxHeartbeats 4000000 in
/-- THE FIRST KEY STEP (first and not last). The five input buffers at contents x0 … x4 are left as found, and the result's buffer, which
    this step does not touch, goes through at whatever it holds; the four buffers m, l, acc, q, at anything before, each end overwritten by the pieces the run finds. -/
noncomputable def firstStep (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : isFirst i) (hc1 : ¬isLast i)
    (x0 : Vec F S1x512x1024 .f32) (x1 : Vec F S1024x1024 .bf16) (x2 : Vec F S1024 .f32) (x3 : Vec F S1x1024x1024 .bf16) (x4 : Vec F S1x1024x1024 .bf16) :
    Σ' (Lm : List (View.Piece (Elt F) S1x512x1 .f32)) (Ll : List (View.Piece (Elt F) S1x512x1 .f32)) (Lacc : List (View.Piece (Elt F) S1x512x1024 .f32)), { Lq : List (View.Piece (Elt F) S1x512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
                ∗ (∃ f, arg9.view.loc (c : Thread nD τ) ↦[arg9.view.set]{fullShare} arg9.view.writes (Elt F) f Lm) ∗ (∃ f, arg10.view.loc (c : Thread nD τ) ↦[arg10.view.set]{fullShare} arg10.view.writes (Elt F) f Ll) ∗ (∃ f, arg11.view.loc (c : Thread nD τ) ↦[arg11.view.set]{fullShare} arg11.view.writes (Elt F) f Lacc) ∗ (∃ f, arg12.view.loc (c : Thread nD τ) ↦[arg12.view.set]{fullShare} arg12.view.writes (Elt F) f Lq)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    haveI : Fact (isFirst i) := ⟨hc0⟩
    haveI : Fact (¬isLast i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexists f5; isplitr; · ipureintro; rfl
      iexact H5
    isplitl [H6]; · iexists _; iexact H6
    isplitl [H7]; · iexists _; iexact H7
    isplitl [H8]; · iexists _; iexact H8
    iexists _; iexact H9

set_option maxHeartbeats 4000000 in
/-- THE LAST KEY STEP (last and not first). The five input buffers are left as found and so is q, which this step only
    reads; m, l and acc, at the contents xm, xl, xacc the step before left, and the result's buffer, at anything, each end
    overwritten by the pieces the run finds. -/
noncomputable def lastStep (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : ¬isFirst i) (hc1 : isLast i)
    (x0 : Vec F S1x512x1024 .f32) (x1 : Vec F S1024x1024 .bf16) (x2 : Vec F S1024 .f32) (x3 : Vec F S1x1024x1024 .bf16) (x4 : Vec F S1x1024x1024 .bf16)
    (xm : Vec F S1x512x1 .f32) (xl : Vec F S1x512x1 .f32) (xacc : Vec F S1x512x1024 .f32) (xq : Vec F S1x512x1024 .bf16) :
    Σ' (Lout : List (View.Piece (Elt F) S1x512x1024 .f32)) (Lm : List (View.Piece (Elt F) S1x512x1 .f32)) (Ll : List (View.Piece (Elt F) S1x512x1 .f32)), { Lacc : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xm ∗ owns (c : Thread nD τ) arg10 fullShare xl ∗ owns (c : Thread nD τ) arg11 fullShare xacc ∗ owns (c : Thread nD τ) arg12 fullShare xq
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f Lout)
                ∗ (∃ f, arg9.view.loc (c : Thread nD τ) ↦[arg9.view.set]{fullShare} arg9.view.writes (Elt F) f Lm) ∗ (∃ f, arg10.view.loc (c : Thread nD τ) ↦[arg10.view.set]{fullShare} arg10.view.writes (Elt F) f Ll) ∗ (∃ f, arg11.view.loc (c : Thread nD τ) ↦[arg11.view.set]{fullShare} arg11.view.writes (Elt F) f Lacc) ∗ owns (c : Thread nD τ) arg12 fullShare xq) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    haveI : Fact (¬isFirst i) := ⟨hc0⟩
    haveI : Fact (isLast i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hf6; obtain rfl := harg10.eq_unread hf7; obtain rfl := harg11.eq_unread hf8
    obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [H8]; · iexists _; iexact H8
    iexists _; isplitr; · ipureintro; exact harg12.read_unread _
    iexact H9

end Cert.KernelIdeal.Attn

end
-- ==== Proof.AttnPieces.lean ====
/-
  What the attention kernel's body leaves, read back. In each of its two cases the run determines, for every buffer the
  body stores into, the list of stored pieces. Every such list tiles its buffer — each of these buffers is overwritten
  whole in the case that stores into it — so the buffer's contents afterwards do not depend on what it held before, and are
  the pieces read back over any background. Here: those covers, and the contents so read back, for the first key step
  (m, l, acc, q) and for the last key step (the result's block, m, l, acc).
-/
import proofs.«101194_j90348932038964_2_alg».proof.Proof.AttnPoint

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The four carried buffers, and one buffer of the result's window, as views through which contents are stated. -/
abbrev scM : Memref sig .tc .vmem S1x512x1 .f32 := Memref.whole cc1_scratch0
abbrev scL : Memref sig .tc .vmem S1x512x1 .f32 := Memref.whole cc1_scratch1
abbrev scAcc : Memref sig .tc .vmem S1x512x1024 .f32 := Memref.whole cc1_scratch2
abbrev scQ : Memref sig .tc .vmem S1x512x1024 .bf16 := Memref.whole cc1_scratch3
abbrev outV : View sig .tc .vmem S1x512x1024 .f32 := (Memref.whole cc1_stg5_0 : Memref sig .tc .vmem S1x512x1024 .f32).view

section First

variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : isFirst i) (hc1 : ¬isLast i) (x0 : Vec F S1x512x1024 .f32) (x1 : Vec F S1024x1024 .bf16) (x2 : Vec F S1024 .f32) (x3 : Vec F S1x1024x1024 .bf16) (x4 : Vec F S1x1024x1024 .bf16)

local notation "FS" => firstStep (F := F) c i arg3 harg3 arg4 harg4 arg5 harg5 arg6 harg6 arg7 harg7 arg8 harg8 arg9 harg9 arg10 harg10 arg11 harg11 arg12 harg12 hc0 hc1 x0 x1 x2 x3 x4

theorem first_cover_m (y : S1x512x1.Idx) : ∃ pc ∈ (FS).1, y ∈ pc.1.set :=
  View.cover_of_tiledL (FS).1 S1x512x1.size (by sl_kernel_rfl) y
theorem first_cover_l (y : S1x512x1.Idx) : ∃ pc ∈ (FS).2.1, y ∈ pc.1.set :=
  View.cover_of_tiledL (FS).2.1 S1x512x1.size (by sl_kernel_rfl) y
theorem first_cover_acc (y : S1x512x1024.Idx) : ∃ pc ∈ (FS).2.2.1, y ∈ pc.1.set :=
  View.cover_of_tiledL (FS).2.2.1 S1x512x1024.size (by sl_kernel_rfl) y
theorem first_cover_q (y : S1x512x1024.Idx) : ∃ pc ∈ (FS).2.2.2.1, y ∈ pc.1.set :=
  View.cover_of_tiledL (FS).2.2.2.1 S1x512x1024.size (by sl_kernel_rfl) y

/-- m, l, acc and q after the first key step. -/
def first_m : Vec F S1x512x1 .f32 := scM.view.read (Elt F) (scM.view.writes (Elt F) scM.view.junk (FS).1)
def first_l : Vec F S1x512x1 .f32 := scL.view.read (Elt F) (scL.view.writes (Elt F) scL.view.junk (FS).2.1)
def first_acc : Vec F S1x512x1024 .f32 := scAcc.view.read (Elt F) (scAcc.view.writes (Elt F) scAcc.view.junk (FS).2.2.1)
def first_q : Vec F S1x512x1024 .bf16 := scQ.view.read (Elt F) (scQ.view.writes (Elt F) scQ.view.junk (FS).2.2.2.1)

end First

section Last

variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : ¬isFirst i) (hc1 : isLast i) (x0 : Vec F S1x512x1024 .f32) (x1 : Vec F S1024x1024 .bf16) (x2 : Vec F S1024 .f32) (x3 : Vec F S1x1024x1024 .bf16) (x4 : Vec F S1x1024x1024 .bf16)
  (xm : Vec F S1x512x1 .f32) (xl : Vec F S1x512x1 .f32) (xacc : Vec F S1x512x1024 .f32) (xq : Vec F S1x512x1024 .bf16)

local notation "LS" => lastStep (F := F) c i arg3 harg3 arg4 harg4 arg5 harg5 arg6 harg6 arg7 harg7 arg8 harg8 arg9 harg9 arg10 harg10 arg11 harg11 arg12 harg12 hc0 hc1 x0 x1 x2 x3 x4 xm xl xacc xq

theorem last_cover_out (y : S1x512x1024.Idx) : ∃ pc ∈ (LS).1, y ∈ pc.1.set :=
  View.cover_of_tiledL (LS).1 S1x512x1024.size (by sl_kernel_rfl) y
theorem last_cover_m (y : S1x512x1.Idx) : ∃ pc ∈ (LS).2.1, y ∈ pc.1.set :=
  View.cover_of_tiledL (LS).2.1 S1x512x1.size (by sl_kernel_rfl) y
theorem last_cover_l (y : S1x512x1.Idx) : ∃ pc ∈ (LS).2.2.1, y ∈ pc.1.set :=
  View.cover_of_tiledL (LS).2.2.1 S1x512x1.size (by sl_kernel_rfl) y
theorem last_cover_acc (y : S1x512x1024.Idx) : ∃ pc ∈ (LS).2.2.2.1, y ∈ pc.1.set :=
  View.cover_of_tiledL (LS).2.2.2.1 S1x512x1024.size (by sl_kernel_rfl) y

/-- The result's block, m, l and acc after the last key step. -/
def last_out : Vec F S1x512x1024 .f32 := outV.read (Elt F) (outV.writes (Elt F) outV.junk (LS).1)
def last_m : Vec F S1x512x1 .f32 := scM.view.read (Elt F) (scM.view.writes (Elt F) scM.view.junk (LS).2.1)
def last_l : Vec F S1x512x1 .f32 := scL.view.read (Elt F) (scL.view.writes (Elt F) scL.view.junk (LS).2.2.1)
def last_acc : Vec F S1x512x1024 .f32 := scAcc.view.read (Elt F) (scAcc.view.writes (Elt F) scAcc.view.junk (LS).2.2.2.1)

end Last

end Cert.KernelIdeal.Attn

end
-- ==== Proof.AttnState.lean ====
/-
  The attention kernel over its grid of 32 points (batch, block of queries, key step; the key step innermost, of extent two),
  at the arrays as the region finds them (a parameter `V`). Even points are first key steps, odd points last key steps.
  After an even point the four carried buffers hold what the first step leaves, a function of that point's blocks alone
  (the first step resets them); after an odd point they hold what the last step leaves from that point's blocks and the
  state the even point before it left. The result's window is untouched at even points and holds acc / l, overwritten
  whole, after odd points, where it is written back. Here: that state in closed form, the invariant that carries it from
  point to point (before the first point: the kernel's buffers at anything), and the record of what every window's buffer
  holds after the body at each point.
-/
import proofs.«101194_j90348932038964_2_alg».proof.Proof.AttnPieces

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and buffers -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Each window's current buffer at point `t`, as the body is called with it. -/
abbrev ms0 (t : Fin cfg1.N) : Memref sig .tc .vmem S1x512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512x1024 .f32 := win1_5.stage (cfg1.slots t 5)
abbrev hs5 (t : Fin cfg1.N) : (ms5 t).IsWhole := hstage1_5 ((cfg1.slots t 5).cast nbuf1_5)

/-! ## Parity of the point decides the case -/

theorem first_of_even (t : Fin cfg1.N) (h : t.val % 2 = 0) : isFirst (grid1.coords t) := (isFirst_iff t).mpr h
theorem not_last_of_even (t : Fin cfg1.N) (h : t.val % 2 = 0) : ¬isLast (grid1.coords t) :=
  fun h' => by have := (isLast_iff t).mp h'; omega
theorem not_first_of_odd (t : Fin cfg1.N) (h : t.val % 2 = 1) : ¬isFirst (grid1.coords t) :=
  fun h' => by have := (isFirst_iff t).mp h'; omega
theorem last_of_odd (t : Fin cfg1.N) (h : t.val % 2 = 1) : isLast (grid1.coords t) := (isLast_iff t).mpr h

/-- The point before. -/
abbrev prev (t : Fin cfg1.N) : Fin cfg1.N := ⟨t.val - 1, Nat.lt_of_le_of_lt (Nat.sub_le _ _) t.isLt⟩
theorem prev_even (t : Fin cfg1.N) (h : t.val % 2 = 1) : (prev t).val % 2 = 0 := by
  show (t.val - 1) % 2 = 0; omega

/-! ## The carried state, point by point -/

/-- m, l, acc, q after an even point. -/
def evM (c : Dev nD) (t : Fin cfg1.N) (h : t.val % 2 = 0) : Vec F S1x512x1 .f32 := first_m c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)
def evL (c : Dev nD) (t : Fin cfg1.N) (h : t.val % 2 = 0) : Vec F S1x512x1 .f32 := first_l c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)
def evAcc (c : Dev nD) (t : Fin cfg1.N) (h : t.val % 2 = 0) : Vec F S1x512x1024 .f32 := first_acc c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)
def evQ (c : Dev nD) (t : Fin cfg1.N) (h : t.val % 2 = 0) : Vec F S1x512x1024 .bf16 := first_q c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h) (not_last_of_even t h) (blk V c 0 t) (blk V c 1 t) (blk V c 2 t) (blk V c 3 t) (blk V c 4 t)

/-- The result's block, m, l, acc after an odd point: the last step from the state the even point before left. -/
def odOut (c : Dev nD) (t : Fin cfg1.N) (h : t.val % 2 = 1) : Vec F S1x512x1024 .f32 := last_out c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))
def odM (c : Dev nD) (t : Fin cfg1.N) (h : t.val % 2 = 1) : Vec F S1x512x1 .f32 := last_m c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))
def odL (c : Dev nD) (t : Fin cfg1.N) (h : t.val % 2 = 1) : Vec F S1x512x1 .f32 := last_l c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))
def odAcc (c : Dev nD) (t : Fin cfg1.N) (h : t.val % 2 = 1) : Vec F S1x512x1024 .f32 := last_acc c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h) (last_of_odd t h) (blk V c 0 t) (blk V c 1 t) (blk V c 2 t) (blk V c 3 t) (blk V c 4 t) (evM V c (prev t) (prev_even t h)) (evL V c (prev t) (prev_even t h)) (evAcc V c (prev t) (prev_even t h)) (evQ V c (prev t) (prev_even t h))

theorem odd_of_not_even {n : ℕ} (h : ¬n % 2 = 0) : n % 2 = 1 := by omega

/-- The four carried buffers after point `t`. The last step only reads q, so after an odd point q is still what the even
    point before left. -/
def mAt (c : Dev nD) (t : Fin cfg1.N) : Vec F S1x512x1 .f32 :=
  if h : t.val % 2 = 0 then evM V c t h else odM V c t (odd_of_not_even h)
def lAt (c : Dev nD) (t : Fin cfg1.N) : Vec F S1x512x1 .f32 :=
  if h : t.val % 2 = 0 then evL V c t h else odL V c t (odd_of_not_even h)
def accAt (c : Dev nD) (t : Fin cfg1.N) : Vec F S1x512x1024 .f32 :=
  if h : t.val % 2 = 0 then evAcc V c t h else odAcc V c t (odd_of_not_even h)
def qAt (c : Dev nD) (t : Fin cfg1.N) : Vec F S1x512x1024 .bf16 :=
  if h : t.val % 2 = 0 then evQ V c t h else evQ V c (prev t) (prev_even t (odd_of_not_even h))
/-- The result's buffer after point `t`: at an odd point acc / l; at an even point the window is idle and nothing
    consults this value. -/
def outAt (c : Dev nD) (t : Fin cfg1.N) : Vec F S1x512x1024 .f32 :=
  if h : t.val % 2 = 1 then odOut V c t h else outV.read (Elt F) outV.junk

theorem mAt_even (c : Dev nD) (t : Fin cfg1.N) (h : t.val % 2 = 0) : mAt V c t = evM V c t h := by unfold mAt; rw [dif_pos h]
theorem lAt_even (c : Dev nD) (t : Fin cfg1.N) (h : t.val % 2 = 0) : lAt V c t = evL V c t h := by unfold lAt; rw [dif_pos h]
theorem accAt_even (c : Dev nD) (t : Fin cfg1.N) (h : t.val % 2 = 0) : accAt V c t = evAcc V c t h := by unfold accAt; rw [dif_pos h]
theorem qAt_even (c : Dev nD) (t : Fin cfg1.N) (h : t.val % 2 = 0) : qAt V c t = evQ V c t h := by unfold qAt; rw [dif_pos h]
theorem mAt_odd (c : Dev nD) (t : Fin cfg1.N) (h : t.val % 2 = 1) : mAt V c t = odM V c t h := by
  unfold mAt; rw [dif_neg (by omega)]
theorem lAt_odd (c : Dev nD) (t : Fin cfg1.N) (h : t.val % 2 = 1) : lAt V c t = odL V c t h := by
  unfold lAt; rw [dif_neg (by omega)]
theorem accAt_odd (c : Dev nD) (t : Fin cfg1.N) (h : t.val % 2 = 1) : accAt V c t = odAcc V c t h := by
  unfold accAt; rw [dif_neg (by omega)]
theorem qAt_odd (c : Dev nD) (t : Fin cfg1.N) (h : t.val % 2 = 1) : qAt V c t = evQ V c (prev t) (prev_even t h) := by
  unfold qAt; rw [dif_neg (by omega)]
theorem outAt_odd (c : Dev nD) (t : Fin cfg1.N) (h : t.val % 2 = 1) : outAt V c t = odOut V c t h := by
  unfold outAt; rw [dif_pos h]

/-! ## The invariant -/

/-- Before position `n`: before the first point the kernel's own buffers and the other kernel's staging buffers at
    anything, the generator register at some state; afterwards the four carried buffers at what point `n − 1` left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (mAt V c ⟨n, hn⟩) ∗ owns (c : Thread nD τ) scL fullShare (lAt V c ⟨n, hn⟩) ∗ owns (c : Thread nD τ) scAcc fullShare (accAt V c ⟨n, hn⟩) ∗ owns (c : Thread nD τ) scQ fullShare (qAt V c ⟨n, hn⟩)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (mAt V c ⟨n, hn⟩) ∗ owns (c : Thread nD τ) scL fullShare (lAt V c ⟨n, hn⟩) ∗ owns (c : Thread nD τ) scAcc fullShare (accAt V c ⟨n, hn⟩) ∗ owns (c : Thread nD τ) scQ fullShare (qAt V c ⟨n, hn⟩)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (mAt V c ⟨n - 1, by omega⟩) ∗ owns (c : Thread nD τ) scL fullShare (lAt V c ⟨n - 1, by omega⟩) ∗ owns (c : Thread nD τ) scAcc fullShare (accAt V c ⟨n - 1, by omega⟩) ∗ owns (c : Thread nD τ) scQ fullShare (qAt V c ⟨n - 1, by omega⟩)) ∗ (∃ r, prngReg c r)) := by
  cases n with
  | zero => exact absurd rfl hz
  | succ n => rfl

/-- The launch's invariant with the four carried buffers as whole buffers owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM fullShare d) ∗ (∃ d, owns (c : Thread nD τ) scL fullShare d) ∗ (∃ d, owns (c : Thread nD τ) scAcc fullShare d) ∗ (∃ d, owns (c : Thread nD τ) scQ fullShare d)) ∗ (∃ r, prngReg c r)) := by
  unfold Pipeline.ΦA; rw [scopedRest1_eq]; simp only [scM, scL, scAcc, scQ, owns_whole]; try rfl

/-! ## The record -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]
theorem after_in4 (c : Dev nD) (t : Fin cfg1.N) : (dat V c).after 4 t = blk V c 4 t := by dsimp only [dat]
theorem after_out (c : Dev nD) (t : Fin cfg1.N) : (dat V c).after 5 t = outAt V c t := by dsimp only [dat]

theorem before_in0 (c : Dev nD) (t : Fin cfg1.N) (d) : (dat V c).before 0 t d = blk V c 0 t :=
  before_in0_of V (dat V c) (A_eq V c 0) (after_in0 V c) t d
theorem before_in1 (c : Dev nD) (t : Fin cfg1.N) (d) : (dat V c).before 1 t d = blk V c 1 t :=
  before_in1_of V (dat V c) (A_eq V c 1) (after_in1 V c) t d
theorem before_in2 (c : Dev nD) (t : Fin cfg1.N) (d) : (dat V c).before 2 t d = blk V c 2 t :=
  before_in2_of V (dat V c) (A_eq V c 2) (after_in2 V c) t d
theorem before_in3 (c : Dev nD) (t : Fin cfg1.N) (d) : (dat V c).before 3 t d = blk V c 3 t :=
  before_in3_of V (dat V c) (A_eq V c 3) (after_in3 V c) t d
theorem before_in4 (c : Dev nD) (t : Fin cfg1.N) (d) : (dat V c).before 4 t d = blk V c 4 t :=
  before_in4_of V (dat V c) (A_eq V c 4) (after_in4 V c) t d

/-- At an even point the result's buffer holds whatever it held: the point is the first, or the point before wrote the
    block back. -/
theorem before_out_even (c : Dev nD) (t : Fin cfg1.N) (h : t.val % 2 = 0) (d) : (dat V c).before 5 t d = d := by
  refine (dat V c).before_out_reset 5 rfl t ?_ d
  by_cases hz : t.val = 0
  · exact .inl hz
  · exact .inr ⟨hz, (flush1_5 _).mpr (by show (t.val - 1) % 2 = 1; omega)⟩

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel
theorem live_in4 : ∀ t : Fin cfg1.N, cfg1.idle 4 (grid1.coords t) = false := by decide +kernel
theorem idle_out_even : ∀ t : Fin cfg1.N, t.val % 2 = 0 → cfg1.idle 5 (grid1.coords t) = true := by decide +kernel
theorem live_out_odd : ∀ t : Fin cfg1.N, t.val % 2 = 1 → cfg1.idle 5 (grid1.coords t) = false := by decide +kernel
theorem noflush_out_even (t : Fin cfg1.N) (h : t.val % 2 = 0) : (cfg1.win 5).flush t = false := by
  cases hf : (cfg1.win 5).flush t
  · rfl
  · have := (flush1_5 t).mp hf; omega

end Cert.KernelIdeal.Attn

end
-- ==== Proof.AttnGrid.lean ====
/-
  The attention kernel's obligation to the pipeline at every point of its grid. By parity of the point: at an even point
  the first key step runs — the invariant hands it the four carried buffers at whatever they hold, and takes them back
  at the state that step leaves; the result's buffer goes through untouched. At an odd point the last key step runs — the
  invariant hands it the four buffers at the state the even point before left, and takes them back at the state this step
  leaves; the result's buffer ends at acc / l. What the core owes is nothing throughout.
-/
import proofs.«101194_j90348932038964_2_alg».proof.Proof.AttnState

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At any position the invariant yields the four carried buffers at some contents. -/
theorem PhiS_any (c : Dev nD) (n : ℕ) (h : n ≤ cfg1.N) :
    PhiS V c n h ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM fullShare d) ∗ (∃ d, owns (c : Thread nD τ) scL fullShare d) ∗ (∃ d, owns (c : Thread nD τ) scAcc fullShare d) ∗ (∃ d, owns (c : Thread nD τ) scQ fullShare d)) ∗ (∃ r, prngReg c r)) := by
  by_cases hz : n = 0
  · rw [PhiS_zero V c n h hz, PhiA_eq]
  · rw [PhiS_pos V c n h hz]
    iintro ⟨⟨HA0, HA1, HA2, HA3, HA4, HA5, HA6, HA7, HS0, HS1, HS2, HS3⟩, Hg⟩
    isplitr [Hg]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HS0]; · iexists _; iexact HS0
      isplitl [HS1]; · iexists _; iexact HS1
      isplitl [HS2]; · iexists _; iexact HS2
      iexists _; iexact HS3
    · iexact Hg

/-- Before an odd point the invariant holds the four buffers at the state the even point before left. -/
theorem PhiS_before_odd (c : Dev nD) (t : Fin cfg1.N) (h : t.val % 2 = 1) :
    PhiS V c t.val (Nat.le_of_lt t.isLt) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM fullShare (evM V c (prev t) (prev_even t h)) ∗ owns (c : Thread nD τ) scL fullShare (evL V c (prev t) (prev_even t h)) ∗ owns (c : Thread nD τ) scAcc fullShare (evAcc V c (prev t) (prev_even t h)) ∗ owns (c : Thread nD τ) scQ fullShare (evQ V c (prev t) (prev_even t h))) ∗ (∃ r, prngReg c r)) := by
  rw [PhiS_pos V c t.val _ (by omega)]
  rw [mAt_even V c (prev t) (prev_even t h), lAt_even V c (prev t) (prev_even t h), accAt_even V c (prev t) (prev_even t h), qAt_even V c (prev t) (prev_even t h)]

/-- What the body is called with at point `t`, the windows one by one, -/
def pointPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def pointPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem sound_point (c : Dev nD) (t : Fin cfg1.N) :
    pointPre V c t ⊢ wp frame (wpE (defs₀ (F := F)) Variants.none c none) Set.univ (bodyAt1 t) (fun _ => pointPost V c t) := by
  unfold pointPre pointPost bodyAt1
  simp only [before_in0, before_in1, before_in2, before_in3, before_in4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_in0 t], after_in0]
  rw [show (dat V c).leavesExact 1 t = owns (c : Thread nD τ) (ms1 t) fullShare ((dat V c).after 1 t) from by
    unfold Dat.leavesExact; rw [live_in1 t], after_in1]
  rw [show (dat V c).leavesExact 2 t = owns (c : Thread nD τ) (ms2 t) fullShare ((dat V c).after 2 t) from by
    unfold Dat.leavesExact; rw [live_in2 t], after_in2]
  rw [show (dat V c).leavesExact 3 t = owns (c : Thread nD τ) (ms3 t) fullShare ((dat V c).after 3 t) from by
    unfold Dat.leavesExact; rw [live_in3 t], after_in3]
  rw [show (dat V c).leavesExact 4 t = owns (c : Thread nD τ) (ms4 t) fullShare ((dat V c).after 4 t) from by
    unfold Dat.leavesExact; rw [live_in4 t], after_in4]
  rw [PhiS_castSucc V c t]
  by_cases h0 : t.val % 2 = 0
  · rw [Dat.leavesExact_idle (dat V c) 5 t (idle_out_even t h0) (noflush_out_even t h0)]
    simp only [before_out_even V c t h0]
    rw [mAt_even V c t h0, lAt_even V c t h0, accAt_even V c t h0, qAt_even V c t h0]
    unfold evM evL evAcc evQ first_m first_l first_acc first_q
    iintro ⟨HΦ, Ho, ⟨%d0, H0⟩, ⟨%d1, H1⟩, ⟨%d2, H2⟩, ⟨%d3, H3⟩, ⟨%d4, H4⟩, ⟨%d5, H5⟩⟩
    ihave HΦ' := (PhiS_any V c _ _) $$ HΦ
    icases HΦ' with ⟨⟨HA0, HA1, HA2, HA3, HA4, HA5, HA6, HA7, HS0, HS1, HS2, HS3⟩, Hg⟩
    iapply ((firstStep (F := F) c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (first_of_even t h0) (not_last_of_even t h0) (blk V c 0 t) (blk V c 1 t) (blk V c 2 t) (blk V c 3 t) (blk V c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, ⟨%e0, HS0⟩, ⟨%e1, HS1⟩, ⟨%e2, HS2⟩, ⟨%e3, HS3⟩⟩
    isplitl [HA0 HA1 HA2 HA3 HA4 HA5 HA6 HA7 HS0 HS1 HS2 HS3 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HS0]
        · unfold owns; iexists _; isplitr
          swap; · iexact HS0
          ipureintro; exact View.read_writes_of_cover _ _ _ _ _ (first_cover_m c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (first_cover_l c _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (first_cover_acc c _ _ _ _ _ _ _ _ _ _ _ _ _ _ _ _ _ _ _ _ _ _ _ _ _ _ _ _)
        unfold owns; iexists _; isplitr
        swap; · iexact HS3
        ipureintro; exact View.read_writes_of_cover _ _ _ _ _ (first_cover_q c _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    iexact H5
  · have h1 : t.val % 2 = 1 := odd_of_not_even h0
    rw [show (dat V c).leavesExact 5 t = owns (c : Thread nD τ) (ms5 t) fullShare ((dat V c).after 5 t) from by
      unfold Dat.leavesExact; rw [live_out_odd t h1], after_out, outAt_odd V c t h1]
    rw [mAt_odd V c t h1, lAt_odd V c t h1, accAt_odd V c t h1, qAt_odd V c t h1]
    unfold odOut odM odL odAcc last_out last_m last_l last_acc
    rw [PhiS_before_odd V c t h1]
    iintro ⟨⟨⟨HA0, HA1, HA2, HA3, HA4, HA5, HA6, HA7, HS0, HS1, HS2, HS3⟩, Hg⟩, Ho, ⟨%d0, H0⟩, ⟨%d1, H1⟩, ⟨%d2, H2⟩, ⟨%d3, H3⟩, ⟨%d4, H4⟩, ⟨%d5, H5⟩⟩
    iapply ((lastStep (F := F) c (grid1.coords t) (ms0 t) (hs0 t) (ms1 t) (hs1 t) (ms2 t) (hs2 t) (ms3 t) (hs3 t) (ms4 t) (hs4 t) (ms5 t) (hs5 t) scM (Memref.isWhole_whole _) scL (Memref.isWhole_whole _) scAcc (Memref.isWhole_whole _) scQ (Memref.isWhole_whole _) (not_first_of_odd t h1) (last_of_odd t h1) (blk V c 0 t) (blk V c 1 t) (blk V c 2 t) (blk V c 3 t) (blk V c 4 t) (evM V c (prev t) (prev_even t h1)) (evL V c (prev t) (prev_even t h1)) (evAcc V c (prev t) (prev_even t h1)) (evQ V c (prev t) (prev_even t h1))).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, ⟨%e5, H5⟩, ⟨%e0, HS0⟩, ⟨%e1, HS1⟩, ⟨%e2, HS2⟩, HS3⟩
    isplitl [HA0 HA1 HA2 HA3 HA4 HA5 HA6 HA7 HS0 HS1 HS2 HS3 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HS0]
        · unfold owns; iexists _; isplitr
          swap; · iexact HS0
          ipureintro; exact View.read_writes_of_cover _ _ _ _ _ (last_cover_m c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (last_cover_l c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (last_cover_acc c _ _ _ _ _ _ _ _ _ _ _ _ _ _ _ _ _ _ _ _ _ _ _ _ _ _ _ _ _ _ _ _)
        iexact HS3
      · iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (last_cover_out c _ _ _ _ _ _ _ _ _ _ _ _ _ _ _ _ _ _ _ _ _ _ _ _ _ _ _ _ _ _ _ _)

/-- The body's obligation to the pipeline, at every point. -/
theorem body_obligation (c : Dev nD) : BodyObligation (dat (F := F) V c) (defs₀ (F := F)) Variants.none () Set.univ := fun t => by
  rw [bigSep_W1, bigSep_W1]
  exact sound_point V c t

/-- What the launch hands the region is the invariant before the first point. -/
theorem inv_in (c : Dev nD) : Pipeline.ΦA spec1 c ⊢ (dat V c).Φ 0 := by
  rw [show (dat V c).Φ 0 = PhiS V c 0 (Nat.zero_le _) from rfl, PhiS_zero V c 0 _ rfl]

/-- After the last point the invariant gives the launch's back: the carried buffers' contents are forgotten. -/
theorem inv_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_eq]
  exact PhiS_any V c _ _

end Cert.KernelIdeal.Attn

end
-- ==== Proof.WholeRun.lean ====
/-
  The whole program's run. @main is four items: host operations (the reshape of the image features, the casts and
  concatenations of the weights and biases), the key/value projection kernel, host operations (the reshapes of keys and
  values), the attention kernel. Core `c`'s buffers between items are a fold from the launch memory: a host stretch
  applies its operations; a kernel leaves each of its arrays at what its pipeline's write-backs make of it and every other
  buffer as it found it. Each kernel is a segment entered with every unscoped buffer at the fold's contents before it
  and left with them at the contents after it. The run: every weakly fair execution terminates, nothing faults, and at the
  end every unscoped buffer of every core holds the fold's last contents.
-/
import proofs.«101194_j90348932038964_2_alg».proof.Proof.KvProjGrid
import proofs.«101194_j90348932038964_2_alg».proof.Proof.AttnGrid
import proofs.«101194_j90348932038964_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: what the key/value kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the key/value kernel: its arrays at what its pipeline leaves, the rest as entered. -/
def W2 (c : Dev nD) : Valuation τ sig (Elt F) :=
  Pipeline.withArrays spec0 c (W1 m ρ c) fun w => (KvProj.dat (V1 m ρ) c).arrAt w cfg0.N
theorem W2_arr (c : Dev nD) (w : Fin cfg0.W) :
    W2 m ρ c (Proc.devRef .tc (Pipeline.arrRef spec0 w)) = (KvProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (KvProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the attention kernel is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The records and the thread state -/

abbrev adm : (p : Fin 2) → (pcfgs (F := F) p).Adm := fun p => (cfgs p).toPCfg_adm
/-- Each pipeline's record, at its kernel's entry contents. -/
def pdats : (p : Fin 2) → (c : Dev nD) → Dat τ (Elt F) Unit ℕ (UR sig nD τ) ℕ (Pipeline.pin (pcfgs (F := F)) adm p) c
  | ⟨0, _⟩ => fun c => KvProj.dat (V1 m ρ) c
  | ⟨1, _⟩ => fun c => Attn.dat (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- Region 0 over the thread state: entered with every unscoped buffer at `W1`, left with them at `W2`. Its arrays are split
    out of the unscoped buffers at entry and put back at what the pipeline leaves at exit; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (KvProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (by rw [show (pdats m ρ 0 c).Φ 0 = Pipeline.ΦA spec0 c from rfl])
    unfold Pipeline.ΦA
    iintro ⟨Hp, -, Hr⟩
    isplitl [Hr]; · iexact Hr
    iexact Hp
  hout c := by
    refine (show (pdats m ρ 0 c).Φ (Fin.last _) ⊢ Pipeline.ΦA spec0 c from by rw [show (pdats m ρ 0 c).Φ (Fin.last _) = Pipeline.ΦA spec0 c from rfl]).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are split
    out of the unscoped buffers at entry and put back at what the pipeline leaves at exit; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.inv_in (V3 m ρ) c)
    unfold Pipeline.ΦA
    iintro ⟨Hp, -, Hr⟩
    isplitl [Hr]; · iexact Hr
    iexact Hp
  hout c := by
    refine (show (pdats m ρ 1 c).Φ (Fin.last _) ⊢ Pipeline.ΦA spec1 c from Attn.inv_out (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Whole

end
-- ==== Proof.WholeFrame.lean ====
/-
  The arguments end as launched, and the frame. No host operation and neither kernel writes an argument array: the
  attention kernel reads the event features and the query bias through input windows, whose arrays the pipeline leaves as
  entered; every other argument bypasses both kernels; the host stretches write only their own results. So the fold of the
  buffers' contents, read at an argument, walks back to the launch memory; with the run, this is the frame: every weakly
  fair execution terminates, nothing faults, and the argument arrays end unchanged. The result array ends at what the
  attention kernel's write-backs make of it.
-/
import proofs.«101194_j90348932038964_2_alg».proof.Proof.WholeRun

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((Attn.dat (V3 m ρ) c).arrAt_in 0 rfl _).trans (Attn.A_eq (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((Attn.dat (V3 m ρ) c).arrAt_in 2 rfl _).trans (Attn.A_eq (V3 m ρ) c 2))
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-- The result array at the end: what the attention kernel's pipeline leaves in its output window's array. -/
theorem W4_result (c : Dev nD) : W4 m ρ c (Proc.devRef .tc main_v8) = (Attn.dat (V3 m ρ) c).arrAt 5 cfg1.N :=
  W4_arr m ρ c 5

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c),
      (h c _ (mem_uc main_arg4 (by decide))).trans (W4_arg4 m ρ c),
      (h c _ (mem_uc main_arg5 (by decide))).trans (W4_arg5 m ρ c),
      (h c _ (mem_uc main_arg6 (by decide))).trans (W4_arg6 m ρ c),
      (h c _ (mem_uc main_arg7 (by decide))).trans (W4_arg7 m ρ c)⟩) (run_all m ρ)

/-- The run with the result named: the result array ends at what the attention kernel's pipeline leaves, the arguments
    unchanged. -/
theorem run_result : θ_run defs (onTc (τ := τ) (main (F := F))) ⟨m, fun _ => 0, ρ⟩ (fun r => ∀ c : Dev nD,
      r.2.mem ((c.tc : Thread nD τ).loc main_v8) = (Attn.dat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (W4_result m ρ c),
      (h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c),
      (h c _ (mem_uc main_arg4 (by decide))).trans (W4_arg4 m ρ c),
      (h c _ (mem_uc main_arg5 (by decide))).trans (W4_arg5 m ρ c),
      (h c _ (mem_uc main_arg6 (by decide))).trans (W4_arg6 m ρ c),
      (h c _ (mem_uc main_arg7 (by decide))).trans (W4_arg7 m ρ c)⟩) (run_all m ρ)

end Cert.KernelIdeal.Whole

end
-- ==== Proof.KvProjArrays.lean ====
/-
  The key/value projection's two result arrays. Point t of the first kernel writes back, as rows 512·t … 512·t + 511 of the
  flattened keys (and values), the left (right) half of  x_t · [Wk | Wv] + [bk | bv],  x_t the same rows of the flattened
  image features; the sixteen blocks tile the 8192 rows. So after the kernel the flattened keys (values) are one function
  of the flattened features, the joined weight and the joined bias: row r is the payload on the row block r / 512, read at
  row r mod 512.
-/
import proofs.«101194_j90348932038964_2_alg».proof.Proof.KvProjGrid
import Idealize.ShloMosaic.Lib.Pipeline.Value
import Idealize.ShloMosaic.Lib.ValueIdx

set_option maxRecDepth 16384

noncomputable section

namespace Cert.KernelIdeal.KvProj

open Cert.KernelIdeal Cert.KernelIdeal.Gen
open Idealize.ShloMosaic Idealize.ShloMosaic.TcCoe Idealize.ShloMosaic.Tactic Idealize.SL.Sem
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- Rows 512·q … of an 8192 × 1024 array as a 512 × 1024 block. -/
def rowBlock (x : Vec F S8192x1024 .f32) (q : ℕ) : Vec F S512x1024 .f32 :=
  fun y => x (fun a => match a with
    | ⟨0, _⟩ => (⟨(512 * q + (y 0).val) % 8192, Nat.mod_lt _ (by decide)⟩ : Fin 8192)
    | ⟨1, _⟩ => (⟨(y 1).val, (y 1).isLt⟩ : Fin 1024))

/-- An index of the 8192 × 1024 array, inside its row block. -/
def inBlock (i : S8192x1024.Idx) : S512x1024.Idx :=
  fun a => match a with
    | ⟨0, _⟩ => (⟨(i 0).val % 512, Nat.mod_lt _ (by decide)⟩ : Fin 512)
    | ⟨1, _⟩ => (⟨(i 1).val, (i 1).isLt⟩ : Fin 1024)

/-- The flattened keys and values as functions of the flattened features, the joined weight and the joined bias. -/
def keysFlat (x : Vec F S8192x1024 .f32) (w : Vec F S1024x2048 .bf16) (b : Vec F S2048 .f32) : Vec F S8192x1024 .bf16 :=
  fun i => k0_pay2 (rowBlock x ((i 0).val / 512)) w b (inBlock i)
def valsFlat (x : Vec F S8192x1024 .f32) (w : Vec F S1024x2048 .bf16) (b : Vec F S2048 .f32) : Vec F S8192x1024 .bf16 :=
  fun i => k0_pay3 (rowBlock x ((i 0).val / 512)) w b (inBlock i)

/-- The printed index maps, decided over the grid: the features' and both results' blocks move with the point along the
    rows; the weight's and the bias's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt F) ((c : Thread nD τ).loc b))

/-- The features' block at point t is row block t. -/
theorem blk_x (c : Dev nD) (t : Fin cfg0.N) : blk V c 0 t = rowBlock (V c main_v0) t.val := by
  obtain ⟨e0, e1, -⟩ := idx_facts t
  have hN : t.val < 16 := lt_of_lt_of_eq t.isLt (show cfg0.N = 16 from N_0)
  funext y
  show V c main_v0 (((cfg0.win 0).blk t).view.emb y) = V c main_v0 _
  refine congrArg (V c main_v0) ?_
  funext a; apply Fin.ext
  match a with
  | ⟨0, _⟩ => show win0_0.index t (0 : Fin 2) * 512 + 1 * (y 0).val = (512 * t.val + (y 0).val) % 8192
              have hy : (y 0).val < 512 := (y 0).isLt
              omega
  | ⟨1, _⟩ => show win0_0.index t (1 : Fin 2) * 1024 + 1 * (y 1).val = (y 1).val
              omega

/-- The weight's block at any point is the whole joined weight; the bias's the whole joined bias. -/
theorem blk_w (c : Dev nD) (t : Fin cfg0.N) : blk V c 1 t = V c main_v3 := by
  obtain ⟨-, -, e0, e1, -⟩ := idx_facts t
  funext y
  show V c main_v3 (((cfg0.win 1).blk t).view.emb y) = V c main_v3 y
  refine congrArg (V c main_v3) ?_
  funext a; apply Fin.ext
  match a with
  | ⟨0, _⟩ => show win0_1.index t (0 : Fin 2) * 1024 + 1 * (y 0).val = (y 0).val; omega
  | ⟨1, _⟩ => show win0_1.index t (1 : Fin 2) * 2048 + 1 * (y 1).val = (y 1).val; omega
theorem blk_b (c : Dev nD) (t : Fin cfg0.N) : blk V c 2 t = V c main_v4 := by
  obtain ⟨-, -, -, -, e0, -⟩ := idx_facts t
  funext y
  show V c main_v4 (((cfg0.win 2).blk t).view.emb y) = V c main_v4 y
  refine congrArg (V c main_v4) ?_
  funext a; apply Fin.ext
  match a with
  | ⟨0, _⟩ => show win0_2.index t (0 : Fin 1) * 2048 + 1 * (y 0).val = (y 0).val; omega

/-- What point t writes back into the keys is block t of `keysFlat`. -/
theorem flushed_keys (c : Dev nD) (t : Fin cfg0.N) :
    (dat V c).flushed 3 t = ((cfg0.win 3).blk t).view.read (Elt F) (keysFlat (V c main_v0) (V c main_v3) (V c main_v4)) := by
  show (cfg0.win 3).cut (grid0.coords t) ((dat V c).after 3 t) = _
  rw [after_keys]
  unfold keysOut
  rw [View.canon_unit_zero hz2]
  simp only [View.ld_unit_zero (S := S512x1024) hz2, View.ld_unit_zero (S := S1024x2048) hz2, View.ld_unit_zero (S := S2048) hz1]
  rw [blk_x, blk_w, blk_b]
  obtain ⟨-, -, -, -, -, e0, e1, -⟩ := idx_facts t
  have hN : t.val < 16 := lt_of_lt_of_eq t.isLt (show cfg0.N = 16 from N_0)
  funext y
  show k0_pay2 (rowBlock (V c main_v0) t.val) (V c main_v3) (V c main_v4) y
    = keysFlat (V c main_v0) (V c main_v3) (V c main_v4) (((cfg0.win 3).blk t).view.emb y)
  unfold keysFlat
  have hy : (y 0).val < 512 := (y 0).isLt
  have h0 : ((((cfg0.win 3).blk t).view.emb y) 0).val = 512 * t.val + (y 0).val := by
    show win0_3.index t (0 : Fin 2) * 512 + 1 * (y 0).val = _; omega
  have h1 : ((((cfg0.win 3).blk t).view.emb y) 1).val = (y 1).val := by
    show win0_3.index t (1 : Fin 2) * 1024 + 1 * (y 1).val = _; omega
  have hq : ((((cfg0.win 3).blk t).view.emb y) 0).val / 512 = t.val := by rw [h0]; omega
  have hi : inBlock (((cfg0.win 3).blk t).view.emb y) = y := by
    funext a; apply Fin.ext
    match a with
    | ⟨0, _⟩ => show ((((cfg0.win 3).blk t).view.emb y) 0).val % 512 = (y 0).val; rw [h0]; omega
    | ⟨1, _⟩ => show ((((cfg0.win 3).blk t).view.emb y) 1).val = (y 1).val; exact h1
  rw [hq, hi]

/-- What point t writes back into the values is block t of `valsFlat`. -/
theorem flushed_vals (c : Dev nD) (t : Fin cfg0.N) :
    (dat V c).flushed 4 t = ((cfg0.win 4).blk t).view.read (Elt F) (valsFlat (V c main_v0) (V c main_v3) (V c main_v4)) := by
  show (cfg0.win 4).cut (grid0.coords t) ((dat V c).after 4 t) = _
  rw [after_vals]
  unfold valsOut
  rw [View.canon_unit_zero hz2]
  simp only [View.ld_unit_zero (S := S512x1024) hz2, View.ld_unit_zero (S := S1024x2048) hz2, View.ld_unit_zero (S := S2048) hz1]
  rw [blk_x, blk_w, blk_b]
  obtain ⟨-, -, -, -, -, -, -, e0, e1⟩ := idx_facts t
  have hN : t.val < 16 := lt_of_lt_of_eq t.isLt (show cfg0.N = 16 from N_0)
  funext y
  show k0_pay3 (rowBlock (V c main_v0) t.val) (V c main_v3) (V c main_v4) y
    = valsFlat (V c main_v0) (V c main_v3) (V c main_v4) (((cfg0.win 4).blk t).view.emb y)
  unfold valsFlat
  have hy : (y 0).val < 512 := (y 0).isLt
  have h0 : ((((cfg0.win 4).blk t).view.emb y) 0).val = 512 * t.val + (y 0).val := by
    show win0_4.index t (0 : Fin 2) * 512 + 1 * (y 0).val = _; omega
  have h1 : ((((cfg0.win 4).blk t).view.emb y) 1).val = (y 1).val := by
    show win0_4.index t (1 : Fin 2) * 1024 + 1 * (y 1).val = _; omega
  have hq : ((((cfg0.win 4).blk t).view.emb y) 0).val / 512 = t.val := by rw [h0]; omega
  have hi : inBlock (((cfg0.win 4).blk t).view.emb y) = y := by
    funext a; apply Fin.ext
    match a with
    | ⟨0, _⟩ => show ((((cfg0.win 4).blk t).view.emb y) 0).val % 512 = (y 0).val; rw [h0]; omega
    | ⟨1, _⟩ => show ((((cfg0.win 4).blk t).view.emb y) 1).val = (y 1).val; exact h1
  rw [hq, hi]

/-- An index of the keys' array is in point t's block iff its row is among the block's 512 rows. -/
theorem mem_blk_keys (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5_0).slice (win0_3.rect t)).set ↔ _
  rw [View.set_slice_whole, Rect.mem_set_unit]
  exact Iff.rfl
theorem mem_blk_vals (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5_1).slice (win0_4.rect t)).set ↔ _
  rw [View.set_slice_whole, Rect.mem_set_unit]
  exact Iff.rfl

/-- Row r lies in the block of point r / 512. -/
theorem cover_keys (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  refine ⟨⟨(i 0).val / 512, by rw [show cfg0.N = 16 from N_0]; omega⟩, flush0_3 _, ?_⟩
  rw [mem_blk_keys]
  obtain ⟨-, -, -, -, -, e0, e1, -⟩ := idx_facts ⟨(i 0).val / 512, by rw [show cfg0.N = 16 from N_0]; omega⟩
  intro a
  match a with
  | ⟨0, _⟩ => show win0_3.index _ (0 : Fin 2) * 512 ≤ (i 0).val ∧ (i 0).val < win0_3.index _ (0 : Fin 2) * 512 + 512
              rw [e0]; dsimp only; omega
  | ⟨1, _⟩ => show win0_3.index _ (1 : Fin 2) * 1024 ≤ (i 1).val ∧ (i 1).val < win0_3.index _ (1 : Fin 2) * 1024 + 1024
              rw [e1]; omega
theorem cover_vals (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  refine ⟨⟨(i 0).val / 512, by rw [show cfg0.N = 16 from N_0]; omega⟩, flush0_4 _, ?_⟩
  rw [mem_blk_vals]
  obtain ⟨-, -, -, -, -, -, -, e0, e1⟩ := idx_facts ⟨(i 0).val / 512, by rw [show cfg0.N = 16 from N_0]; omega⟩
  intro a
  match a with
  | ⟨0, _⟩ => show win0_4.index _ (0 : Fin 2) * 512 ≤ (i 0).val ∧ (i 0).val < win0_4.index _ (0 : Fin 2) * 512 + 512
              rw [e0]; dsimp only; omega
  | ⟨1, _⟩ => show win0_4.index _ (1 : Fin 2) * 1024 ≤ (i 1).val ∧ (i 1).val < win0_4.index _ (1 : Fin 2) * 1024 + 1024
              rw [e1]; omega

/-- The two result arrays after the kernel. -/
theorem final_keys (c : Dev nD) : (dat V c).arrAt 3 cfg0.N = keysFlat (V c main_v0) (V c main_v3) (V c main_v4) :=
  (dat V c).arrAt_eq_of_cover 3 _ (fun t _ => flushed_keys V c t) cover_keys
theorem final_vals (c : Dev nD) : (dat V c).arrAt 4 cfg0.N = valsFlat (V c main_v0) (V c main_v3) (V c main_v4) :=
  (dat V c).arrAt_eq_of_cover 4 _ (fun t _ => flushed_vals V c t) cover_vals

end Cert.KernelIdeal.KvProj

end
-- ==== Proof.AttnValues.lean ====
/-
  The attention kernel's carried state and result as values. The pieces each case's run finds are whole-buffer stores, and a
  load of a buffer just stored whole reads the stored value; so what each buffer holds afterwards is a closed expression
  in the kernel's arithmetic (the payloads: q' the scaled queries, the new row maximum, the rescaling factor a, the
  weights p, the new row sum, the new weighted sum, the quotient) of the step's input blocks and of the state before it.
    first step:  q = q'(x, Wq, bq);  m = max(−∞, rowmax(q·kᵀ));  l = a·0 + rowsum p;  acc = a·0 + p·v
    last step:   m, l, acc updated from (m, l, acc, q) of the step before;  result = acc / l.
-/
import proofs.«101194_j90348932038964_2_alg».proof.Proof.AttnPieces
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One key step of the online recurrence, as the kernel computes it from the scaled queries q, the step's keys k and
    values v, and the state (m, l, acc) before it. -/
def stepM (q : Vec F S1x512x1024 .bf16) (k : Vec F S1x1024x1024 .bf16) (xm : Vec F S1x512x1 .f32) : Vec F S1x512x1 .f32 :=
  k1_pay2 (k1_pay10 q k xm)
def stepL (q : Vec F S1x512x1024 .bf16) (k : Vec F S1x1024x1024 .bf16) (xm xl : Vec F S1x512x1 .f32) : Vec F S1x512x1 .f32 :=
  k1_pay13 q k xm xm xl
def stepAcc (q : Vec F S1x512x1024 .bf16) (k v : Vec F S1x1024x1024 .bf16) (xm : Vec F S1x512x1 .f32) (xacc : Vec F S1x512x1024 .f32) :
    Vec F S1x512x1024 .f32 :=
  k1_pay1 (k1_pay8 v) (k1_pay11 q k xm xm) (k1_pay12 q k xm) xacc

section First
variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : isFirst i) (hc1 : ¬isLast i) (x0 : Vec F S1x512x1024 .f32) (x1 : Vec F S1024x1024 .bf16) (x2 : Vec F S1024 .f32) (x3 : Vec F S1x1024x1024 .bf16) (x4 : Vec F S1x1024x1024 .bf16)

theorem first_q_eq : first_q (F := F) c i arg3 harg3 arg4 harg4 arg5 harg5 arg6 harg6 arg7 harg7 arg8 harg8 arg9 harg9 arg10 harg10 arg11 harg11 arg12 harg12 hc0 hc1 x0 x1 x2 x3 x4 = k1_pay7 x0 x1 x2 := by
  unfold first_q
  rw [View.read_writes_eq_canon _ _ _ (first_cover_q c i arg3 harg3 arg4 harg4 arg5 harg5 arg6 harg6 arg7 harg7 arg8 harg8 arg9 harg9 arg10 harg10 arg11 harg11 arg12 harg12 hc0 hc1 x0 x1 x2 x3 x4)]
  unfold firstStep
  dsimp only
  sl_unfold_words
  rw [View.canon_unit_zero hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

theorem first_m_eq : first_m (F := F) c i arg3 harg3 arg4 harg4 arg5 harg5 arg6 harg6 arg7 harg7 arg8 harg8 arg9 harg9 arg10 harg10 arg11 harg11 arg12 harg12 hc0 hc1 x0 x1 x2 x3 x4 = stepM (k1_pay7 x0 x1 x2) x3 (k1_pay4 (F := F)) := by
  unfold first_m stepM
  rw [View.read_writes_eq_canon _ _ _ (first_cover_m c i arg3 harg3 arg4 harg4 arg5 harg5 arg6 harg6 arg7 harg7 arg8 harg8 arg9 harg9 arg10 harg10 arg11 harg11 arg12 harg12 hc0 hc1 x0 x1 x2 x3 x4)]
  unfold firstStep
  dsimp only
  sl_unfold_words
  rw [View.canon_cons_unit_zero (S := S1x512x1) hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

theorem first_l_eq : first_l (F := F) c i arg3 harg3 arg4 harg4 arg5 harg5 arg6 harg6 arg7 harg7 arg8 harg8 arg9 harg9 arg10 harg10 arg11 harg11 arg12 harg12 hc0 hc1 x0 x1 x2 x3 x4 = stepL (k1_pay7 x0 x1 x2) x3 (k1_pay4 (F := F)) (k1_pay5 (F := F)) := by
  unfold first_l stepL
  rw [View.read_writes_eq_canon _ _ _ (first_cover_l c i arg3 harg3 arg4 harg4 arg5 harg5 arg6 harg6 arg7 harg7 arg8 harg8 arg9 harg9 arg10 harg10 arg11 harg11 arg12 harg12 hc0 hc1 x0 x1 x2 x3 x4)]
  unfold firstStep
  dsimp only
  sl_unfold_words
  rw [View.canon_cons_unit_zero (S := S1x512x1) hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

theorem first_acc_eq : first_acc (F := F) c i arg3 harg3 arg4 harg4 arg5 harg5 arg6 harg6 arg7 harg7 arg8 harg8 arg9 harg9 arg10 harg10 arg11 harg11 arg12 harg12 hc0 hc1 x0 x1 x2 x3 x4 = stepAcc (k1_pay7 x0 x1 x2) x3 x4 (k1_pay4 (F := F)) (k1_pay6 (F := F)) := by
  unfold first_acc stepAcc
  rw [View.read_writes_eq_canon _ _ _ (first_cover_acc c i arg3 harg3 arg4 harg4 arg5 harg5 arg6 harg6 arg7 harg7 arg8 harg8 arg9 harg9 arg10 harg10 arg11 harg11 arg12 harg12 hc0 hc1 x0 x1 x2 x3 x4)]
  unfold firstStep
  dsimp only
  sl_unfold_words
  rw [View.canon_cons_unit_zero (S := S1x512x1024) hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

end First

section Last
variable (c : Dev nD) (i : grid1.Coords) (arg3 : Memref sig .tc .vmem S1x512x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x512x1024 .f32) (harg8 : arg8.IsWhole) (arg9 : Memref sig .tc .vmem S1x512x1 .f32) (harg9 : arg9.IsWhole) (arg10 : Memref sig .tc .vmem S1x512x1 .f32) (harg10 : arg10.IsWhole) (arg11 : Memref sig .tc .vmem S1x512x1024 .f32) (harg11 : arg11.IsWhole) (arg12 : Memref sig .tc .vmem S1x512x1024 .bf16) (harg12 : arg12.IsWhole) (hc0 : ¬isFirst i) (hc1 : isLast i) (x0 : Vec F S1x512x1024 .f32) (x1 : Vec F S1024x1024 .bf16) (x2 : Vec F S1024 .f32) (x3 : Vec F S1x1024x1024 .bf16) (x4 : Vec F S1x1024x1024 .bf16)
  (xm : Vec F S1x512x1 .f32) (xl : Vec F S1x512x1 .f32) (xacc : Vec F S1x512x1024 .f32) (xq : Vec F S1x512x1024 .bf16)

theorem last_m_eq : last_m (F := F) c i arg3 harg3 arg4 harg4 arg5 harg5 arg6 harg6 arg7 harg7 arg8 harg8 arg9 harg9 arg10 harg10 arg11 harg11 arg12 harg12 hc0 hc1 x0 x1 x2 x3 x4 xm xl xacc xq = stepM xq x3 xm := by
  unfold last_m stepM
  rw [View.read_writes_eq_canon _ _ _ (last_cover_m c i arg3 harg3 arg4 harg4 arg5 harg5 arg6 harg6 arg7 harg7 arg8 harg8 arg9 harg9 arg10 harg10 arg11 harg11 arg12 harg12 hc0 hc1 x0 x1 x2 x3 x4 xm xl xacc xq)]
  unfold lastStep
  dsimp only
  sl_unfold_words
  rw [View.canon_unit_zero hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

theorem last_l_eq : last_l (F := F) c i arg3 harg3 arg4 harg4 arg5 harg5 arg6 harg6 arg7 harg7 arg8 harg8 arg9 harg9 arg10 harg10 arg11 harg11 arg12 harg12 hc0 hc1 x0 x1 x2 x3 x4 xm xl xacc xq = stepL xq x3 xm xl := by
  unfold last_l stepL
  rw [View.read_writes_eq_canon _ _ _ (last_cover_l c i arg3 harg3 arg4 harg4 arg5 harg5 arg6 harg6 arg7 harg7 arg8 harg8 arg9 harg9 arg10 harg10 arg11 harg11 arg12 harg12 hc0 hc1 x0 x1 x2 x3 x4 xm xl xacc xq)]
  unfold lastStep
  dsimp only
  sl_unfold_words
  rw [View.canon_unit_zero hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

theorem last_acc_eq : last_acc (F := F) c i arg3 harg3 arg4 harg4 arg5 harg5 arg6 harg6 arg7 harg7 arg8 harg8 arg9 harg9 arg10 harg10 arg11 harg11 arg12 harg12 hc0 hc1 x0 x1 x2 x3 x4 xm xl xacc xq = stepAcc xq x3 x4 xm xacc := by
  unfold last_acc stepAcc
  rw [View.read_writes_eq_canon _ _ _ (last_cover_acc c i arg3 harg3 arg4 harg4 arg5 harg5 arg6 harg6 arg7 harg7 arg8 harg8 arg9 harg9 arg10 harg10 arg11 harg11 arg12 harg12 hc0 hc1 x0 x1 x2 x3 x4 xm xl xacc xq)]
  unfold lastStep
  dsimp only
  sl_unfold_words
  rw [View.canon_unit_zero hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

theorem last_out_eq : last_out (F := F) c i arg3 harg3 arg4 harg4 arg5 harg5 arg6 harg6 arg7 harg7 arg8 harg8 arg9 harg9 arg10 harg10 arg11 harg11 arg12 harg12 hc0 hc1 x0 x1 x2 x3 x4 xm xl xacc xq = k1_pay3 (stepAcc xq x3 x4 xm xacc) (stepL xq x3 xm xl) := by
  unfold last_out stepAcc stepL
  rw [View.read_writes_eq_canon _ _ _ (last_cover_out c i arg3 harg3 arg4 harg4 arg5 harg5 arg6 harg6 arg7 harg7 arg8 harg8 arg9 harg9 arg10 harg10 arg11 harg11 arg12 harg12 hc0 hc1 x0 x1 x2 x3 x4 xm xl xacc xq)]
  unfold lastStep
  dsimp only
  sl_unfold_words
  rw [View.canon_unit_zero hz3]
  simp only [View.readCov_unit_zero (S := S1x512x1024) _ hz3, View.readCov_unit_zero (S := S1x512x1) _ hz3, View.readAt_eq_ld,
    harg3.read_unread, harg4.read_unread, harg5.read_unread, harg6.read_unread, harg7.read_unread,
    harg9.read_unread, harg10.read_unread, harg11.read_unread, harg12.read_unread,
    View.ld_unit_zero (S := S1x512x1024) hz3, View.ld_unit_zero (S := S1024x1024) hz2, View.ld_unit_zero (S := S1024) hz1,
    View.ld_unit_zero (S := S1x1024x1024) hz3, View.ld_unit_zero (S := S1x512x1) hz3]

end Last

end Cert.KernelIdeal.Attn

end
-- ==== Proof.AttnTwoStep.lean ====
/-
  What an odd point writes back. The result's block at an odd point is the last key step applied to that point's keys and
  values and to the state the even point before left, which is the first key step applied to ITS keys and values from the
  reset state; the queries' block, the query weight and bias are those of the even point (the same block: only the key
  step moved). Composed: one expression `twoStep` in the kernel's arithmetic of the event block, the query weight and bias,
  and the two key steps' blocks of keys and values.
-/
import proofs.«101194_j90348932038964_2_alg».proof.Proof.AttnState
import proofs.«101194_j90348932038964_2_alg».proof.Proof.AttnValues

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Idealize.ShloMosaic.Pipeline (Dat Cfg Window BodyObligation cellOf)

variable {F : FTy → Type} [FloatOps F]

/-- Two key steps of the online recurrence from the reset state, then the quotient: the result's block as the kernel
    computes it from the event block `ev`, the query weight `wq` and bias `bq`, and the keys and values of the first
    (`k1`, `v1`) and of the last (`k2`, `v2`) key step. -/
def twoStep (ev : Vec F S1x512x1024 .f32) (wq : Vec F S1024x1024 .bf16) (bq : Vec F S1024 .f32)
    (k1 v1 k2 v2 : Vec F S1x1024x1024 .bf16) : Vec F S1x512x1024 .f32 :=
  k1_pay3
    (stepAcc (k1_pay7 ev wq bq) k2 v2 (stepM (k1_pay7 ev wq bq) k1 (k1_pay4 (F := F)))
      (stepAcc (k1_pay7 ev wq bq) k1 v1 (k1_pay4 (F := F)) (k1_pay6 (F := F))))
    (stepL (k1_pay7 ev wq bq) k2 (stepM (k1_pay7 ev wq bq) k1 (k1_pay4 (F := F)))
      (stepL (k1_pay7 ev wq bq) k1 (k1_pay4 (F := F)) (k1_pay5 (F := F))))

variable (V : (c : Dev nD) → (b : Ref sig .tc) → Buf (Elt F) ((c : Thread nD τ).loc b))

/-- The result's buffer after an odd point. -/
theorem outAt_odd_twoStep (c : Dev nD) (t : Fin cfg1.N) (h : t.val % 2 = 1) :
    outAt V c t = twoStep (blk V c 0 (prev t)) (blk V c 1 (prev t)) (blk V c 2 (prev t))
      (blk V c 3 (prev t)) (blk V c 4 (prev t)) (blk V c 3 t) (blk V c 4 t) := by
  rw [outAt_odd V c t h]
  unfold odOut
  rw [last_out_eq]
  unfold evM evL evAcc evQ
  rw [first_m_eq, first_l_eq, first_acc_eq, first_q_eq]
  rfl

end Cert.KernelIdeal.Attn

end
-- ==== Proof.AttnArrays.lean ====
/-
  The attention kernel's result array. Point t = 8·b + 2·qi + ki of its grid works on batch b, query block qi (512 rows)
  and key step ki (1024 keys). An odd point (ki = 1) writes back, as rows 512·qi … of batch b of the result, the two key
  steps' composite `twoStep` of: the event features' block (b, qi), the query weight and bias (whole), and the keys' and
  values' blocks (b, 0) and (b, 1). The sixteen such blocks tile the result. So after the kernel the result is one function
  of the event features, the query weight and bias, and the keys and values: entry (b, n, d) is the composite on the
  blocks of batch b and query block n / 512, read at row n mod 512, channel d.
-/
import proofs.«101194_j90348932038964_2_alg».proof.Proof.AttnTwoStep
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Idealize.ShloMosaic.Pipeline (Dat Cfg Window BodyObligation cellOf)

variable {F : FTy → Type} [FloatOps F]

/-- Batch b, rows 512·q … of a 4 × 2048 × 1024 array as a 1 × 512 × 1024 block. -/
def queryBlock (x : Vec F S4x2048x1024 .f32) (b q : ℕ) : Vec F S1x512x1024 .f32 :=
  fun y => x (fun a => match a with
    | ⟨0, _⟩ => (⟨(b + (y 0).val) % 4, Nat.mod_lt _ (by decide)⟩ : Fin 4)
    | ⟨1, _⟩ => (⟨(512 * q + (y 1).val) % 2048, Nat.mod_lt _ (by decide)⟩ : Fin 2048)
    | ⟨2, _⟩ => (⟨(y 2).val, (y 2).isLt⟩ : Fin 1024))

/-- Batch b, rows 1024·s … of a 4 × 2048 × 1024 array as a 1 × 1024 × 1024 block. -/
def keyBlock (x : Vec F S4x2048x1024 .bf16) (b s : ℕ) : Vec F S1x1024x1024 .bf16 :=
  fun y => x (fun a => match a with
    | ⟨0, _⟩ => (⟨(b + (y 0).val) % 4, Nat.mod_lt _ (by decide)⟩ : Fin 4)
    | ⟨1, _⟩ => (⟨(1024 * s + (y 1).val) % 2048, Nat.mod_lt _ (by decide)⟩ : Fin 2048)
    | ⟨2, _⟩ => (⟨(y 2).val, (y 2).isLt⟩ : Fin 1024))

/-- An index of the result, inside its query block. -/
def inQueryBlock (i : S4x2048x1024.Idx) : S1x512x1024.Idx :=
  fun a => match a with
    | ⟨0, _⟩ => (⟨0, by decide⟩ : Fin 1)
    | ⟨1, _⟩ => (⟨(i 1).val % 512, Nat.mod_lt _ (by decide)⟩ : Fin 512)
    | ⟨2, _⟩ => (⟨(i 2).val, (i 2).isLt⟩ : Fin 1024)

/-- The result as a function of the event features, the query weight and bias, the keys and the values. -/
def resultOf (ev : Vec F S4x2048x1024 .f32) (wq : Vec F S1024x1024 .bf16) (bq : Vec F S1024 .f32)
    (k v : Vec F S4x2048x1024 .bf16) : Vec F S4x2048x1024 .f32 :=
  fun i => twoStep (queryBlock ev (i 0).val ((i 1).val / 512)) wq bq
    (keyBlock k (i 0).val 0) (keyBlock v (i 0).val 0) (keyBlock k (i 0).val 1) (keyBlock v (i 0).val 1) (inQueryBlock i)

/-- The printed index maps, decided over the grid. -/
theorem idx_facts : ∀ t : Fin cfg1.N,
    win1_0.index t (0 : Fin 3) = t.val / 8 ∧ win1_0.index t (1 : Fin 3) = (t.val / 2) % 4 ∧ win1_0.index t (2 : Fin 3) = 0
    ∧ win1_1.index t (0 : Fin 2) = 0 ∧ win1_1.index t (1 : Fin 2) = 0 ∧ win1_2.index t (0 : Fin 1) = 0
    ∧ win1_3.index t (0 : Fin 3) = t.val / 8 ∧ win1_3.index t (1 : Fin 3) = t.val % 2 ∧ win1_3.index t (2 : Fin 3) = 0
    ∧ win1_4.index t (0 : Fin 3) = t.val / 8 ∧ win1_4.index t (1 : Fin 3) = t.val % 2 ∧ win1_4.index t (2 : Fin 3) = 0
    ∧ win1_5.index t (0 : Fin 3) = t.val / 8 ∧ win1_5.index t (1 : Fin 3) = (t.val / 2) % 4 ∧ win1_5.index t (2 : Fin 3) = 0 :=
  (by decide +kernel : ∀ t : Fin grid1.N, _)

variable (V : (c : Dev nD) → (b : Ref sig .tc) → Buf (Elt F) ((c : Thread nD τ).loc b))

theorem blk_ev (c : Dev nD) (t : Fin cfg1.N) : blk V c 0 t = queryBlock (V c main_arg0) (t.val / 8) ((t.val / 2) % 4) := by
  obtain ⟨e0, e1, e2, -⟩ := idx_facts t
  have hN : t.val < 32 := lt_of_lt_of_eq t.isLt (show cfg1.N = 32 from N_1)
  funext y
  show V c main_arg0 (((cfg1.win 0).blk t).view.emb y) = V c main_arg0 _
  refine congrArg (V c main_arg0) ?_
  funext a; apply Fin.ext
  match a with
  | ⟨0, _⟩ => show win1_0.index t (0 : Fin 3) * 1 + 1 * (y 0).val = (t.val / 8 + (y 0).val) % 4
              have hy : (y 0).val < 1 := (y 0).isLt
              omega
  | ⟨1, _⟩ => show win1_0.index t (1 : Fin 3) * 512 + 1 * (y 1).val = (512 * ((t.val / 2) % 4) + (y 1).val) % 2048
              have hy : (y 1).val < 512 := (y 1).isLt
              omega
  | ⟨2, _⟩ => show win1_0.index t (2 : Fin 3) * 1024 + 1 * (y 2).val = (y 2).val
              omega

theorem blk_wq (c : Dev nD) (t : Fin cfg1.N) : blk V c 1 t = V c main_v1 := by
  obtain ⟨-, -, -, e0, e1, -⟩ := idx_facts t
  funext y
  show V c main_v1 (((cfg1.win 1).blk t).view.emb y) = V c main_v1 y
  refine congrArg (V c main_v1) ?_
  funext a; apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

theorem blk_bq (c : Dev nD) (t : Fin cfg1.N) : blk V c 2 t = V c main_arg3 := by
  obtain ⟨-, -, -, -, -, e0, -⟩ := idx_facts t
  funext y
  show V c main_arg3 (((cfg1.win 2).blk t).view.emb y) = V c main_arg3 y
  refine congrArg (V c main_arg3) ?_
  funext a; apply Fin.ext
  match a with
  | ⟨0, _⟩ => show win1_2.index t (0 : Fin 1) * 1024 + 1 * (y 0).val = (y 0).val; omega

theorem blk_k (c : Dev nD) (t : Fin cfg1.N) : blk V c 3 t = keyBlock (V c main_v6) (t.val / 8) (t.val % 2) := by
  obtain ⟨-, -, -, -, -, -, e0, e1, e2, -⟩ := idx_facts t
  have hN : t.val < 32 := lt_of_lt_of_eq t.isLt (show cfg1.N = 32 from N_1)
  funext y
  show V c main_v6 (((cfg1.win 3).blk t).view.emb y) = V c main_v6 _
  refine congrArg (V c main_v6) ?_
  funext a; apply Fin.ext
  match a with
  | ⟨0, _⟩ => show win1_3.index t (0 : Fin 3) * 1 + 1 * (y 0).val = (t.val / 8 + (y 0).val) % 4
              have hy : (y 0).val < 1 := (y 0).isLt
              omega
  | ⟨1, _⟩ => show win1_3.index t (1 : Fin 3) * 1024 + 1 * (y 1).val = (1024 * (t.val % 2) + (y 1).val) % 2048
              have hy : (y 1).val < 1024 := (y 1).isLt
              omega
  | ⟨2, _⟩ => show win1_3.index t (2 : Fin 3) * 1024 + 1 * (y 2).val = (y 2).val
              omega

theorem blk_v (c : Dev nD) (t : Fin cfg1.N) : blk V c 4 t = keyBlock (V c main_v7) (t.val / 8) (t.val % 2) := by
  obtain ⟨-, -, -, -, -, -, -, -, -, e0, e1, e2, -⟩ := idx_facts t
  have hN : t.val < 32 := lt_of_lt_of_eq t.isLt (show cfg1.N = 32 from N_1)
  funext y
  show V c main_v7 (((cfg1.win 4).blk t).view.emb y) = V c main_v7 _
  refine congrArg (V c main_v7) ?_
  funext a; apply Fin.ext
  match a with
  | ⟨0, _⟩ => show win1_4.index t (0 : Fin 3) * 1 + 1 * (y 0).val = (t.val / 8 + (y 0).val) % 4
              have hy : (y 0).val < 1 := (y 0).isLt
              omega
  | ⟨1, _⟩ => show win1_4.index t (1 : Fin 3) * 1024 + 1 * (y 1).val = (1024 * (t.val % 2) + (y 1).val) % 2048
              have hy : (y 1).val < 1024 := (y 1).isLt
              omega
  | ⟨2, _⟩ => show win1_4.index t (2 : Fin 3) * 1024 + 1 * (y 2).val = (y 2).val
              omega

/-- What an odd point writes back is its block of `resultOf`. -/
theorem flushed_result (c : Dev nD) (t : Fin cfg1.N) (hf : (cfg1.win 5).flush t = true) :
    (dat V c).flushed 5 t = ((cfg1.win 5).blk t).view.read (Elt F)
      (resultOf (V c main_arg0) (V c main_v1) (V c main_arg3) (V c main_v6) (V c main_v7)) := by
  have h1 : t.val % 2 = 1 := (flush1_5 t).mp hf
  have hN : t.val < 32 := lt_of_lt_of_eq t.isLt (show cfg1.N = 32 from N_1)
  show (cfg1.win 5).cut (grid1.coords t) ((dat V c).after 5 t) = _
  rw [after_out, outAt_odd_twoStep V c t h1]
  rw [blk_ev V c (prev t), blk_wq V c (prev t), blk_bq V c (prev t), blk_k V c (prev t), blk_v V c (prev t), blk_k V c t, blk_v V c t]
  rw [show (prev t).val / 8 = t.val / 8 from by show (t.val - 1) / 8 = t.val / 8; omega,
    show ((prev t).val / 2) % 4 = (t.val / 2) % 4 from by show ((t.val - 1) / 2) % 4 = (t.val / 2) % 4; omega,
    show (prev t).val % 2 = 0 from by show (t.val - 1) % 2 = 0; omega, h1]
  obtain ⟨-, -, -, -, -, -, -, -, -, -, -, -, e0, e1, e2⟩ := idx_facts t
  funext y
  show twoStep (queryBlock (V c main_arg0) (t.val / 8) ((t.val / 2) % 4)) (V c main_v1) (V c main_arg3)
      (keyBlock (V c main_v6) (t.val / 8) 0) (keyBlock (V c main_v7) (t.val / 8) 0)
      (keyBlock (V c main_v6) (t.val / 8) 1) (keyBlock (V c main_v7) (t.val / 8) 1) y
    = resultOf (V c main_arg0) (V c main_v1) (V c main_arg3) (V c main_v6) (V c main_v7) (((cfg1.win 5).blk t).view.emb y)
  unfold resultOf
  have hy0 : (y 0).val < 1 := (y 0).isLt
  have hy1 : (y 1).val < 512 := (y 1).isLt
  have g0 : ((((cfg1.win 5).blk t).view.emb y) 0).val = t.val / 8 := by
    show win1_5.index t (0 : Fin 3) * 1 + 1 * (y 0).val = _; omega
  have g1 : ((((cfg1.win 5).blk t).view.emb y) 1).val = 512 * ((t.val / 2) % 4) + (y 1).val := by
    show win1_5.index t (1 : Fin 3) * 512 + 1 * (y 1).val = _; omega
  have g2 : ((((cfg1.win 5).blk t).view.emb y) 2).val = (y 2).val := by
    show win1_5.index t (2 : Fin 3) * 1024 + 1 * (y 2).val = _; omega
  have hq : ((((cfg1.win 5).blk t).view.emb y) 1).val / 512 = (t.val / 2) % 4 := by rw [g1]; omega
  have hi : inQueryBlock (((cfg1.win 5).blk t).view.emb y) = y := by
    funext a; apply Fin.ext
    match a with
    | ⟨0, _⟩ => show 0 = (y 0).val; omega
    | ⟨1, _⟩ => show ((((cfg1.win 5).blk t).view.emb y) 1).val % 512 = (y 1).val; rw [g1]; omega
    | ⟨2, _⟩ => show ((((cfg1.win 5).blk t).view.emb y) 2).val = (y 2).val; exact g2
  rw [g0, hq, hi]

theorem mem_blk_result (t : Fin cfg1.N) (i : S4x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v8).slice (win1_5.rect t)).set ↔ _
  rw [View.set_slice_whole, Rect.mem_set_unit]
  exact Iff.rfl

/-- Entry (b, n, ·) lies in the block of the odd point 8·b + 2·(n / 512) + 1. -/
theorem cover_result (i : S4x2048x1024.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hlt : 8 * (i 0).val + 2 * ((i 1).val / 512) + 1 < cfg1.N := by rw [show cfg1.N = 32 from N_1]; omega
  refine ⟨⟨8 * (i 0).val + 2 * ((i 1).val / 512) + 1, hlt⟩, (flush1_5 _).mpr (by dsimp only; omega), ?_⟩
  rw [mem_blk_result]
  obtain ⟨-, -, -, -, -, -, -, -, -, -, -, -, e0, e1, e2⟩ := idx_facts ⟨8 * (i 0).val + 2 * ((i 1).val / 512) + 1, hlt⟩
  intro a
  match a with
  | ⟨0, _⟩ => show win1_5.index _ (0 : Fin 3) * 1 ≤ (i 0).val ∧ (i 0).val < win1_5.index _ (0 : Fin 3) * 1 + 1
              rw [e0]; dsimp only; omega
  | ⟨1, _⟩ => show win1_5.index _ (1 : Fin 3) * 512 ≤ (i 1).val ∧ (i 1).val < win1_5.index _ (1 : Fin 3) * 512 + 512
              rw [e1]; dsimp only; omega
  | ⟨2, _⟩ => show win1_5.index _ (2 : Fin 3) * 1024 ≤ (i 2).val ∧ (i 2).val < win1_5.index _ (2 : Fin 3) * 1024 + 1024
              rw [e2]; omega

/-- The result array after the kernel. -/
theorem final_result (c : Dev nD) : (dat V c).arrAt 5 cfg1.N
    = resultOf (V c main_arg0) (V c main_v1) (V c main_arg3) (V c main_v6) (V c main_v7) :=
  (dat V c).arrAt_eq_of_cover 5 _ (fun t hf => flushed_result V c t hf) cover_result

end Cert.KernelIdeal.Attn

end
-- ==== Proof.WholeValue.lean ====
/-
  The result array in terms of the launch memory. The key/value kernel is entered with the image features flattened to
  8192 rows, the joined weight [Wk | Wv] rounded to the matrix unit's input format, and the joined bias [bk | bv]; it
  leaves the flattened keys and values. The attention kernel is entered with the event features and the query bias as
  launched, the query weight rounded to the same format, and the keys and values reshaped to batches. Composed with what
  each kernel's pipeline leaves, the result array is `Attn.resultOf` of those terms.
-/
import proofs.«101194_j90348932038964_2_alg».proof.Proof.WholeFrame
import proofs.«101194_j90348932038964_2_alg».proof.Proof.KvProjArrays
import proofs.«101194_j90348932038964_2_alg».proof.Proof.AttnArrays
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## What the key/value kernel is entered with -/

/-- The image features, flattened. -/
def imgFlat (c : Dev nD) : Vec F S8192x1024 .f32 := shapeCast S8192x1024 (m ((c : Thread nD τ).loc main_arg1)) shapeCasts_S4x2048x1024_S8192x1024
/-- The joined weight, rounded. -/
def wKV (c : Dev nD) : Vec F S1024x2048 .bf16 :=
  truncf .bf16 (concatenate S1024x2048 1 [⟨S1024x1024, (m ((c : Thread nD τ).loc main_arg4))⟩, ⟨S1024x1024, (m ((c : Thread nD τ).loc main_arg6))⟩]
    concatenates_S1024x1024_S1024x1024_S1024x2048_d1) bitsLt_bf16_f32
/-- The joined bias. -/
def bKV (c : Dev nD) : Vec F S2048 .f32 :=
  concatenate S2048 0 [⟨S1024, (m ((c : Thread nD τ).loc main_arg5))⟩, ⟨S1024, (m ((c : Thread nD τ).loc main_arg7))⟩] concatenates_S1024_S1024_S2048_d0

theorem V1_x (c : Dev nD) : V1 m ρ c main_v0 = imgFlat m c := by
  show StableHlo.after hostOps0 (W0 m ρ c) (Proc.devRef .tc main_v0) = _
  after_results; rfl
theorem V1_w (c : Dev nD) : V1 m ρ c main_v3 = wKV m c := by
  show StableHlo.after hostOps0 (W0 m ρ c) (Proc.devRef .tc main_v3) = _
  after_results; rfl
theorem V1_b (c : Dev nD) : V1 m ρ c main_v4 = bKV m c := by
  show StableHlo.after hostOps0 (W0 m ρ c) (Proc.devRef .tc main_v4) = _
  after_results; rfl

/-! ## What the attention kernel is entered with -/

theorem V3_ev (c : Dev nD) : V3 m ρ c main_arg0 = (m ((c : Thread nD τ).loc main_arg0)) :=
  calc W3 m ρ c (Proc.devRef .tc main_arg0)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = (m ((c : Thread nD τ).loc main_arg0)) := rfl
theorem V3_bq (c : Dev nD) : V3 m ρ c main_arg3 = (m ((c : Thread nD τ).loc main_arg3)) :=
  calc W3 m ρ c (Proc.devRef .tc main_arg3)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = (m ((c : Thread nD τ).loc main_arg3)) := rfl
/-- The query weight, rounded. -/
def wQ (c : Dev nD) : Vec F S1024x1024 .bf16 := truncf .bf16 (m ((c : Thread nD τ).loc main_arg2)) bitsLt_bf16_f32
theorem V3_wq (c : Dev nD) : V3 m ρ c main_v1 = wQ m c :=
  calc W3 m ρ c (Proc.devRef .tc main_v1)
    _ = W2 m ρ c (Proc.devRef .tc main_v1) := StableHlo.after_of_writes_sub hostOps1 _ hostOps1_writes (by decide : main_v1 ∉ hostOps1_W)
    _ = W1 m ρ c (Proc.devRef .tc main_v1) := W2_of_ne m ρ c main_v1 (by decide)
    _ = wQ m c := by
      show StableHlo.after hostOps0 (W0 m ρ c) (Proc.devRef .tc main_v1) = _
      after_results; rfl

/-- The flattened keys and values the first kernel leaves. -/
theorem W2_keys (c : Dev nD) : W2 m ρ c (Proc.devRef .tc main_v5_0) = KvProj.keysFlat (imgFlat m c) (wKV m c) (bKV m c) := by
  have e := (W2_arr m ρ c 3).trans (KvProj.final_keys (V1 m ρ) c)
  rw [V1_x, V1_w, V1_b] at e
  exact e
theorem W2_vals (c : Dev nD) : W2 m ρ c (Proc.devRef .tc main_v5_1) = KvProj.valsFlat (imgFlat m c) (wKV m c) (bKV m c) := by
  have e := (W2_arr m ρ c 4).trans (KvProj.final_vals (V1 m ρ) c)
  rw [V1_x, V1_w, V1_b] at e
  exact e

/-- The keys and values, by batch. -/
def keysOf (c : Dev nD) : Vec F S4x2048x1024 .bf16 :=
  shapeCast S4x2048x1024 (KvProj.keysFlat (imgFlat m c) (wKV m c) (bKV m c)) shapeCasts_S8192x1024_S4x2048x1024
def valsOf (c : Dev nD) : Vec F S4x2048x1024 .bf16 :=
  shapeCast S4x2048x1024 (KvProj.valsFlat (imgFlat m c) (wKV m c) (bKV m c)) shapeCasts_S8192x1024_S4x2048x1024

theorem V3_k (c : Dev nD) : V3 m ρ c main_v6 = keysOf m c := by
  show StableHlo.after hostOps1 (W2 m ρ c) (Proc.devRef .tc main_v6) = _
  after_results
  rw [W2_keys]; rfl
theorem V3_v (c : Dev nD) : V3 m ρ c main_v7 = valsOf m c := by
  show StableHlo.after hostOps1 (W2 m ρ c) (Proc.devRef .tc main_v7) = _
  after_results
  rw [W2_vals]; rfl

/-! ## The result -/

/-- The result array at the end of the run. -/
def resultAt (c : Dev nD) : Vec F S4x2048x1024 .f32 :=
  Attn.resultOf (m ((c : Thread nD τ).loc main_arg0)) (wQ m c) (m ((c : Thread nD τ).loc main_arg3)) (keysOf m c) (valsOf m c)

theorem result_value (c : Dev nD) : (Attn.dat (V3 m ρ) c).arrAt 5 cfg1.N = resultAt m c := by
  rw [Attn.final_result, V3_ev, V3_wq, V3_bq, V3_k, V3_v]; rfl

/-- THE RUN, READ: the result array ends at `resultAt`, the arguments unchanged. -/
theorem run_value : θ_run defs (onTc (τ := τ) (main (F := F))) ⟨m, fun _ => 0, ρ⟩ (fun r => ∀ c : Dev nD,
      r.2.mem ((c.tc : Thread nD τ).loc main_v8) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Whole

end
-- ==== Proof.ResultBlocksAt.lean ====
/-
  The attention kernel's blocks at an index. Row r of query block q of batch b is row 512·q + r of that batch; row j of key
  step s of batch b is row 1024·s + j; an entry (b, n, d) of the result sits at row n mod 512 of query block n / 512; and
  over the extended reals the query weight rounded to the matrix unit's input format is the query weight.
-/
import proofs.«101194_j90348932038964_2_alg».proof.Proof.WholeValue
import Idealize.ShloMosaic.PureOps.Ideal

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem

variable {F : FTy → Type} [FloatOps F]

theorem queryBlock_apply (x : Vec F S4x2048x1024 .f32) (b : Fin 4) (n : Fin 2048) (k : Fin 1024) :
    queryBlock x b.val (n.val / 512) (ix3 (0 : Fin 1) (⟨n.val % 512, Nat.mod_lt _ (by decide)⟩ : Fin 512) k) = x (ix3 b n k) := by
  unfold queryBlock
  refine congrArg x ?_
  funext a; apply Fin.ext
  match a with
  | ⟨0, _⟩ => show (b.val + 0) % 4 = b.val
              have := b.isLt; omega
  | ⟨1, _⟩ => show (512 * (n.val / 512) + n.val % 512) % 2048 = n.val
              have := n.isLt; omega
  | ⟨2, _⟩ => rfl

theorem keyBlock_apply (x : Vec F S4x2048x1024 .bf16) (b : Fin 4) (s : ℕ) (hs : s < 2) (j d : Fin 1024) :
    keyBlock x b.val s (ix3 (0 : Fin 1) j d) = x (ix3 b (⟨1024 * s + j.val, by have := j.isLt; omega⟩ : Fin 2048) d) := by
  unfold keyBlock
  refine congrArg x ?_
  funext a; apply Fin.ext
  match a with
  | ⟨0, _⟩ => show (b.val + 0) % 4 = b.val
              have := b.isLt; omega
  | ⟨1, _⟩ => show (1024 * s + j.val) % 2048 = 1024 * s + j.val
              have := j.isLt; omega
  | ⟨2, _⟩ => rfl

theorem inQueryBlock_ix3 (b : Fin 4) (n : Fin 2048) (d : Fin 1024) :
    inQueryBlock (ix3 b n d) = ix3 (0 : Fin 1) (⟨n.val % 512, Nat.mod_lt _ (by decide)⟩ : Fin 512) d := by
  funext a; apply Fin.ext
  match a with
  | ⟨0, _⟩ => rfl
  | ⟨1, _⟩ => rfl
  | ⟨2, _⟩ => rfl

/-- The result at (b, n, d): the two key steps' composite on the blocks of batch b and query block n / 512. -/
theorem resultOf_ix3 (ev : Vec F S4x2048x1024 .f32) (wq : Vec F S1024x1024 .bf16) (bq : Vec F S1024 .f32)
    (k v : Vec F S4x2048x1024 .bf16) (b : Fin 4) (n : Fin 2048) (d : Fin 1024) :
    resultOf ev wq bq k v (ix3 b n d)
      = twoStep (queryBlock ev b.val (n.val / 512)) wq bq (keyBlock k b.val 0) (keyBlock v b.val 0)
          (keyBlock k b.val 1) (keyBlock v b.val 1) (ix3 (0 : Fin 1) (⟨n.val % 512, Nat.mod_lt _ (by decide)⟩ : Fin 512) d) := by
  unfold resultOf
  rw [inQueryBlock_ix3]

end Cert.KernelIdeal.Attn

namespace Cert.KernelIdeal.Whole

open Cert.KernelIdeal Cert.KernelIdeal.Gen
open Idealize.ShloMosaic Idealize.ShloMosaic.TcCoe Idealize.ShloMosaic.ValueIdx Idealize.SL.Sem

/-- Over the extended reals a change of float format is the identity. -/
theorem wQ_ideal (m : (ℓ : Loc nD τ sig) → Buf (Elt Ideal) ℓ) (c : Dev nD) :
    wQ (F := Ideal) m c = m ((c : Thread nD τ).loc main_arg2) := rfl

end Cert.KernelIdeal.Whole

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.KvPayload.lean ====
/-
  The key/value projection's arithmetic at an entry.

  The body forms x · W + b for a block x of 512 rows (1024 channels each), the joined weight W (1024 × 2048) and the
  joined bias b (2048), and stores the left half of the columns as keys and the right half as values. At an entry
  (r, c): the sum over the input channels k of x(r, k) · W(k, c), plus b(c); the key block's column c is column c of that,
  the value block's column c is column 1024 + c. The narrowing of the operands and of the result to a shorter float
  format changes nothing on the extended reals, and the matrix unit accumulates into zero.
-/
import proofs.«101194_j90348932038964_2_alg».proof.Proof.Gen.KernelIdeal.Skeleton
import proofs.«101194_j90348932038964_2_alg».proof.Proof.LibPlainDot
import Idealize.ShloMosaic.Lib.Pipeline.Value
import Idealize.ShloMosaic.Lib.ValueLayout

noncomputable section

namespace Cert.AttnMath.Pay

open Cert.KernelIdeal Cert.KernelIdeal.Gen
open Idealize.ShloMosaic Idealize.ShloMosaic.ValueIdx
open scoped BigOperators

/-- Entry (r, c) of x · W + b, for c over all 2048 joined columns. -/
theorem k0_pay1_apply (v0 : Vec Ideal S512x1024 .f32) (v3 : Vec Ideal S1024x2048 .bf16) (v6 : Vec Ideal S2048 .f32)
    (r : Fin 512) (c : Fin 2048) :
    k0_pay1 (F := Ideal) v0 v3 v6 (ix2 r c) = (∑ k : Fin 1024, v0 (ix2 r k) * v3 (ix2 k c)) + v6 (ix1 c) := by
  unfold k0_pay1
  show FloatOps.matmul (F := Ideal) dot_S512x1024_S1024x2048_S512x2048_1_0_0_1_n_n none
        (truncf (F := Ideal) .bf16 (shapeCast S512x1024 v0 shapeCasts_S512x1024_S512x1024) bitsLt_bf16_f32)
        (shapeCast S1024x2048 v3 shapeCasts_S1024x2048_S1024x2048) (constant (F := Ideal) S512x2048 .f32 0x00000000#32) (ix2 r c)
      + broadcastTo S512x2048 (shapeCast S1x2048 (shapeCast S2048 v6 shapeCasts_S2048_S2048) shapeCasts_S2048_S1x2048)
          broadcasts_S1x2048_S512x2048 (ix2 r c) = _
  rw [shapeCast_self, shapeCast_self, shapeCast_self]
  refine congrArg₂ (· + ·) ?_ ?_
  · exact Cert.LibPlainDot.matmul_zero_apply dot_S512x1024_S1024x2048_S512x2048_1_0_0_1_n_n_wf none
      (truncf (F := Ideal) .bf16 v0 bitsLt_bf16_f32) v3 r c
  · exact (broadcastTo_1b_ab_apply _ broadcasts_S1x2048_S512x2048 r c).trans
      (shapeCast_a_1a_apply v6 shapeCasts_S2048_S1x2048 0 c)

/-- The key block at (r, c): column c of the joined product. -/
theorem k0_pay2_apply (v0 : Vec Ideal S512x1024 .f32) (v3 : Vec Ideal S1024x2048 .bf16) (v6 : Vec Ideal S2048 .f32)
    (r : Fin 512) (c : Fin 1024) :
    k0_pay2 (F := Ideal) v0 v3 v6 (ix2 r c)
      = (∑ k : Fin 1024, v0 (ix2 r k) * v3 (ix2 k (⟨c.val, by omega⟩ : Fin 2048))) + v6 (ix1 (⟨c.val, by omega⟩ : Fin 2048)) := by
  unfold k0_pay2
  show extractStridedSlice S512x1024 ![0, 0] (k0_pay1 (F := Ideal) v0 v3 v6) slices_S512x2048_o0_0_S512x1024 (ix2 r c) = _
  refine (slice2_axis1_apply 0 _ slices_S512x2048_o0_0_S512x1024 r c (⟨c.val, by omega⟩ : Fin 2048) (by simp)).trans ?_
  exact k0_pay1_apply v0 v3 v6 r _

/-- The value block at (r, c): column 1024 + c of the joined product. -/
theorem k0_pay3_apply (v0 : Vec Ideal S512x1024 .f32) (v3 : Vec Ideal S1024x2048 .bf16) (v6 : Vec Ideal S2048 .f32)
    (r : Fin 512) (c : Fin 1024) :
    k0_pay3 (F := Ideal) v0 v3 v6 (ix2 r c)
      = (∑ k : Fin 1024, v0 (ix2 r k) * v3 (ix2 k (⟨1024 + c.val, by omega⟩ : Fin 2048)))
          + v6 (ix1 (⟨1024 + c.val, by omega⟩ : Fin 2048)) := by
  unfold k0_pay3
  show extractStridedSlice S512x1024 ![0, 1024] (k0_pay1 (F := Ideal) v0 v3 v6) slices_S512x2048_o0_1024_S512x1024 (ix2 r c) = _
  refine (slice2_axis1_apply 1024 _ slices_S512x2048_o0_1024_S512x1024 r c (⟨1024 + c.val, by omega⟩ : Fin 2048) rfl).trans ?_
  exact k0_pay1_apply v0 v3 v6 r _

end Cert.AttnMath.Pay

end
-- ==== Proof.AttnSpec.lean ====
/-
  Scaled dot-product attention with fused linear projections, as one function of its eight arrays.

  For a batch of 4, 2048 positions and 1024 channels: queries q = ev·Wq + bq, keys k = img·Wk + bk and values
  v = img·Wv + bv are position-wise linear maps of the two feature arrays; the score of query position i against key
  position j is the dot product of q(i) and k(j) over the channels, times 1 / sqrt 1024; each row of scores is turned
  into weights by a softmax shifted by the row's maximum (the maximum taken from -inf), weight = exp(score - max)
  divided by the row's sum of those exponentials (the sum taken from 0); and the result at (b, i, d) is the weighted
  sum over the key positions j of v(b, j, d). Every sum, product and quotient is the extended reals'.
-/
import Idealize.ShloMosaic.PureOps.Ideal
import Idealize.ShloMosaic.Lib.ValueIdx

noncomputable section

namespace Cert.AttnMath

open Idealize.ShloMosaic Idealize.ShloMosaic.ValueIdx
open scoped BigOperators

/-- A feature array, [4, 2048, 1024]. -/
abbrev Feat : Type := (⟨3, ![4, 2048, 1024]⟩ : Shape).Idx → EReal
/-- A weight matrix, [1024, 1024]. -/
abbrev Mat : Type := (⟨2, ![1024, 1024]⟩ : Shape).Idx → EReal
/-- A bias vector, [1024]. -/
abbrev Bias : Type := (⟨1, ![1024]⟩ : Shape).Idx → EReal

/-- One linear projection: entry (b, n, d) of x·W + bias, the sum over the input channels c of x(b, n, c)·W(c, d),
    plus bias(d). -/
def proj (x : Feat) (W : Mat) (bias : Bias) (b : Fin 4) (n : Fin 2048) (d : Fin 1024) : EReal :=
  (∑ c : Fin 1024, x (ix3 b n c) * W (ix2 c d)) + bias (ix1 d)

/-- The scale 1 / sqrt 1024, spelt as the quotient of the f32 words of 1 and of the square root of 1024. -/
def invSqrtC : EReal :=
  Ideal.div (Ideal.ofBits .f32 0x3F800000#32) (Ideal.sqrt (Ideal.ofBits .f32 0x44800000#32))

/-- The f32 word of -inf, from which a row's maximum is taken. -/
def negInf : EReal := Ideal.ofBits .f32 0xFF800000#32

section
variable (ev img : Feat) (Wq Wk Wv : Mat) (bq bk bv : Bias)

/-- The score of query position i against key position j in batch b: (q(b,i) · k(b,j)) · (1 / sqrt 1024). -/
def score (b : Fin 4) (i j : Fin 2048) : EReal :=
  (∑ c : Fin 1024, proj ev Wq bq b i c * proj img Wk bk b j c) * invSqrtC

/-- The maximum of row (b, i) of the scores, taken from -inf (and once more against -inf). -/
def rowMax (b : Fin 4) (i : Fin 2048) : EReal :=
  max negInf ((Finset.univ : Finset (Fin 2048)).fold max negInf fun j => score ev img Wq Wk bq bk b i j)

/-- The shifted exponential exp(score(b,i,j) - rowMax(b,i)). -/
def weight (b : Fin 4) (i j : Fin 2048) : EReal :=
  Ideal.exp (score ev img Wq Wk bq bk b i j - rowMax ev img Wq Wk bq bk b i)

/-- The sum over the keys of row (b, i)'s shifted exponentials, taken from the f32 word of zero. -/
def denom (b : Fin 4) (i : Fin 2048) : EReal :=
  Ideal.ofBits .f32 0x00000000#32 + ∑ j : Fin 2048, weight ev img Wq Wk bq bk b i j

/-- The attention output at (b, i, d): the sum over the key positions j of (weight / denom) · v(b, j, d). -/
def attnAt (b : Fin 4) (i : Fin 2048) (d : Fin 1024) : EReal :=
  ∑ j : Fin 2048, Ideal.div (weight ev img Wq Wk bq bk b i j) (denom ev img Wq Wk bq bk b i) * proj img Wv bv b j d

/-- THE SPECIFICATION: attention of the eight arrays, index by index. -/
def Attn : Feat := fun i => attnAt ev img Wq Wk Wv bq bk bv (i 0) (i 1) (i 2)

/-- At an index given by its coordinates. -/
theorem Attn_ix3 (b : Fin 4) (i : Fin 2048) (d : Fin 1024) :
    Attn ev img Wq Wk Wv bq bk bv (ix3 b i d) = attnAt ev img Wq Wk Wv bq bk bv b i d := rfl

end

end Cert.AttnMath

end
-- ==== Proof.LibRank3Layout.lean ====
/-
  Layout operations of rank-three arrays read at an index, general in the extents and the element type.

  * a vector or matrix given unit axes by a shape cast: [a,b] → [a,1,b], [a,b] → [a,b,1], [a] → [1,1,a], [a,1] → [a];
  * the four broadcasts that fill unit axes of a rank-three array: [a,1,c], [1,b,c], [a,b,1], [1,1,c] → [a,b,c];
  * a rank-three array against its row-flattening: [a,b,c] → [a·b,c] and back, row (i, j) of the first being row
    i·b + j of the second.

  Each lemma names both indices by coordinates; its proof is one row-major equation or one case per axis.
-/
import Idealize.ShloMosaic.Lib.ValueIdx
import Idealize.ShloMosaic.Lib.Pipeline.Value

namespace Cert.Rank3Layout

open Idealize.ShloMosaic Idealize.ShloMosaic.ValueIdx

variable {α : Type}

/-! ## Unit axes added or dropped by a shape cast -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## A rank-three array against its row-flattening -/

/-- An `[a, b, c]` array cast to `[a·b, c]` reads, at row `i·b + j` and column `k`, the operand at `(i, j, k)`. -/
theorem shapeCast_abc_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[a·b, c]` array cast to `[a, b, c]` reads, at `(i, j, k)`, the operand at row `i·b + j` and column `k`. -/
theorem shapeCast_rows_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## Broadcasts that fill unit axes -/

/-- An `[a, 1, c]` array broadcast to `[a, b, c]` reads, at `(i, j, k)`, the operand at `(i, 0, k)`. -/
theorem broadcastTo_a1c_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Rank3Layout
-- ==== Proof.KeysValuesAt.lean ====
/-
  The keys and the values at an index, over the extended reals. Entry (b, n, d) of the keys is
  ∑ₖ img(b, n, k) · Wk(k, d) + bk(d), and of the values the same with Wv and bv: the flattening of the image features sends
  row (b, n) to row 2048·b + n and the reshape of the results sends it back; row 2048·b + n lies in row block
  (2048·b + n) / 512 at row (2048·b + n) mod 512; the joined weight's columns d < 1024 are Wk's and its columns 1024 + d are
  Wv's, likewise the joined bias; and rounding to the matrix unit's input format changes nothing over the extended reals.
-/
import proofs.«101194_j90348932038964_2_alg».proof.Proof.WholeValue
import proofs.«101194_j90348932038964_2_alg».proof.Proof.KvPayload
import proofs.«101194_j90348932038964_2_alg».proof.Proof.AttnSpec
import proofs.«101194_j90348932038964_2_alg».proof.Proof.LibRank3Layout
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The flattened image features at row 2048·b + n. -/
theorem imgFlat_apply (c : Dev nD) (b : Fin 4) (n : Fin 2048) (k : Fin 1024) (r : Fin 8192) (hr : r.val = b.val * 2048 + n.val) :
    imgFlat (F := Ideal) m c (ix2 r k) = (m ((c : Thread nD τ).loc main_arg1)) (ix3 b n k) := by
  unfold imgFlat
  exact Cert.Rank3Layout.shapeCast_abc_rows_apply _ _ b n k r hr

/-- The joined weight: its left columns are Wk's, its right columns Wv's. -/
theorem wKV_left (c : Dev nD) (k d : Fin 1024) :
    wKV (F := Ideal) m c (ix2 k (⟨d.val, by omega⟩ : Fin 2048)) = (m ((c : Thread nD τ).loc main_arg4)) (ix2 k d) := by
  unfold wKV
  change concatenate S1024x2048 1 [⟨S1024x1024, (m ((c : Thread nD τ).loc main_arg4))⟩, ⟨S1024x1024, (m ((c : Thread nD τ).loc main_arg6))⟩] concatenates_S1024x1024_S1024x1024_S1024x2048_d1 (ix2 k (⟨d.val, by omega⟩ : Fin 2048)) = _
  refine concatenate_pair_apply_left (t := S1024x2048) (s₁ := S1024x1024) (s₂ := S1024x1024) (1 : Fin 2) _ _ _ _ rfl (ix2 k d) ?_
  intro b'
  match b' with
  | ⟨0, _⟩ => rfl
  | ⟨1, _⟩ => rfl
theorem wKV_right (c : Dev nD) (k d : Fin 1024) :
    wKV (F := Ideal) m c (ix2 k (⟨1024 + d.val, by omega⟩ : Fin 2048)) = (m ((c : Thread nD τ).loc main_arg6)) (ix2 k d) := by
  unfold wKV
  change concatenate S1024x2048 1 [⟨S1024x1024, (m ((c : Thread nD τ).loc main_arg4))⟩, ⟨S1024x1024, (m ((c : Thread nD τ).loc main_arg6))⟩] concatenates_S1024x1024_S1024x1024_S1024x2048_d1 (ix2 k (⟨1024 + d.val, by omega⟩ : Fin 2048)) = _
  refine concatenate_pair_apply_right (t := S1024x2048) (s₁ := S1024x1024) (s₂ := S1024x1024) (1 : Fin 2) _ _ _ _ rfl rfl (ix2 k d) ?_ ?_
  · intro b' hb'
    match b', hb' with
    | ⟨0, _⟩, _ => rfl
    | ⟨1, _⟩, h => exact absurd rfl h
  · show d.val + 1024 = 1024 + d.val; omega

/-- The joined bias: its first 1024 entries are bk's, its last 1024 bv's. -/
theorem bKV_left (c : Dev nD) (d : Fin 1024) :
    bKV (F := Ideal) m c (ix1 (⟨d.val, by omega⟩ : Fin 2048)) = (m ((c : Thread nD τ).loc main_arg5)) (ix1 d) := by
  unfold bKV
  refine concatenate_pair_apply_left (t := S2048) (s₁ := S1024) (s₂ := S1024) (0 : Fin 1) _ _ _ _ rfl (ix1 d) ?_
  intro b'
  match b' with
  | ⟨0, _⟩ => rfl
theorem bKV_right (c : Dev nD) (d : Fin 1024) :
    bKV (F := Ideal) m c (ix1 (⟨1024 + d.val, by omega⟩ : Fin 2048)) = (m ((c : Thread nD τ).loc main_arg7)) (ix1 d) := by
  unfold bKV
  refine concatenate_pair_apply_right (t := S2048) (s₁ := S1024) (s₂ := S1024) (0 : Fin 1) _ _ _ _ rfl rfl (ix1 d) ?_ ?_
  · intro b' hb'
    match b', hb' with
    | ⟨0, _⟩, h => exact absurd rfl h
  · show d.val + 1024 = 1024 + d.val; omega

/-- A row of the flattened features inside its row block. -/
theorem rowBlock_apply (x : Vec Ideal S8192x1024 .f32) (r : Fin 8192) (k : Fin 1024) :
    KvProj.rowBlock x (r.val / 512) (ix2 (⟨r.val % 512, Nat.mod_lt _ (by decide)⟩ : Fin 512) k) = x (ix2 r k) := by
  unfold KvProj.rowBlock
  refine congrArg x ?_
  funext a; apply Fin.ext
  match a with
  | ⟨0, _⟩ => show (512 * (r.val / 512) + r.val % 512) % 8192 = r.val
              have := r.isLt; omega
  | ⟨1, _⟩ => rfl

theorem inBlock_ix2 (r : Fin 8192) (d : Fin 1024) :
    KvProj.inBlock (ix2 r d) = ix2 (⟨r.val % 512, Nat.mod_lt _ (by decide)⟩ : Fin 512) d := by
  funext a; apply Fin.ext
  match a with
  | ⟨0, _⟩ => rfl
  | ⟨1, _⟩ => rfl

/-- THE KEYS at (b, n, d). -/
theorem keysOf_apply (c : Dev nD) (b : Fin 4) (n : Fin 2048) (d : Fin 1024) :
    keysOf (F := Ideal) m c (ix3 b n d)
      = Cert.AttnMath.proj (m ((c : Thread nD τ).loc main_arg1)) (m ((c : Thread nD τ).loc main_arg4)) (m ((c : Thread nD τ).loc main_arg5)) b n d := by
  have hrlt : b.val * 2048 + n.val < 8192 := by have := b.isLt; have := n.isLt; omega
  unfold keysOf
  rw [Cert.Rank3Layout.shapeCast_rows_abc_apply _ _ b n d ⟨b.val * 2048 + n.val, hrlt⟩ rfl]
  unfold KvProj.keysFlat
  rw [inBlock_ix2]
  show k0_pay2 (F := Ideal) (KvProj.rowBlock (imgFlat m c) ((b.val * 2048 + n.val) / 512)) (wKV m c) (bKV m c)
    (ix2 (⟨(b.val * 2048 + n.val) % 512, _⟩ : Fin 512) d) = _
  rw [Cert.AttnMath.Pay.k0_pay2_apply]
  unfold Cert.AttnMath.proj
  rw [bKV_left]
  refine congrArg (· + _) (Finset.sum_congr rfl fun k _ => ?_)
  rw [wKV_left, rowBlock_apply (imgFlat m c) ⟨b.val * 2048 + n.val, hrlt⟩ k, imgFlat_apply m c b n k ⟨b.val * 2048 + n.val, hrlt⟩ rfl]

/-- THE VALUES at (b, n, d). -/
theorem valsOf_apply (c : Dev nD) (b : Fin 4) (n : Fin 2048) (d : Fin 1024) :
    valsOf (F := Ideal) m c (ix3 b n d)
      = Cert.AttnMath.proj (m ((c : Thread nD τ).loc main_arg1)) (m ((c : Thread nD τ).loc main_arg6)) (m ((c : Thread nD τ).loc main_arg7)) b n d := by
  have hrlt : b.val * 2048 + n.val < 8192 := by have := b.isLt; have := n.isLt; omega
  unfold valsOf
  rw [Cert.Rank3Layout.shapeCast_rows_abc_apply _ _ b n d ⟨b.val * 2048 + n.val, hrlt⟩ rfl]
  unfold KvProj.valsFlat
  rw [inBlock_ix2]
  show k0_pay3 (F := Ideal) (KvProj.rowBlock (imgFlat m c) ((b.val * 2048 + n.val) / 512)) (wKV m c) (bKV m c)
    (ix2 (⟨(b.val * 2048 + n.val) % 512, _⟩ : Fin 512) d) = _
  rw [Cert.AttnMath.Pay.k0_pay3_apply]
  unfold Cert.AttnMath.proj
  rw [bKV_right]
  refine congrArg (· + _) (Finset.sum_congr rfl fun k _ => ?_)
  rw [wKV_right, rowBlock_apply (imgFlat m c) ⟨b.val * 2048 + n.val, hrlt⟩ k, imgFlat_apply m c b n k ⟨b.val * 2048 + n.val, hrlt⟩ rfl]

end Cert.KernelIdeal.Whole

end
-- ==== Proof.LibBatchedDot.lean ====
/-
  Batched matrix products, read at an entry.

  Two arrangements of a product with one leading batch axis, over the extended reals, each read at entry (b, i, j) as the
  textbook sum with the batch index carried along:
    * rows against rows, [B, M, K] × [B, N, K] → [B, M, N] (contract the last axis of both):
        ∑ₖ A(b, i, k) · C(b, j, k)  — the Gram matrix of two families of rows;
    * matrix against matrix, [B, M, K] × [B, K, N] → [B, M, N] (contract the left operand's last axis with the right
      operand's middle axis):  ∑ₖ A(b, i, k) · C(b, k, j).
  Both for the kernel's matrix unit accumulating into zero. No sum is reordered and no factor moved, so nothing here
  needs the entries finite. General in B, M, N, K.
-/
import Idealize.ShloMosaic.PureOps.Ideal
import Idealize.ShloMosaic.PureOps.Ideal.Laws
import Idealize.ShloMosaic.Lib.ValueIdx

noncomputable section

namespace Cert.LibBatchedDot

open Idealize.ShloMosaic Idealize.ShloMosaic.ValueIdx

variable {B M N K : Nat} {φ₁ φ₂ : FTy}

/-! ## Rows against rows -/

/-- The dimension numbers of [B, M, K] × [B, N, K] → [B, M, N]. -/
abbrev rowsDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ where
  lhsContracting := [2]
  rhsContracting := [2]
  lhsNonContracting := [1]
  rhsNonContracting := [1]
  lhsBatch := [0]
  rhsBatch := [0]
  wf := wf

section Rows
variable (wf : DotDims.WF (⟨3, ![B, M, K]⟩ : Shape) ⟨3, ![B, N, K]⟩ ⟨3, ![B, M, N]⟩ [2] [2] [1] [1] [0] [0])

theorem rows_lhs0 (b : Fin B) (i : Fin M) (j : Fin N) (q : (rowsDims wf).contr.Idx) :
    ((rowsDims wf).lhsIdx (ix3 b i j) q 0).val = b.val := by
  unfold DotDims.lhsIdx
  rw [dif_pos (show (0 : Fin 3) ∈ (rowsDims wf).lhsBatch from List.mem_singleton.mpr rfl)]
  rfl

theorem rows_lhs1 (b : Fin B) (i : Fin M) (j : Fin N) (q : (rowsDims wf).contr.Idx) :
    ((rowsDims wf).lhsIdx (ix3 b i j) q 1).val = i.val := by
  unfold DotDims.lhsIdx
  rw [dif_neg (by decide : ¬(1 : Fin 3) ∈ ([0] : List (Fin 3))),
    dif_pos (show (1 : Fin 3) ∈ (rowsDims wf).lhsNonContracting from List.mem_singleton.mpr rfl)]
  rfl

theorem rows_lhs2 (b : Fin B) (i : Fin M) (j : Fin N) (q : (rowsDims wf).contr.Idx) :
    ((rowsDims wf).lhsIdx (ix3 b i j) q 2).val = (q ⟨0, Nat.one_pos⟩).val :=
  (rowsDims wf).lhsIdx_val_of_single rfl (ix3 b i j) q

theorem rows_rhs0 (b : Fin B) (i : Fin M) (j : Fin N) (q : (rowsDims wf).contr.Idx) :
    ((rowsDims wf).rhsIdx (ix3 b i j) q 0).val = b.val := by
  unfold DotDims.rhsIdx
  rw [dif_pos (show (0 : Fin 3) ∈ (rowsDims wf).rhsBatch from List.mem_singleton.mpr rfl)]
  rfl

theorem rows_rhs1 (b : Fin B) (i : Fin M) (j : Fin N) (q : (rowsDims wf).contr.Idx) :
    ((rowsDims wf).rhsIdx (ix3 b i j) q 1).val = j.val := by
  unfold DotDims.rhsIdx
  rw [dif_neg (by decide : ¬(1 : Fin 3) ∈ ([0] : List (Fin 3))),
    dif_pos (show (1 : Fin 3) ∈ (rowsDims wf).rhsNonContracting from List.mem_singleton.mpr rfl)]
  rfl

theorem rows_rhs2 (b : Fin B) (i : Fin M) (j : Fin N) (q : (rowsDims wf).contr.Idx) :
    ((rowsDims wf).rhsIdx (ix3 b i j) q 2).val = (q ⟨0, Nat.one_pos⟩).val :=
  (rowsDims wf).rhsIdx_val_of_single rfl (ix3 b i j) q

/-- The sum over the contraction index is the sum over k < K of A(b, i, k) · C(b, j, k). -/
theorem rows_sum_contr (A : FVec Ideal ⟨3, ![B, M, K]⟩ φ₁) (C : FVec Ideal ⟨3, ![B, N, K]⟩ φ₂) (b : Fin B) (i : Fin M) (j : Fin N) :
    ∑ q : (rowsDims wf).contr.Idx, A ((rowsDims wf).lhsIdx (ix3 b i j) q) * C ((rowsDims wf).rhsIdx (ix3 b i j) q)
      = ∑ k : Fin K, A (ix3 b i k) * C (ix3 b j k) := by
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix3 b i j) ((contrEquiv1 (rowsDims wf) K rfl rfl).symm k) = ix3 b i k := funext fun a => Fin.ext (by
    match a with
    | ⟨0, _⟩ => exact rows_lhs0 wf b i j _
    | ⟨1, _⟩ => exact rows_lhs1 wf b i j _
    | ⟨2, _⟩ => exact (rows_lhs2 wf b i j _).trans hk)
  have er : (rowsDims wf).rhsIdx (ix3 b i j) ((contrEquiv1 (rowsDims wf) K rfl rfl).symm k) = ix3 b j k := funext fun a => Fin.ext (by
    match a with
    | ⟨0, _⟩ => exact rows_rhs0 wf b i j _
    | ⟨1, _⟩ => exact rows_rhs1 wf b i j _
    | ⟨2, _⟩ => exact (rows_rhs2 wf b i j _).trans hk)
  rw [el, er]

/-- The kernel's matrix unit into a zero accumulator, rows against rows, at entry (b, i, j). -/
theorem rows_matmul_zero_apply (prec : Option ContractPrecision)
    (A : FVec Ideal ⟨3, ![B, M, K]⟩ φ₁) (C : FVec Ideal ⟨3, ![B, N, K]⟩ φ₂) (b : Fin B) (i : Fin M) (j : Fin N) :
    FloatOps.matmul (rowsDims wf) prec A C (constant ⟨3, ![B, M, N]⟩ .f32 0x00000000#32) (ix3 b i j)
      = ∑ k : Fin K, A (ix3 b i k) * C (ix3 b j k) := by
  rw [Ideal.matmul_constant_zero_apply]
  exact rows_sum_contr wf A C b i j

end Rows

/-! ## Matrix against matrix -/

/-- The dimension numbers of [B, M, K] × [B, K, N] → [B, M, N]. -/
abbrev matDims (wf : DotDims.WF (⟨3, ![B, M, K]⟩ : Shape) ⟨3, ![B, K, N]⟩ ⟨3, ![B, M, N]⟩ [2] [1] [1] [2] [0] [0]) :
    DotDims (⟨3, ![B, M, K]⟩ : Shape) ⟨3, ![B, K, N]⟩ ⟨3, ![B, M, N]⟩ where
  lhsContracting := [2]
  rhsContracting := [1]
  lhsNonContracting := [1]
  rhsNonContracting := [2]
  lhsBatch := [0]
  rhsBatch := [0]
  wf := wf

section Mat
variable (wf : DotDims.WF (⟨3, ![B, M, K]⟩ : Shape) ⟨3, ![B, K, N]⟩ ⟨3, ![B, M, N]⟩ [2] [1] [1] [2] [0] [0])

theorem mat_lhs0 (b : Fin B) (i : Fin M) (j : Fin N) (q : (matDims wf).contr.Idx) :
    ((matDims wf).lhsIdx (ix3 b i j) q 0).val = b.val := by
  unfold DotDims.lhsIdx
  rw [dif_pos (show (0 : Fin 3) ∈ (matDims wf).lhsBatch from List.mem_singleton.mpr rfl)]
  rfl

theorem mat_lhs1 (b : Fin B) (i : Fin M) (j : Fin N) (q : (matDims wf).contr.Idx) :
    ((matDims wf).lhsIdx (ix3 b i j) q 1).val = i.val := by
  unfold DotDims.lhsIdx
  rw [dif_neg (by decide : ¬(1 : Fin 3) ∈ ([0] : List (Fin 3))),
    dif_pos (show (1 : Fin 3) ∈ (matDims wf).lhsNonContracting from List.mem_singleton.mpr rfl)]
  rfl

theorem mat_lhs2 (b : Fin B) (i : Fin M) (j : Fin N) (q : (matDims wf).contr.Idx) :
    ((matDims wf).lhsIdx (ix3 b i j) q 2).val = (q ⟨0, Nat.one_pos⟩).val :=
  (matDims wf).lhsIdx_val_of_single rfl (ix3 b i j) q

theorem mat_rhs0 (b : Fin B) (i : Fin M) (j : Fin N) (q : (matDims wf).contr.Idx) :
    ((matDims wf).rhsIdx (ix3 b i j) q 0).val = b.val := by
  unfold DotDims.rhsIdx
  rw [dif_pos (show (0 : Fin 3) ∈ (matDims wf).rhsBatch from List.mem_singleton.mpr rfl)]
  rfl

theorem mat_rhs1 (b : Fin B) (i : Fin M) (j : Fin N) (q : (matDims wf).contr.Idx) :
    ((matDims wf).rhsIdx (ix3 b i j) q 1).val = (q ⟨0, Nat.one_pos⟩).val :=
  (matDims wf).rhsIdx_val_of_single rfl (ix3 b i j) q

theorem mat_rhs2 (b : Fin B) (i : Fin M) (j : Fin N) (q : (matDims wf).contr.Idx) :
    ((matDims wf).rhsIdx (ix3 b i j) q 2).val = j.val := by
  unfold DotDims.rhsIdx
  rw [dif_neg (by decide : ¬(2 : Fin 3) ∈ ([0] : List (Fin 3))),
    dif_pos (show (2 : Fin 3) ∈ (matDims wf).rhsNonContracting from List.mem_singleton.mpr rfl)]
  rfl

/-- The sum over the contraction index is the sum over k < K of A(b, i, k) · C(b, k, j). -/
theorem mat_sum_contr (A : FVec Ideal ⟨3, ![B, M, K]⟩ φ₁) (C : FVec Ideal ⟨3, ![B, K, N]⟩ φ₂) (b : Fin B) (i : Fin M) (j : Fin N) :
    ∑ q : (matDims wf).contr.Idx, A ((matDims wf).lhsIdx (ix3 b i j) q) * C ((matDims wf).rhsIdx (ix3 b i j) q)
      = ∑ k : Fin K, A (ix3 b i k) * C (ix3 b k j) := by
  rw [← Equiv.sum_comp (contrEquiv1 (matDims wf) K rfl rfl).symm]
  refine Finset.sum_congr rfl fun k _ => ?_
  have hk := contrEquiv1_symm_val (matDims wf) K rfl rfl k
  have el : (matDims wf).lhsIdx (ix3 b i j) ((contrEquiv1 (matDims wf) K rfl rfl).symm k) = ix3 b i k := funext fun a => Fin.ext (by
    match a with
    | ⟨0, _⟩ => exact mat_lhs0 wf b i j _
    | ⟨1, _⟩ => exact mat_lhs1 wf b i j _
    | ⟨2, _⟩ => exact (mat_lhs2 wf b i j _).trans hk)
  have er : (matDims wf).rhsIdx (ix3 b i j) ((contrEquiv1 (matDims wf) K rfl rfl).symm k) = ix3 b k j := funext fun a => Fin.ext (by
    match a with
    | ⟨0, _⟩ => exact mat_rhs0 wf b i j _
    | ⟨1, _⟩ => exact (mat_rhs1 wf b i j _).trans hk
    | ⟨2, _⟩ => exact mat_rhs2 wf b i j _)
  rw [el, er]

/-- The kernel's matrix unit into a zero accumulator, matrix against matrix, at entry (b, i, j). -/
theorem mat_matmul_zero_apply (prec : Option ContractPrecision)
    (A : FVec Ideal ⟨3, ![B, M, K]⟩ φ₁) (C : FVec Ideal ⟨3, ![B, K, N]⟩ φ₂) (b : Fin B) (i : Fin M) (j : Fin N) :
    FloatOps.matmul (matDims wf) prec A C (constant ⟨3, ![B, M, N]⟩ .f32 0x00000000#32) (ix3 b i j)
      = ∑ k : Fin K, A (ix3 b i k) * C (ix3 b k j) := by
  rw [Ideal.matmul_constant_zero_apply]
  exact mat_sum_contr wf A C b i j

end Mat

end Cert.LibBatchedDot

end
-- ==== Proof.AttnPayload.lean ====
/-
  The attention body's arithmetic at an entry.

  One grid point handles 512 query rows of one batch element against a block of 1024 keys. The scaled queries are
  ((x · Wq + bq) · 2^-5) at (row r, channel d); the scores are the dot products over the channels of a scaled query row
  with a key row; the new running maximum of a row is the larger of the old one and the fold of max over the block's
  scores from -inf; the rescaling factor is exp(old maximum - new maximum); the block's weights are exp(score - new
  maximum); the new running sum is factor · old sum + the sum of the block's weights. Format changes are the identity on
  the extended reals and every matrix product accumulates into zero.
-/
import proofs.«101194_j90348932038964_2_alg».proof.Proof.Gen.KernelIdeal.Skeleton
import proofs.«101194_j90348932038964_2_alg».proof.Proof.LibPlainDot
import proofs.«101194_j90348932038964_2_alg».proof.Proof.LibBatchedDot
import proofs.«101194_j90348932038964_2_alg».proof.Proof.LibRank3Layout
import Idealize.ShloMosaic.Lib.Pipeline.Value
import Idealize.ShloMosaic.Lib.ValueLayout
import Idealize.ShloMosaic.PureOps.Ideal.Laws

noncomputable section

namespace Cert.AttnMath.Pay

open Cert.KernelIdeal Cert.KernelIdeal.Gen
open Idealize.ShloMosaic Idealize.ShloMosaic.ValueIdx
open scoped BigOperators

/-- The scaled query at (row r, channel d): ((∑ₖ x(r, k) · Wq(k, d)) + bq(d)) · 2^-5. -/
theorem k1_pay7_apply (v54 : Vec Ideal S1x512x1024 .f32) (v57 : Vec Ideal S1024x1024 .bf16) (v60 : Vec Ideal S1024 .f32)
    (u : Fin 1) (r : Fin 512) (d : Fin 1024) :
    k1_pay7 (F := Ideal) v54 v57 v60 (ix3 u r d)
      = ((∑ k : Fin 1024, v54 (ix3 (0 : Fin 1) r k) * v57 (ix2 k d)) + v60 (ix1 d)) * Ideal.ofBits .f32 0x3D000000#32 := by
  unfold k1_pay7
  refine (congrFun (shapeCast_self _ _) _).trans ?_
  refine (shapeCast_ab_1ab_apply _ _ u r d).trans ?_
  refine congrArg₂ (fun a b : EReal => a * b) (congrArg₂ (fun a b : EReal => a + b) ?_ ?_) rfl
  · refine (Cert.LibPlainDot.matmul_zero_apply dot_S512x1024_S1024x1024_S512x1024_1_0_0_1_n_n_wf none _ _ r d).trans ?_
    refine Finset.sum_congr rfl fun k _ => congrArg₂ (fun a b : EReal => a * b) ?_ ?_
    · exact shapeCast_1ab_ab_apply v54 shapeCasts_S1x512x1024_S512x1024 r k
    · exact congrFun (shapeCast_self v57 _) _
  · exact (broadcastTo_1b_ab_apply _ broadcasts_S1x1024_S512x1024 r d).trans
      (shapeCast_a_1a_apply v60 shapeCasts_S1024_S1x1024 0 d)

/-- The scores at (query row i, key row j): the dot product over the channels of the two rows. -/
theorem k1_pay9_apply (v3 : Vec Ideal S1x512x1024 .bf16) (v4 : Vec Ideal S1x1024x1024 .bf16)
    (u : Fin 1) (i : Fin 512) (j : Fin 1024) :
    k1_pay9 (F := Ideal) v3 v4 (ix3 u i j) = ∑ c : Fin 1024, v3 (ix3 u i c) * v4 (ix3 u j c) := by
  unfold k1_pay9
  refine (Cert.LibBatchedDot.rows_matmul_zero_apply dot_S1x512x1024_S1x1024x1024_S1x512x1024_2_2_1_1_0_0_wf none
    _ _ u i j).trans ?_
  exact Finset.sum_congr rfl fun c _ =>
    congrArg (fun z : EReal => v3 (ix3 u i c) * z) (congrFun (shapeCast_self v4 _) _)

/-- Query row (u, i) with key coordinate k inserted is (u, i, k). -/
theorem lift_keys (u : Fin 1) (i : Fin 512) (k : Fin 1024) :
    reduces_S1x512x1024_S1x512.lift (ix2 u i) k = ix3 u i k :=
  funext fun a => Fin.ext (by match a with | ⟨0, _⟩ => rfl | ⟨1, _⟩ => rfl | ⟨2, _⟩ => rfl)

/-- The new running maximum of row i: the larger of the old one and the fold of max over the block's scores from -inf. -/
theorem k1_pay10_apply (v3 : Vec Ideal S1x512x1024 .bf16) (v4 : Vec Ideal S1x1024x1024 .bf16) (v9 : Vec Ideal S1x512x1 .f32)
    (u : Fin 1) (i : Fin 512) (w : Fin 1) :
    k1_pay10 (F := Ideal) v3 v4 v9 (ix3 u i w)
      = max (v9 (ix3 u i w)) ((Finset.univ : Finset (Fin 1024)).fold max (Ideal.ofBits .f32 0xFF800000#32)
          fun j => k1_pay9 (F := Ideal) v3 v4 (ix3 u i j)) := by
  unfold k1_pay10
  refine congrArg (max (v9 (ix3 u i w))) ?_
  refine (Cert.Rank3Layout.shapeCast_ab_ab1_apply _ shapeCasts_S1x512_S1x512x1 u i w).trans ?_
  refine (Ideal.multiReduction_maximumf_single (k1_pay9 (F := Ideal) v3 v4) _ reduces_S1x512x1024_S1x512 _ _
    (ix2 u i)).trans ?_
  exact Finset.fold_congr fun k _ => congrArg (k1_pay9 (F := Ideal) v3 v4) (lift_keys u i k)

/-- The rescaling factor of row i: exp(old maximum - new maximum). -/
theorem k1_pay11_apply (v3 : Vec Ideal S1x512x1024 .bf16) (v4 : Vec Ideal S1x1024x1024 .bf16)
    (v9 v13 : Vec Ideal S1x512x1 .f32) (u : Fin 1) (i : Fin 512) (w : Fin 1) :
    k1_pay11 (F := Ideal) v3 v4 v9 v13 (ix3 u i w)
      = Ideal.exp (v13 (ix3 u i w) - k1_pay10 (F := Ideal) v3 v4 v9 (ix3 u i w)) := rfl

/-- The block's weights at (i, j): exp(score - new maximum of row i). -/
theorem k1_pay12_apply (v3 : Vec Ideal S1x512x1024 .bf16) (v4 : Vec Ideal S1x1024x1024 .bf16) (v9 : Vec Ideal S1x512x1 .f32)
    (u : Fin 1) (i : Fin 512) (j : Fin 1024) :
    k1_pay12 (F := Ideal) v3 v4 v9 (ix3 u i j)
      = Ideal.exp (k1_pay9 (F := Ideal) v3 v4 (ix3 u i j) - k1_pay10 (F := Ideal) v3 v4 v9 (ix3 u i (0 : Fin 1))) := by
  unfold k1_pay12
  refine congrArg (fun z : EReal => Ideal.exp (k1_pay9 (F := Ideal) v3 v4 (ix3 u i j) - z)) ?_
  exact Cert.Rank3Layout.broadcastTo_ab1_apply _ broadcasts_S1x512x1_S1x512x1024 u i j

/-- The new running sum of row i: factor · old sum + the sum of the block's weights. -/
theorem k1_pay13_apply (v3 : Vec Ideal S1x512x1024 .bf16) (v4 : Vec Ideal S1x1024x1024 .bf16)
    (v9 v13 v19 : Vec Ideal S1x512x1 .f32) (u : Fin 1) (i : Fin 512) (w : Fin 1) :
    k1_pay13 (F := Ideal) v3 v4 v9 v13 v19 (ix3 u i w)
      = k1_pay11 (F := Ideal) v3 v4 v9 v13 (ix3 u i w) * v19 (ix3 u i w)
          + ∑ j : Fin 1024, k1_pay12 (F := Ideal) v3 v4 v9 (ix3 u i j) := by
  unfold k1_pay13
  refine (congrFun (shapeCast_self _ _) _).trans ?_
  refine congrArg (fun z : EReal => k1_pay11 (F := Ideal) v3 v4 v9 v13 (ix3 u i w) * v19 (ix3 u i w) + z) ?_
  refine (Cert.Rank3Layout.shapeCast_ab_ab1_apply _ shapeCasts_S1x512_S1x512x1 u i w).trans ?_
  refine (Ideal.multiReduction_add_single (k1_pay12 (F := Ideal) v3 v4 v9) _ reduces_S1x512x1024_S1x512 _ _
    (ix2 u i)).trans ?_
  exact Finset.sum_congr rfl fun k _ => congrArg (k1_pay12 (F := Ideal) v3 v4 v9) (lift_keys u i k)

end Cert.AttnMath.Pay

end
-- ==== Proof.AttnPayloadAcc.lean ====
/-
  The attention body's weighted sum, its reset values and the final quotient, at an entry.

  The new weighted sum at (row i, channel d) is factor(i) · old(i, d) + the sum over the block's keys j of
  weight(i, j) · value(j, d); the state is reset to (-inf, 0, 0); the stored maximum and the values pass through
  unchanged; and the result is the weighted sum divided by the running sum of its row.
-/
import proofs.«101194_j90348932038964_2_alg».proof.Proof.Gen.KernelIdeal.Skeleton
import proofs.«101194_j90348932038964_2_alg».proof.Proof.LibBatchedDot
import proofs.«101194_j90348932038964_2_alg».proof.Proof.LibRank3Layout
import Idealize.ShloMosaic.Lib.Pipeline.Value
import Idealize.ShloMosaic.PureOps.Ideal.Laws

noncomputable section

namespace Cert.AttnMath.Pay

open Cert.KernelIdeal Cert.KernelIdeal.Gen
open Idealize.ShloMosaic Idealize.ShloMosaic.ValueIdx
open scoped BigOperators

/-- The new weighted sum at (i, d). -/
theorem k1_pay1_apply (v7 : FVec Ideal S1x1024x1024 .bf16) (v15 : FVec Ideal S1x512x1 .f32)
    (v18 : FVec Ideal S1x512x1024 .f32) (v27 : Vec Ideal S1x512x1024 .f32) (u : Fin 1) (i : Fin 512) (d : Fin 1024) :
    k1_pay1 (F := Ideal) v7 v15 v18 v27 (ix3 u i d)
      = v15 (ix3 u i (0 : Fin 1)) * v27 (ix3 u i d) + ∑ j : Fin 1024, v18 (ix3 u i j) * v7 (ix3 u j d) := by
  unfold k1_pay1
  refine (congrFun (shapeCast_self _ _) _).trans ?_
  refine congrArg₂ (fun a b : EReal => a + b) (congrArg (fun z : EReal => z * v27 (ix3 u i d)) ?_) ?_
  · exact Cert.Rank3Layout.broadcastTo_ab1_apply v15 broadcasts_S1x512x1_S1x512x1024 u i d
  · exact Cert.LibBatchedDot.mat_matmul_zero_apply dot_S1x512x1024_S1x1024x1024_S1x512x1024_2_1_1_2_0_0_wf none
      (truncf (F := Ideal) .bf16 v18 bitsLt_bf16_f32) v7 u i d

/-- The result at (i, d): the weighted sum divided by row i's running sum. -/
theorem k1_pay3_apply (v42 : Vec Ideal S1x512x1024 .f32) (v43 : Vec Ideal S1x512x1 .f32)
    (u : Fin 1) (i : Fin 512) (d : Fin 1024) :
    k1_pay3 (F := Ideal) v42 v43 (ix3 u i d) = Ideal.div (v42 (ix3 u i d)) (v43 (ix3 u i (0 : Fin 1))) := by
  unfold k1_pay3
  exact congrArg (Ideal.div (v42 (ix3 u i d)))
    (Cert.Rank3Layout.broadcastTo_ab1_apply v43 broadcasts_S1x512x1_S1x512x1024 u i d)

/-- The stored maximum passes through unchanged. -/
theorem k1_pay2_eq (v12 : FVec Ideal S1x512x1 .f32) : k1_pay2 (F := Ideal) v12 = v12 := by
  unfold k1_pay2
  exact shapeCast_self _ _

/-- The values pass through unchanged. -/
theorem k1_pay8_eq (v6 : Vec Ideal S1x1024x1024 .bf16) : k1_pay8 (F := Ideal) v6 = v6 := by
  unfold k1_pay8
  exact shapeCast_self _ _

/-- The running maximum is reset to the f32 word of -inf. -/
theorem k1_pay4_apply (i : S1x512x1.Idx) : k1_pay4 (F := Ideal) i = Ideal.ofBits .f32 0xFF800000#32 := by
  unfold k1_pay4
  exact congrFun (shapeCast_self _ _) i

/-- The running sum is reset to the f32 word of zero. -/
theorem k1_pay5_apply (i : S1x512x1.Idx) : k1_pay5 (F := Ideal) i = Ideal.ofBits .f32 0x00000000#32 := by
  unfold k1_pay5
  exact congrFun (shapeCast_self _ _) i

/-- The weighted sum is reset to the f32 word of zero. -/
theorem k1_pay6_apply (i : S1x512x1024.Idx) : k1_pay6 (F := Ideal) i = Ideal.ofBits .f32 0x00000000#32 := by
  unfold k1_pay6
  exact congrFun (shapeCast_self _ _) i

end Cert.AttnMath.Pay

end
-- ==== Proof.LibOnlineSoftmax.lean ====
/-
  Online softmax on the extended reals.

  A weighted softmax average  (∑ exp(xᵢ)·fᵢ) / (∑ exp(xᵢ))  can be accumulated block by block while keeping only a
  running shift `m`, a running denominator `l` and a running numerator `a`: on a new block with shift `r`,

      m' = max m r,   α = exp (m − m'),   l' = α·l + ∑ⱼ exp (xⱼ − m'),   a' = α·a + ∑ⱼ exp (xⱼ − m')·fⱼ ,

  starting from  m = −∞, l = 0, a = 0  (so that the first α is exp(−∞) = 0).

  The point of this file: after at least one block the state is  (μ, ∑ exp(x−μ), ∑ exp(x−μ)·f)  for SOME real μ, the
  sums ranging over every key seen so far — because exp(μ−μ')·exp(x−μ) = exp(x−μ') — and a softmax does not depend on
  its shift, so a / l is the weighted softmax average whatever the shifts `r` were. In particular nothing is needed
  of `r` being the block's maximum: that choice matters for rounding, not for the value.

  Logits and values are real (finite); the arithmetic is the extended reals' with `Ideal.exp` and `Ideal.div`, whose
  corners (exp(−∞) = 0, division by zero) are met only at the start, where they give 0·0 = 0.
-/
import Idealize.ShloMosaic.PureOps.Ideal

noncomputable section

namespace Cert.Lib.OnlineSoftmax

open Idealize.ShloMosaic
open scoped BigOperators

/-! ## Coercions -/

/-- The coercion of reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exponential of a difference of reals, on the extended reals. -/
theorem exp_coe_sub (x μ : ℝ) : Ideal.exp ((x : EReal) - (μ : EReal)) = ((Real.exp (x - μ) : ℝ) : EReal) := by
  rw [← EReal.coe_sub]; rfl

/-- A quotient of reals by a nonzero real, on the extended reals, is the real quotient. -/
theorem div_coe_coe (a : ℝ) {q : ℝ} (hq : q ≠ 0) : Ideal.div (a : EReal) (q : EReal) = ((a / q : ℝ) : EReal) := by
  rw [Ideal.div_coe hq, ← EReal.coe_mul, mul_one_div]

/-- The reciprocal of a nonzero real, on the extended reals. -/
theorem one_div_coe {q : ℝ} (hq : q ≠ 0) : Ideal.div 1 (q : EReal) = ((q⁻¹ : ℝ) : EReal) := by
  have h := div_coe_coe 1 hq
  rw [one_div] at h
  exact_mod_cast h

/-! ## Normalising the factors, or dividing the product -/

/-- A dot product of two vectors each scaled by the reciprocal of a nonzero real (its norm, say) is the dot product
    divided by the product of the two reals: a kernel that normalises its operands first and a reference that
    divides the product by the norms' product compute one number — PROVIDED neither norm is zero (at zero the first
    is 0·(+∞) = 0 and the second 0/0). -/
theorem normalized_dot {ι : Type*} (s : Finset ι) (a b : ι → ℝ) {p t : ℝ} (hp : p ≠ 0) (ht : t ≠ 0) :
    ∑ i ∈ s, ((a i : EReal) * Ideal.div 1 (p : EReal)) * ((b i : EReal) * Ideal.div 1 (t : EReal))
      = Ideal.div ((∑ i ∈ s, a i * b i : ℝ) : EReal) ((p : EReal) * (t : EReal)) := by
  rw [one_div_coe hp, one_div_coe ht, ← EReal.coe_mul p t, div_coe_coe _ (mul_ne_zero hp ht)]
  simp only [← EReal.coe_mul, ← coe_sum]
  congr 1
  rw [Finset.sum_div]
  refine Finset.sum_congr rfl fun i _ => ?_
  field_simp

/-! ## A softmax does not depend on its shift -/

/-- Shifting every logit by the same real changes neither the numerator-to-denominator ratio. Stated over a double
    sum (blocks, then keys inside a block), which is how the accumulation meets it. -/
theorem shift_invariant {ι J : Type*} [Fintype J] (s : Finset ι) (x f : ι → J → ℝ) (μ : ℝ) :
    (∑ i ∈ s, ∑ j, Real.exp (x i j - μ) * f i j) / (∑ i ∈ s, ∑ j, Real.exp (x i j - μ))
      = (∑ i ∈ s, ∑ j, Real.exp (x i j) * f i j) / (∑ i ∈ s, ∑ j, Real.exp (x i j)) := by
  have h : ∀ i j, Real.exp (x i j - μ) = Real.exp (x i j) * Real.exp (-μ) := fun i j => by
    rw [← Real.exp_add, sub_eq_add_neg]
  have hn : (∑ i ∈ s, ∑ j, Real.exp (x i j - μ) * f i j) = (∑ i ∈ s, ∑ j, Real.exp (x i j) * f i j) * Real.exp (-μ) := by
    rw [Finset.sum_mul]; refine Finset.sum_congr rfl fun i _ => ?_
    rw [Finset.sum_mul]; refine Finset.sum_congr rfl fun j _ => ?_
    rw [h]; ring
  have hd : (∑ i ∈ s, ∑ j, Real.exp (x i j - μ)) = (∑ i ∈ s, ∑ j, Real.exp (x i j)) * Real.exp (-μ) := by
    rw [Finset.sum_mul]; refine Finset.sum_congr rfl fun i _ => ?_
    rw [Finset.sum_mul]; refine Finset.sum_congr rfl fun j _ => ?_
    rw [h]
  rw [hn, hd, mul_div_mul_right _ _ (Real.exp_ne_zero _)]

/-! ## The accumulation -/

variable {J : Type*} [Fintype J]

/-- One block: the new shift, the rescaled denominator plus the block's, the rescaled numerator plus the block's. -/
def step (r : ℝ) (x f : J → ℝ) (s : EReal × EReal × EReal) : EReal × EReal × EReal :=
  (max s.1 (r : EReal),
   Ideal.exp (s.1 - max s.1 (r : EReal)) * s.2.1 + ∑ j, Ideal.exp ((x j : EReal) - max s.1 (r : EReal)),
   Ideal.exp (s.1 - max s.1 (r : EReal)) * s.2.2 + ∑ j, Ideal.exp ((x j : EReal) - max s.1 (r : EReal)) * (f j : EReal))

/-- The state after the first `k` blocks, from (−∞, 0, 0). -/
def run (r : ℕ → ℝ) (x f : ℕ → J → ℝ) : ℕ → EReal × EReal × EReal
  | 0 => (⊥, 0, 0)
  | k + 1 => step (r k) (x k) (f k) (run r x f k)

/-- Rescaling the sums accumulated at shift `μ` to the shift `μ'`. -/
theorem rescale (k : ℕ) (x g : ℕ → J → ℝ) (μ μ' : ℝ) :
    Real.exp (μ - μ') * (∑ i ∈ Finset.range k, ∑ j, Real.exp (x i j - μ) * g i j)
      = ∑ i ∈ Finset.range k, ∑ j, Real.exp (x i j - μ') * g i j := by
  rw [Finset.mul_sum]; refine Finset.sum_congr rfl fun i _ => ?_
  rw [Finset.mul_sum]; refine Finset.sum_congr rfl fun j _ => ?_
  rw [← mul_assoc, ← Real.exp_add]; congr 2; ring

/-- After at least one block the state is real: some shift `μ`, and the two sums over every key seen, at that shift. -/
theorem run_succ (r : ℕ → ℝ) (x f : ℕ → J → ℝ) (k : ℕ) :
    ∃ μ : ℝ, run r x f (k + 1)
      = ((μ : EReal),
         ((∑ i ∈ Finset.range (k + 1), ∑ j, Real.exp (x i j - μ) : ℝ) : EReal),
         ((∑ i ∈ Finset.range (k + 1), ∑ j, Real.exp (x i j - μ) * f i j : ℝ) : EReal)) := by
  induction k with
  | zero =>
    refine ⟨r 0, ?_⟩
    have hm : max (⊥ : EReal) (r 0 : EReal) = (r 0 : EReal) := max_eq_right bot_le
    have hb : (⊥ : EReal) - (r 0 : EReal) = ⊥ := by rw [sub_eq_add_neg, EReal.bot_add]
    simp only [run, step, hm, hb, Ideal.exp_bot, zero_mul, zero_add, Finset.sum_range_one, exp_coe_sub,
      ← EReal.coe_mul, ← coe_sum]
  | succ k ih =>
    obtain ⟨μ, hμ⟩ := ih
    refine ⟨max μ (r (k + 1)), ?_⟩
    have hm : max (μ : EReal) (r (k + 1) : EReal) = ((max μ (r (k + 1)) : ℝ) : EReal) := (EReal.coe_strictMono.monotone.map_max).symm
    have h1 := rescale (k + 1) x (fun _ _ => (1 : ℝ)) μ (max μ (r (k + 1)))
    have h2 := rescale (k + 1) x f μ (max μ (r (k + 1)))
    simp only [mul_one] at h1
    rw [run, hμ]
    simp only [step, hm, exp_coe_sub, ← EReal.coe_mul, ← coe_sum, ← EReal.coe_add]
    rw [h1, h2, Finset.sum_range_succ _ (k + 1), Finset.sum_range_succ _ (k + 1)]

/-- The accumulated denominator is positive once a nonempty block has been seen. -/
theorem denom_pos [Nonempty J] (x : ℕ → J → ℝ) (μ : ℝ) (k : ℕ) :
    0 < ∑ i ∈ Finset.range (k + 1), ∑ j, Real.exp (x i j - μ) :=
  Finset.sum_pos (fun _ _ => Finset.sum_pos (fun _ _ => Real.exp_pos _) Finset.univ_nonempty)
    ⟨0, Finset.mem_range.mpr (Nat.succ_pos k)⟩

/-- THE RESULT. After `k+1` nonempty blocks, numerator times the reciprocal of the denominator is the weighted softmax
    average over every key of every block, whatever the shifts were. -/
theorem run_quotient [Nonempty J] (r : ℕ → ℝ) (x f : ℕ → J → ℝ) (k : ℕ) :
    (run r x f (k + 1)).2.2 * Ideal.div 1 (run r x f (k + 1)).2.1
      = (((∑ i ∈ Finset.range (k + 1), ∑ j, Real.exp (x i j) * f i j)
          / (∑ i ∈ Finset.range (k + 1), ∑ j, Real.exp (x i j)) : ℝ) : EReal) := by
  obtain ⟨μ, hμ⟩ := run_succ r x f k
  rw [hμ]
  dsimp only
  rw [one_div_coe (denom_pos x μ k).ne', ← EReal.coe_mul, ← div_eq_mul_inv, shift_invariant]

/-- The same average as a reference spells it: each weight exp(x−M) divided by the sum of all exp(x−M), at the
    reference's own shift `M`, then the weighted sum. -/
theorem softmax_sum [Nonempty J] (x f : ℕ → J → ℝ) (M : ℝ) (k : ℕ) :
    (∑ i ∈ Finset.range (k + 1), ∑ j,
        Real.exp (x i j - M) / (∑ i' ∈ Finset.range (k + 1), ∑ j', Real.exp (x i' j' - M)) * f i j)
      = (∑ i ∈ Finset.range (k + 1), ∑ j, Real.exp (x i j) * f i j)
          / (∑ i ∈ Finset.range (k + 1), ∑ j, Real.exp (x i j)) := by
  rw [← shift_invariant (Finset.range (k + 1)) x f M, Finset.sum_div]
  refine Finset.sum_congr rfl fun i _ => ?_
  rw [Finset.sum_div]; refine Finset.sum_congr rfl fun j _ => ?_
  ring

end Cert.Lib.OnlineSoftmax

end
-- ==== Proof.AttnLaw.lean ====
/-
  The laws over the reals that join the blockwise computation to the plain formula.

  (1) The scale. sqrt 1024 = 32 exactly, so 1 / sqrt 1024 is the dyadic 2^-5; and for REAL q and k the scale may sit
      inside the sum over the channels, on the query factor, or outside it: ∑ (q·2^-5)·k = (∑ q·k)·2^-5. (On the extended
      reals this needs the entries real: a factor does not move across a sum at the infinities.)
  (2) A finite maximum of reals, taken from -inf, is a real.
  (3) The softmax. Two blocks of the online recurrence from (-inf, 0, 0) — new shift the larger of the old shift and the
      block's, sums rescaled by exp(old shift - new shift) — end with numerator / denominator equal to the weighted
      softmax average over both blocks; and the plain formula, each weight exp(x - M) divided by the sum of all of them at
      ANY real shift M, is the same average. The average does not depend on a shift, and every quantity met is real once
      the first block has been seen.
-/
import proofs.«101194_j90348932038964_2_alg».proof.Proof.LibOnlineSoftmax

noncomputable section

namespace Cert.AttnMath.Law

open Idealize.ShloMosaic Cert.Lib.OnlineSoftmax
open scoped BigOperators

/-! ## The words -/

/-- The f32 word 0xFF800000 is -inf. -/
theorem negInf_word : Ideal.ofBits .f32 0xFF800000#32 = ⊥ := by simp [Ideal.ofBits, Ideal.ieee]
/-- The f32 word 0 is zero. -/
theorem zero_word : Ideal.ofBits .f32 0x00000000#32 = 0 := by simp [Ideal.ofBits, Ideal.ieee]
/-- The f32 word 0x3F800000 is one. -/
theorem one_word : Ideal.ofBits .f32 0x3F800000#32 = ((1 : ℝ) : EReal) := by
  simp [Ideal.ofBits, Ideal.ieee, -EReal.coe_mul]; norm_num
/-- The f32 word 0x44800000 is 1024. -/
theorem c1024_word : Ideal.ofBits .f32 0x44800000#32 = ((1024 : ℝ) : EReal) := by
  simp [Ideal.ofBits, Ideal.ieee, -EReal.coe_mul]; norm_num
/-- The f32 word 0x3D000000 is 2^-5 = 1/32. -/
theorem inv32_word : Ideal.ofBits .f32 0x3D000000#32 = ((1 / 32 : ℝ) : EReal) := by
  simp [Ideal.ofBits, Ideal.ieee, -EReal.coe_mul]; norm_num
/-- 1024 is the square of 32. -/
theorem sqrt_1024 : Real.sqrt 1024 = 32 := by
  rw [show (1024 : ℝ) = 32 ^ 2 by norm_num]; exact Real.sqrt_sq (by norm_num)
/-- 1 / sqrt 1024, as the quotient of the two words through the square root, is 1/32. -/
theorem invSqrt_word :
    Ideal.div (Ideal.ofBits .f32 0x3F800000#32) (Ideal.sqrt (Ideal.ofBits .f32 0x44800000#32)) = ((1 / 32 : ℝ) : EReal) := by
  rw [one_word, c1024_word, Ideal.sqrt_coe, if_neg (by norm_num), sqrt_1024, Ideal.div_coe (by norm_num), ← EReal.coe_mul,
    one_mul]

/-! ## Sums of products of reals, and the scale across the sum -/

section Dot
variable {C : Type*} [Fintype C]

/-- A dot product of reals plus a real, on the extended reals, is the real one. -/
theorem affine_real (a b : C → ℝ) (z : ℝ) :
    (∑ c, (a c : EReal) * (b c : EReal)) + (z : EReal) = (((∑ c, a c * b c) + z : ℝ) : EReal) := by
  simp only [← EReal.coe_mul, ← coe_sum, ← EReal.coe_add]

/-- The scale on the first factor, inside the sum. -/
theorem scaled_dot (q k : C → ℝ) (σ : ℝ) :
    ∑ c, ((q c : EReal) * (σ : EReal)) * (k c : EReal) = (((∑ c, q c * k c) * σ : ℝ) : EReal) := by
  simp only [← EReal.coe_mul, ← coe_sum]
  congr 1
  rw [Finset.sum_mul]
  exact Finset.sum_congr rfl fun c _ => by ring

/-- The scale outside the sum. -/
theorem dot_scaled (q k : C → ℝ) (σ : ℝ) :
    (∑ c, (q c : EReal) * (k c : EReal)) * (σ : EReal) = (((∑ c, q c * k c) * σ : ℝ) : EReal) := by
  simp only [← EReal.coe_mul, ← coe_sum]

end Dot

/-! ## A finite maximum of reals -/

/-- The fold of max from -inf over a nonempty finite family of reals is one of them. -/
theorem fold_max_real {K : Type*} [Fintype K] [Nonempty K] (x : K → ℝ) :
    ∃ r : ℝ, (Finset.univ : Finset K).fold max (⊥ : EReal) (fun k => (x k : EReal)) = (r : EReal) := by
  obtain ⟨k, _, hk⟩ := Finset.exists_mem_eq_sup (Finset.univ : Finset K) Finset.univ_nonempty (fun k => (x k : EReal))
  exact ⟨x k, hk⟩

/-! ## Two blocks of the online recurrence, and the plain softmax over both -/

section Softmax
variable {J : Type*} [Fintype J] [Nonempty J]

/-- The weighted softmax average over two blocks. -/
def avg2 (x f : ℕ → J → ℝ) : ℝ :=
  (∑ i ∈ Finset.range 2, ∑ j, Real.exp (x i j) * f i j) / (∑ i ∈ Finset.range 2, ∑ j, Real.exp (x i j))

/-- After two blocks, numerator divided by denominator is the average, whatever the shifts were. -/
theorem run_two_div (r : ℕ → ℝ) (x f : ℕ → J → ℝ) :
    Ideal.div (run r x f 2).2.2 (run r x f 2).2.1 = ((avg2 x f : ℝ) : EReal) := by
  obtain ⟨μ, hμ⟩ := run_succ r x f 1
  rw [hμ]
  dsimp only
  rw [div_coe_coe _ (denom_pos x μ 1).ne', shift_invariant]
  rfl

/-- The plain formula over the two blocks at any real shift: the same average. -/
theorem plain_two (x f : ℕ → J → ℝ) (M : ℝ) :
    (∑ j, Ideal.div (Ideal.exp ((x 0 j : EReal) - (M : EReal)))
            ((0 : EReal) + ((∑ j', Ideal.exp ((x 0 j' : EReal) - (M : EReal))) + ∑ j', Ideal.exp ((x 1 j' : EReal) - (M : EReal))))
          * (f 0 j : EReal))
      + (∑ j, Ideal.div (Ideal.exp ((x 1 j : EReal) - (M : EReal)))
            ((0 : EReal) + ((∑ j', Ideal.exp ((x 0 j' : EReal) - (M : EReal))) + ∑ j', Ideal.exp ((x 1 j' : EReal) - (M : EReal))))
          * (f 1 j : EReal))
      = ((avg2 x f : ℝ) : EReal) := by
  have hpos := denom_pos x M 1
  have hD : (∑ i ∈ Finset.range 2, ∑ j, Real.exp (x i j - M)) = (∑ j, Real.exp (x 0 j - M)) + ∑ j, Real.exp (x 1 j - M) := by
    rw [Finset.sum_range_succ, Finset.sum_range_one]
  rw [hD] at hpos
  simp only [exp_coe_sub, zero_add, ← coe_sum, ← EReal.coe_add, div_coe_coe _ hpos.ne', ← EReal.coe_mul]
  congr 1
  have h := softmax_sum x f M 1
  rw [Finset.sum_range_succ, Finset.sum_range_one, hD] at h
  exact h

end Softmax

end Cert.AttnMath.Law

end
-- ==== Proof.AttnRowStep.lean ====
/-
  One key step of the kernel, on one query row, is one step of the online softmax recurrence.

  Fix a query row i and a channel d. If the row's scores against the block's keys are the reals x(j), the block's values
  in channel d are the reals f(j), and the fold of max over the x(j) from -inf is the real ρ, then the kernel's new
  maximum, new running sum and new weighted sum at that row (and channel) are
      max m ρ,   exp(m - max m ρ)·l + ∑ⱼ exp(x(j) - max m ρ),   exp(m - max m ρ)·a + ∑ⱼ exp(x(j) - max m ρ)·f(j)
  of the old (m, l, a): the recurrence's step with shift ρ.
-/
import proofs.«101194_j90348932038964_2_alg».proof.Proof.AttnPayload
import proofs.«101194_j90348932038964_2_alg».proof.Proof.AttnPayloadAcc
import proofs.«101194_j90348932038964_2_alg».proof.Proof.AttnLaw

noncomputable section

namespace Cert.AttnMath.Pay

open Cert.KernelIdeal Cert.KernelIdeal.Gen Cert.AttnMath.Law Cert.Lib.OnlineSoftmax
open Idealize.ShloMosaic Idealize.ShloMosaic.ValueIdx
open scoped BigOperators

/-- The kernel's key step at row i (and channel d) is the recurrence's step. -/
theorem step_row (q : Vec Ideal S1x512x1024 .bf16) (k v : Vec Ideal S1x1024x1024 .bf16)
    (xm xl : Vec Ideal S1x512x1 .f32) (xacc : Vec Ideal S1x512x1024 .f32)
    (i : Fin 512) (d : Fin 1024) (x f : Fin 1024 → ℝ) (ρ : ℝ)
    (hs : ∀ j : Fin 1024, (∑ c : Fin 1024, q (ix3 (0 : Fin 1) i c) * k (ix3 (0 : Fin 1) j c)) = (x j : EReal))
    (hv : ∀ j : Fin 1024, v (ix3 (0 : Fin 1) j d) = (f j : EReal))
    (hr : (Finset.univ : Finset (Fin 1024)).fold max (⊥ : EReal) (fun j => (x j : EReal)) = (ρ : EReal)) :
    (k1_pay2 (F := Ideal) (k1_pay10 q k xm) (ix3 (0 : Fin 1) i (0 : Fin 1)),
     k1_pay13 (F := Ideal) q k xm xm xl (ix3 (0 : Fin 1) i (0 : Fin 1)),
     k1_pay1 (F := Ideal) (k1_pay8 v) (k1_pay11 q k xm xm) (k1_pay12 q k xm) xacc (ix3 (0 : Fin 1) i d))
      = step ρ x f (xm (ix3 (0 : Fin 1) i (0 : Fin 1)), xl (ix3 (0 : Fin 1) i (0 : Fin 1)), xacc (ix3 (0 : Fin 1) i d)) := by
  have h9 : ∀ j : Fin 1024, k1_pay9 (F := Ideal) q k (ix3 (0 : Fin 1) i j) = (x j : EReal) :=
    fun j => (k1_pay9_apply q k 0 i j).trans (hs j)
  have hM : k1_pay10 (F := Ideal) q k xm (ix3 (0 : Fin 1) i (0 : Fin 1))
      = max (xm (ix3 (0 : Fin 1) i (0 : Fin 1))) (ρ : EReal) := by
    rw [k1_pay10_apply, negInf_word]
    simp only [h9]
    rw [hr]
  have h11 : k1_pay11 (F := Ideal) q k xm xm (ix3 (0 : Fin 1) i (0 : Fin 1))
      = Ideal.exp (xm (ix3 (0 : Fin 1) i (0 : Fin 1)) - max (xm (ix3 (0 : Fin 1) i (0 : Fin 1))) (ρ : EReal)) := by
    rw [k1_pay11_apply, hM]
  have h12 : ∀ j : Fin 1024, k1_pay12 (F := Ideal) q k xm (ix3 (0 : Fin 1) i j)
      = Ideal.exp ((x j : EReal) - max (xm (ix3 (0 : Fin 1) i (0 : Fin 1))) (ρ : EReal)) := fun j => by
    rw [k1_pay12_apply, h9, hM]
  rw [k1_pay2_eq, k1_pay13_apply, k1_pay1_apply, k1_pay8_eq, hM, h11]
  simp only [h12, hv]
  rfl

end Cert.AttnMath.Pay

end
-- ==== Proof.AttnTwoStepValue.lean ====
/-
  Two key steps of the kernel on one query row compute the softmax-weighted average over all 2048 keys.

  Fix a query row r of a block and a channel d. Let qrow(c) be the row's (unscaled) query entries, kk(j, c) the keys and
  vv(j, d) the values of the 2048 key positions, the first 1024 of them met by the first key step and the last 1024 by the
  second, all REAL. The kernel scales the query by 2^-5 before the dot products; the plain formula scales the dot
  products by 1 / sqrt 1024 = 2^-5 afterwards: for real entries the scores agree. With the scores and values real, each
  key step is one step of the online softmax recurrence from (-inf, 0, 0), whose numerator / denominator after both
  blocks is the weighted softmax average; and the plain formula — weights exp(score - M) at the row's overall maximum M,
  each divided by their sum, times the values, summed over the 2048 keys split into the two halves — is the same average.
-/
import proofs.«101194_j90348932038964_2_alg».proof.Proof.AttnTwoStep
import proofs.«101194_j90348932038964_2_alg».proof.Proof.AttnRowStep
import proofs.«101194_j90348932038964_2_alg».proof.Proof.AttnSpec

noncomputable section

namespace Cert.AttnMath

open Cert.KernelIdeal Cert.KernelIdeal.Gen Cert.KernelIdeal.Attn Cert.AttnMath.Pay Cert.AttnMath.Law Cert.Lib.OnlineSoftmax
open Idealize.ShloMosaic Idealize.ShloMosaic.ValueIdx
open scoped BigOperators

/-! ## The plain formula of one query row -/

/-- The score of the row against key position j: (∑ over the channels of qrow · kk(j)) · (1 / sqrt 1024). -/
def rowScore (qrow : Fin 1024 → EReal) (kk : Fin 2048 → Fin 1024 → EReal) (j : Fin 2048) : EReal :=
  (∑ c : Fin 1024, qrow c * kk j c) * invSqrtC

/-- The row's attention output in channel d, in the specification's arrangement. -/
def softAttn (qrow : Fin 1024 → EReal) (kk vv : Fin 2048 → Fin 1024 → EReal) (d : Fin 1024) : EReal :=
  ∑ j : Fin 2048,
    Ideal.div
      (Ideal.exp (rowScore qrow kk j
        - max negInf ((Finset.univ : Finset (Fin 2048)).fold max negInf fun j' => rowScore qrow kk j')))
      (Ideal.ofBits .f32 0x00000000#32 + ∑ j'' : Fin 2048,
        Ideal.exp (rowScore qrow kk j''
          - max negInf ((Finset.univ : Finset (Fin 2048)).fold max negInf fun j' => rowScore qrow kk j')))
      * vv j d

/-- The specification at (b, i, d) is the plain formula of row (b, i) of the projected queries against the projected
    keys and values of batch b. -/
theorem attnAt_eq_softAttn (ev img : Feat) (Wq Wk Wv : Mat) (bq bk bv : Bias) (b : Fin 4) (i : Fin 2048) (d : Fin 1024) :
    attnAt ev img Wq Wk Wv bq bk bv b i d
      = softAttn (proj ev Wq bq b i) (proj img Wk bk b) (proj img Wv bv b) d := rfl

/-- A projection of real arrays is real. -/
theorem proj_real (x : Feat) (W : Mat) (bias : Bias) (hx : ∀ i, ∃ t : ℝ, x i = (t : EReal))
    (hW : ∀ i, ∃ t : ℝ, W i = (t : EReal)) (hb : ∀ i, ∃ t : ℝ, bias i = (t : EReal)) (b : Fin 4) (n : Fin 2048)
    (d : Fin 1024) : ∃ t : ℝ, proj x W bias b n d = (t : EReal) := by
  choose xr hxr using hx
  choose wr hwr using hW
  choose br hbr using hb
  refine ⟨(∑ c : Fin 1024, xr (ix3 b n c) * wr (ix2 c d)) + br (ix1 d), ?_⟩
  unfold proj
  simp only [hxr, hwr, hbr]
  exact affine_real _ _ _

/-! ## The two halves of the key axis -/

/-- Key position j of key step t: the first 1024 positions at step 0, the last 1024 otherwise. -/
def blockOf (t : ℕ) (j : Fin 1024) : Fin 2048 :=
  if t = 0 then ⟨j.val, by omega⟩ else ⟨1024 + j.val, by omega⟩

/-- A sum over the 2048 key positions is the sum over the first half plus the sum over the second. -/
theorem sum_halves {M : Type*} [AddCommMonoid M] (g : Fin 2048 → M) :
    ∑ k : Fin 2048, g k = (∑ j : Fin 1024, g (blockOf 0 j)) + ∑ j : Fin 1024, g (blockOf 1 j) :=
  Fin.sum_univ_add (a := 1024) (b := 1024) g

/-- The real scores of key step t. -/
def xOf (qr : Fin 1024 → ℝ) (kr : Fin 2048 → Fin 1024 → ℝ) (t : ℕ) (j : Fin 1024) : ℝ :=
  (∑ c : Fin 1024, qr c * kr (blockOf t j) c) * (1 / 32)

/-- The real values of key step t in the fixed channel. -/
def fOf (vr : Fin 2048 → ℝ) (t : ℕ) (j : Fin 1024) : ℝ := vr (blockOf t j)

/-! ## The plain formula over real entries is the two-block average -/

theorem softAttn_real (qr : Fin 1024 → ℝ) (kr : Fin 2048 → Fin 1024 → ℝ) (vr : Fin 2048 → ℝ)
    (qrow : Fin 1024 → EReal) (kk vv : Fin 2048 → Fin 1024 → EReal) (d : Fin 1024)
    (hqr : ∀ c, qrow c = (qr c : EReal)) (hkr : ∀ j c, kk j c = (kr j c : EReal)) (hvr : ∀ j, vv j d = (vr j : EReal)) :
    softAttn qrow kk vv d = ((avg2 (xOf qr kr) (fOf vr) : ℝ) : EReal) := by
  have hS : ∀ j : Fin 2048, rowScore qrow kk j = (((∑ c : Fin 1024, qr c * kr j c) * (1 / 32) : ℝ) : EReal) := fun j => by
    unfold rowScore invSqrtC
    rw [invSqrt_word]
    simp only [hqr, hkr]
    exact dot_scaled qr (kr j) (1 / 32)
  obtain ⟨M, hM⟩ := fold_max_real fun j : Fin 2048 => (∑ c : Fin 1024, qr c * kr j c) * (1 / 32)
  have hmax : max negInf ((Finset.univ : Finset (Fin 2048)).fold max negInf fun j' => rowScore qrow kk j') = (M : EReal) := by
    simp only [hS]
    unfold negInf
    rw [negInf_word, hM]
    exact max_eq_right bot_le
  unfold softAttn
  rw [hmax, zero_word]
  simp only [hS, hvr]
  rw [sum_halves, sum_halves (fun j'' : Fin 2048 => Ideal.exp ((((∑ c : Fin 1024, qr c * kr j'' c) * (1 / 32) : ℝ) : EReal) - (M : EReal)))]
  exact plain_two (xOf qr kr) (fOf vr) M

/-! ## The kernel's two key steps on the row -/

/-- THE JOIN. For real entries, the kernel's two-step value at row r and channel d is the plain formula of the row. -/
theorem twoStep_apply (ev : Vec Ideal S1x512x1024 .f32) (wq : Vec Ideal S1024x1024 .bf16) (bq : Vec Ideal S1024 .f32)
    (k1 v1 k2 v2 : Vec Ideal S1x1024x1024 .bf16)
    (qrow : Fin 1024 → EReal) (kk vv : Fin 2048 → Fin 1024 → EReal) (r : Fin 512) (d : Fin 1024)
    (hq : ∀ c : Fin 1024, (∑ c' : Fin 1024, ev (ix3 (0 : Fin 1) r c') * wq (ix2 c' c)) + bq (ix1 c) = qrow c)
    (hk1 : ∀ j c : Fin 1024, k1 (ix3 (0 : Fin 1) j c) = kk (blockOf 0 j) c)
    (hk2 : ∀ j c : Fin 1024, k2 (ix3 (0 : Fin 1) j c) = kk (blockOf 1 j) c)
    (hv1 : ∀ j : Fin 1024, v1 (ix3 (0 : Fin 1) j d) = vv (blockOf 0 j) d)
    (hv2 : ∀ j : Fin 1024, v2 (ix3 (0 : Fin 1) j d) = vv (blockOf 1 j) d)
    (hqr : ∀ c, ∃ t : ℝ, qrow c = (t : EReal)) (hkr : ∀ j c, ∃ t : ℝ, kk j c = (t : EReal))
    (hvr : ∀ j, ∃ t : ℝ, vv j d = (t : EReal)) :
    twoStep (F := Ideal) ev wq bq k1 v1 k2 v2 (ix3 (0 : Fin 1) r d) = softAttn qrow kk vv d := by
  choose qr hqr using hqr
  choose kr hkr using hkr
  choose vr hvr using hvr
  rw [softAttn_real qr kr vr qrow kk vv d hqr hkr hvr]
  -- the scaled query row
  have hqc : ∀ c : Fin 1024, k1_pay7 (F := Ideal) ev wq bq (ix3 (0 : Fin 1) r c) = (qr c : EReal) * ((1 / 32 : ℝ) : EReal) :=
    fun c => by rw [k1_pay7_apply, hq, hqr, inv32_word]
  -- the scores and values of the two key steps
  have hs0 : ∀ j : Fin 1024, (∑ c : Fin 1024, k1_pay7 (F := Ideal) ev wq bq (ix3 (0 : Fin 1) r c) * k1 (ix3 (0 : Fin 1) j c))
      = (xOf qr kr 0 j : EReal) := fun j => by
    simp only [hqc, hk1, hkr]
    exact scaled_dot qr (kr (blockOf 0 j)) (1 / 32)
  have hs1 : ∀ j : Fin 1024, (∑ c : Fin 1024, k1_pay7 (F := Ideal) ev wq bq (ix3 (0 : Fin 1) r c) * k2 (ix3 (0 : Fin 1) j c))
      = (xOf qr kr 1 j : EReal) := fun j => by
    simp only [hqc, hk2, hkr]
    exact scaled_dot qr (kr (blockOf 1 j)) (1 / 32)
  have hf0 : ∀ j : Fin 1024, v1 (ix3 (0 : Fin 1) j d) = (fOf vr 0 j : EReal) := fun j => by rw [hv1, hvr]; rfl
  have hf1 : ∀ j : Fin 1024, v2 (ix3 (0 : Fin 1) j d) = (fOf vr 1 j : EReal) := fun j => by rw [hv2, hvr]; rfl
  obtain ⟨ρ0, hρ0⟩ := fold_max_real (xOf qr kr 0)
  obtain ⟨ρ1, hρ1⟩ := fold_max_real (xOf qr kr 1)
  -- the state after the first key step, and after the second
  have e1 := step_row (k1_pay7 (F := Ideal) ev wq bq) k1 v1 (k1_pay4 (F := Ideal)) (k1_pay5 (F := Ideal)) (k1_pay6 (F := Ideal))
    r d (xOf qr kr 0) (fOf vr 0) ρ0 hs0 hf0 hρ0
  rw [k1_pay4_apply, k1_pay5_apply, k1_pay6_apply, negInf_word, zero_word] at e1
  have e2 := step_row (k1_pay7 (F := Ideal) ev wq bq) k2 v2
    (k1_pay2 (F := Ideal) (k1_pay10 (k1_pay7 (F := Ideal) ev wq bq) k1 (k1_pay4 (F := Ideal))))
    (k1_pay13 (F := Ideal) (k1_pay7 (F := Ideal) ev wq bq) k1 (k1_pay4 (F := Ideal)) (k1_pay4 (F := Ideal)) (k1_pay5 (F := Ideal)))
    (k1_pay1 (F := Ideal) (k1_pay8 v1) (k1_pay11 (k1_pay7 (F := Ideal) ev wq bq) k1 (k1_pay4 (F := Ideal)) (k1_pay4 (F := Ideal)))
      (k1_pay12 (k1_pay7 (F := Ideal) ev wq bq) k1 (k1_pay4 (F := Ideal))) (k1_pay6 (F := Ideal)))
    r d (xOf qr kr 1) (fOf vr 1) ρ1 hs1 hf1 hρ1
  rw [e1] at e2
  have hrun : step ρ1 (xOf qr kr 1) (fOf vr 1) (step ρ0 (xOf qr kr 0) (fOf vr 0) ((⊥ : EReal), (0 : EReal), (0 : EReal)))
      = run (fun t => if t = 0 then ρ0 else ρ1) (xOf qr kr) (fOf vr) 2 := rfl
  rw [hrun] at e2
  rw [← run_two_div (fun t => if t = 0 then ρ0 else ρ1) (xOf qr kr) (fOf vr), ← e2]
  exact k1_pay3_apply _ _ 0 r d

end Cert.AttnMath

end
-- ==== Proof.ResultIsAttn.lean ====
/-
  The kernel's result is the attention function. Entry (b, n, d) of the result array is the two key steps' composite on
  the blocks of batch b and query block n / 512, at row n mod 512. That row of the event block is row n of batch b of the
  event features, so the query row is  ev(b, n, ·) · Wq + bq;  row j of key step s is row 1024·s + j of batch b of the keys
  (values), which is  img(b, ·, ·) · Wk + bk  (· Wv + bv). With every argument real, two steps of the online recurrence on
  such rows are the softmax-weighted average over all 2048 keys: the reference's arrangement.
-/
import proofs.«101194_j90348932038964_2_alg».proof.Proof.ResultBlocksAt
import proofs.«101194_j90348932038964_2_alg».proof.Proof.KeysValuesAt
import proofs.«101194_j90348932038964_2_alg».proof.Proof.AttnTwoStepValue

set_option maxRecDepth 16384

noncomputable section

namespace Cert.KernelIdeal.Whole

open Cert.KernelIdeal Cert.KernelIdeal.Gen Cert.AttnMath
open Idealize.ShloMosaic Idealize.ShloMosaic.TcCoe Idealize.ShloMosaic.ValueIdx Idealize.SL.Sem

variable (m : (ℓ : Loc nD τ sig) → Buf (Elt Ideal) ℓ)

theorem result_is_attn (c : Dev nD)
    (h0 : ∀ i, ∃ t : ℝ, (m ((c : Thread nD τ).loc main_arg0)) i = (t : EReal)) (h1 : ∀ i, ∃ t : ℝ, (m ((c : Thread nD τ).loc main_arg1)) i = (t : EReal))
    (h2 : ∀ i, ∃ t : ℝ, (m ((c : Thread nD τ).loc main_arg2)) i = (t : EReal)) (h3 : ∀ i, ∃ t : ℝ, (m ((c : Thread nD τ).loc main_arg3)) i = (t : EReal))
    (h4 : ∀ i, ∃ t : ℝ, (m ((c : Thread nD τ).loc main_arg4)) i = (t : EReal)) (h5 : ∀ i, ∃ t : ℝ, (m ((c : Thread nD τ).loc main_arg5)) i = (t : EReal))
    (h6 : ∀ i, ∃ t : ℝ, (m ((c : Thread nD τ).loc main_arg6)) i = (t : EReal)) (h7 : ∀ i, ∃ t : ℝ, (m ((c : Thread nD τ).loc main_arg7)) i = (t : EReal)) :
    resultAt (F := Ideal) m c
      = Attn (m ((c : Thread nD τ).loc main_arg0)) (m ((c : Thread nD τ).loc main_arg1)) (m ((c : Thread nD τ).loc main_arg2)) (m ((c : Thread nD τ).loc main_arg4)) (m ((c : Thread nD τ).loc main_arg6))
          (m ((c : Thread nD τ).loc main_arg3)) (m ((c : Thread nD τ).loc main_arg5)) (m ((c : Thread nD τ).loc main_arg7)) := by
  funext i
  obtain ⟨b, n, d, rfl⟩ : ∃ (b : Fin 4) (n : Fin 2048) (d : Fin 1024), i = ix3 b n d := ⟨i 0, i 1, i 2, eq_ix3 i⟩
  unfold resultAt
  rw [Attn.resultOf_ix3, Attn_ix3, attnAt_eq_softAttn]
  refine twoStep_apply _ _ _ _ _ _ _
    (proj (m ((c : Thread nD τ).loc main_arg0)) (m ((c : Thread nD τ).loc main_arg2)) (m ((c : Thread nD τ).loc main_arg3)) b n)
    (proj (m ((c : Thread nD τ).loc main_arg1)) (m ((c : Thread nD τ).loc main_arg4)) (m ((c : Thread nD τ).loc main_arg5)) b)
    (proj (m ((c : Thread nD τ).loc main_arg1)) (m ((c : Thread nD τ).loc main_arg6)) (m ((c : Thread nD τ).loc main_arg7)) b)
    ⟨n.val % 512, Nat.mod_lt _ (by decide)⟩ d ?_ ?_ ?_ ?_ ?_ ?_ ?_ ?_
  · intro cc
    rw [wQ_ideal]
    unfold proj
    refine congrArg (· + _) (Finset.sum_congr rfl fun c' _ => ?_)
    rw [Attn.queryBlock_apply]
  · intro j cc
    rw [Attn.keyBlock_apply _ b 0 (by decide) j cc, keysOf_apply]
    exact congrArg (fun x => proj _ _ _ b x cc) (Fin.ext (by show 1024 * 0 + j.val = j.val; omega))
  · intro j cc
    rw [Attn.keyBlock_apply _ b 1 (by decide) j cc, keysOf_apply]
    rfl
  · intro j
    rw [Attn.keyBlock_apply _ b 0 (by decide) j d, valsOf_apply]
    exact congrArg (fun x => proj _ _ _ b x d) (Fin.ext (by show 1024 * 0 + j.val = j.val; omega))
  · intro j
    rw [Attn.keyBlock_apply _ b 1 (by decide) j d, valsOf_apply]
    rfl
  · exact fun cc => proj_real _ _ _ h0 h2 h3 b n cc
  · exact fun j cc => proj_real _ _ _ h1 h4 h5 b j cc
  · exact fun j => proj_real _ _ _ h1 h6 h7 b j d

end Cert.KernelIdeal.Whole

end
-- ==== Proof.RefIsAttn.lean ====
/-
  The reference program computes the specification.

  Its result is a chain of thirty-four array operations; read at one index, operation by operation, the chain is the
  specification's formula: the three projections are sums over the input channels plus a broadcast bias; the scores are
  the sum over the channels of q·k times the broadcast scalar 1 / sqrt 1024; the row maximum is a fold of max over the
  key axis from -inf; the weights, their sum and the quotient are pointwise and a sum over the key axis; and the result
  is the sum over the key axis of the normalised weight times the value. Only the indices have to be identified: each
  operation reads its operands at the result's index with one coordinate replaced or dropped.
-/
import proofs.«101194_j90348932038964_2_alg».proof.Proof.Gen.ReferenceIdeal.Read
import proofs.«101194_j90348932038964_2_alg».proof.Proof.AttnSpec
import Idealize.ShloMosaic.PureOps.Reduce

noncomputable section

namespace Cert.AttnMath.Ref

open Cert.ReferenceIdeal Cert.ReferenceIdeal.Gen Cert.ReferenceIdeal.Read Cert.AttnMath
open Idealize.ShloMosaic Idealize.ShloMosaic.ValueIdx Idealize.ShloMosaic.TcCoe Idealize.SL.Sem
open scoped BigOperators

variable (x0 x1 : (⟨S4x2048x1024, .f32⟩ : BufTy).Contents (Elt Ideal))
  (x2 x4 x6 : (⟨S1024x1024, .f32⟩ : BufTy).Contents (Elt Ideal))
  (x3 x5 x7 : (⟨S1024, .f32⟩ : BufTy).Contents (Elt Ideal))

/-- The query projection at (b, n, d). -/
theorem q_at (b : Fin 4) (n : Fin 2048) (d : Fin 1024) :
    val_main_v3 (F := Ideal) x0 x2 x3 (ix3 b n d) = proj x0 x2 x3 b n d := by
  have el : ∀ k : Fin 1024, lidx_main_v0 (ix3 b n d) k = ix3 b n k := fun k => funext fun a => Fin.ext (by match a with | ⟨0, _⟩ => rfl | ⟨1, _⟩ => rfl | ⟨2, _⟩ => rfl)
  have er : ∀ k : Fin 1024, ridx_main_v0 (ix3 b n d) k = ix2 k d := fun k => funext fun a => Fin.ext (by match a with | ⟨0, _⟩ => rfl | ⟨1, _⟩ => rfl)
  have eb : idx_main_v1 (idx_main_v2 (ix3 b n d)) = ix1 d := funext fun a => Fin.ext (by match a with | ⟨0, _⟩ => rfl)
  rw [val_main_v3_apply, val_main_v0_apply, val_main_v2_apply, val_main_v1_apply]
  simp only [el, er, eb]
  rfl

/-- The key projection at (b, n, d). -/
theorem k_at (b : Fin 4) (n : Fin 2048) (d : Fin 1024) :
    val_main_v7 (F := Ideal) x1 x4 x5 (ix3 b n d) = proj x1 x4 x5 b n d := by
  have el : ∀ k : Fin 1024, lidx_main_v4 (ix3 b n d) k = ix3 b n k := fun k => funext fun a => Fin.ext (by match a with | ⟨0, _⟩ => rfl | ⟨1, _⟩ => rfl | ⟨2, _⟩ => rfl)
  have er : ∀ k : Fin 1024, ridx_main_v4 (ix3 b n d) k = ix2 k d := fun k => funext fun a => Fin.ext (by match a with | ⟨0, _⟩ => rfl | ⟨1, _⟩ => rfl)
  have eb : idx_main_v5 (idx_main_v6 (ix3 b n d)) = ix1 d := funext fun a => Fin.ext (by match a with | ⟨0, _⟩ => rfl)
  rw [val_main_v7_apply, val_main_v4_apply, val_main_v6_apply, val_main_v5_apply]
  simp only [el, er, eb]
  rfl

/-- The value projection at (b, n, d). -/
theorem v_at (b : Fin 4) (n : Fin 2048) (d : Fin 1024) :
    val_main_v11 (F := Ideal) x1 x6 x7 (ix3 b n d) = proj x1 x6 x7 b n d := by
  have el : ∀ k : Fin 1024, lidx_main_v8 (ix3 b n d) k = ix3 b n k := fun k => funext fun a => Fin.ext (by match a with | ⟨0, _⟩ => rfl | ⟨1, _⟩ => rfl | ⟨2, _⟩ => rfl)
  have er : ∀ k : Fin 1024, ridx_main_v8 (ix3 b n d) k = ix2 k d := fun k => funext fun a => Fin.ext (by match a with | ⟨0, _⟩ => rfl | ⟨1, _⟩ => rfl)
  have eb : idx_main_v9 (idx_main_v10 (ix3 b n d)) = ix1 d := funext fun a => Fin.ext (by match a with | ⟨0, _⟩ => rfl)
  rw [val_main_v11_apply, val_main_v8_apply, val_main_v10_apply, val_main_v9_apply]
  simp only [el, er, eb]
  rfl

/-- The scores at (b, i, j). -/
theorem score_at (b : Fin 4) (i j : Fin 2048) :
    val_main_v16 (F := Ideal) x0 x1 x2 x3 x4 x5 (ix3 b i j) = score x0 x1 x2 x4 x3 x5 b i j := by
  have el : ∀ k : Fin 1024, lidx_main_v14 (ix3 b i j) k = ix3 b i k := fun k => funext fun a => Fin.ext (by match a with | ⟨0, _⟩ => rfl | ⟨1, _⟩ => rfl | ⟨2, _⟩ => rfl)
  have er : ∀ k : Fin 1024, ridx_main_v14 (ix3 b i j) k = ix3 b j k := fun k => funext fun a => Fin.ext (by match a with | ⟨0, _⟩ => rfl | ⟨1, _⟩ => rfl | ⟨2, _⟩ => rfl)
  rw [val_main_v16_apply, val_main_v14_apply, val_main_v15_apply, val_main_v13_apply, val_main_v12_apply,
    val_main_cst_0_apply, val_main_cst_apply]
  simp only [el, er, q_at, k_at]
  rfl

/-- The key axis of the score array can be reduced away. -/
theorem reduces_keys : S4x2048x2048.Reduces [2] S4x2048 := by decide

/-- Row (b, i) with key coordinate k inserted is (b, i, k). -/
theorem lift_keys (b : Fin 4) (i : Fin 2048) (k : Fin 2048) : reduces_keys.lift (ix2 b i) k = ix3 b i k :=
  funext fun a => Fin.ext (by match a with | ⟨0, _⟩ => rfl | ⟨1, _⟩ => rfl | ⟨2, _⟩ => rfl)

/-- The row maximum at (b, i): a fold of max over the key axis from -inf, then once more against -inf. -/
theorem rowMax_at (b : Fin 4) (i : Fin 2048) :
    val_main_v19 (F := Ideal) x0 x1 x2 x3 x4 x5 (ix2 b i) = rowMax x0 x1 x2 x4 x3 x5 b i := by
  rw [val_main_v19_apply, val_main_v18_apply, val_main_cst_2_apply]
  unfold val_main_v17
  rw [Host.reduce_eq_fold_single FloatOps.maximumf _ _ reducesTo_S4x2048x2048_S4x2048_d2 reduces_keys h_S_ (ix2 b i)]
  refine congrArg (max negInf) ?_
  exact Finset.fold_congr fun k _ =>
    (congrArg (val_main_v16 (F := Ideal) x0 x1 x2 x3 x4 x5) (lift_keys b i k)).trans (score_at _ _ _ _ _ _ b i k)

/-- The shifted exponentials at (b, i, j). -/
theorem weight_at (b : Fin 4) (i j : Fin 2048) :
    val_main_v23 (F := Ideal) x0 x1 x2 x3 x4 x5 (ix3 b i j) = weight x0 x1 x2 x4 x3 x5 b i j := by
  have e1 : idx_main_v20 (idx_main_v21 (ix3 b i j)) = ix2 b i := funext fun a => Fin.ext (by match a with | ⟨0, _⟩ => rfl | ⟨1, _⟩ => rfl)
  rw [val_main_v23_apply, val_main_v22_apply, val_main_v21_apply, val_main_v20_apply, e1, score_at, rowMax_at]
  rfl

/-- Their row sums at (b, i). -/
theorem denom_at (b : Fin 4) (i : Fin 2048) :
    val_main_v24 (F := Ideal) x0 x1 x2 x3 x4 x5 (ix2 b i) = denom x0 x1 x2 x4 x3 x5 b i := by
  have e : ∀ k : Fin 2048, idx_main_v24 (ix2 b i) k = ix3 b i k := fun k => funext fun a => Fin.ext (by match a with | ⟨0, _⟩ => rfl | ⟨1, _⟩ => rfl | ⟨2, _⟩ => rfl)
  rw [val_main_v24_apply]
  simp only [e, weight_at]
  rfl

/-- The normalised weights at (b, i, j). -/
theorem quot_at (b : Fin 4) (i j : Fin 2048) :
    val_main_v27 (F := Ideal) x0 x1 x2 x3 x4 x5 (ix3 b i j)
      = Ideal.div (weight x0 x1 x2 x4 x3 x5 b i j) (denom x0 x1 x2 x4 x3 x5 b i) := by
  have e1 : idx_main_v25 (idx_main_v26 (ix3 b i j)) = ix2 b i := funext fun a => Fin.ext (by match a with | ⟨0, _⟩ => rfl | ⟨1, _⟩ => rfl)
  rw [val_main_v27_apply, val_main_v26_apply, val_main_v25_apply, e1, weight_at, denom_at]
  rfl

/-- The last stage of the reference, as a function of the eight arrays, is the specification. -/
theorem stage_is_Attn :
    val_main_v28 (F := Ideal) x0 x1 x2 x3 x4 x5 x6 x7 = Attn x0 x1 x2 x4 x6 x3 x5 x7 := by
  funext i
  obtain ⟨b, q, d, rfl⟩ : ∃ (b : Fin 4) (q : Fin 2048) (d : Fin 1024), i = ix3 b q d := ⟨i 0, i 1, i 2, eq_ix3 i⟩
  have el : ∀ k : Fin 2048, lidx_main_v28 (ix3 b q d) k = ix3 b q k := fun k => funext fun a => Fin.ext (by match a with | ⟨0, _⟩ => rfl | ⟨1, _⟩ => rfl | ⟨2, _⟩ => rfl)
  have er : ∀ k : Fin 2048, ridx_main_v28 (ix3 b q d) k = ix3 b k d := fun k => funext fun a => Fin.ext (by match a with | ⟨0, _⟩ => rfl | ⟨1, _⟩ => rfl | ⟨2, _⟩ => rfl)
  rw [val_main_v28_apply, Attn_ix3]
  simp only [el, er, quot_at, v_at]
  rfl

/-- The reference run's result term is the specification of the argument arrays as the run found them. -/
theorem res_is_Attn (m : (ℓ : Loc nD τ sig) → Buf (Elt Ideal) ℓ) (c : Dev nD) :
    Cert.ReferenceIdeal.Value.res_main_v28 (F := Ideal) m c
      = Attn (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg6)) (m ((c.tc : Thread nD τ).loc main_arg3))
          (m ((c.tc : Thread nD τ).loc main_arg5)) (m ((c.tc : Thread nD τ).loc main_arg7)) := by
  rw [val_main_v28_eq]
  exact stage_is_Attn _ _ _ _ _ _ _ _

end Cert.AttnMath.Ref

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.FiniteArgs.lean ====
/-
  Finite inputs are real inputs.

  The precondition is the conjunction, over the eight argument arrays, of all(|a| < +inf). On the extended reals
  |v| = max v (-v) is +inf at both infinities, so each conjunct says that every entry of its array is a real number.
  This is what the algebra downstream needs: moving a factor across a sum and cancelling a common factor of a quotient
  hold for real numbers and fail at the infinities.
-/
import proofs.«101194_j90348932038964_2_alg».proof.Defs
import proofs.«101194_j90348932038964_2_alg».proof.Proof.LibFiniteReal
import Idealize.ShloMosaic.Lib.Affine

noncomputable section

namespace Cert.AttnMath.Finite

open Idealize.ShloMosaic Idealize.ShloMosaic.ValueIdx Idealize.SL.Sem Cert.Pre_finite_inputs

variable [hP : Cert.Pre_finite_inputs.Facts]

/-- If the precondition's predicate is all ones on eight arrays, every entry of each of them is real. -/
theorem real_of_fn (a0 a1 : FVec Ideal S4x2048x1024 .f32) (a2 : FVec Ideal S1024x1024 .f32) (a3 : FVec Ideal S1024 .f32)
    (a4 : FVec Ideal S1024x1024 .f32) (a5 : FVec Ideal S1024 .f32) (a6 : FVec Ideal S1024x1024 .f32)
    (a7 : FVec Ideal S1024 .f32) (h : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r) := by
  have h0 := congrFun h ix0
  dsimp only [fn, fn_part1, fn_part2] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨Cert.FiniteReal.real_of_all a0 _ _ _ h0, Cert.FiniteReal.real_of_all a1 _ _ _ h1,
    Cert.FiniteReal.real_of_all a2 _ _ _ h2, Cert.FiniteReal.real_of_all a3 _ _ _ h3,
    Cert.FiniteReal.real_of_all a4 _ _ _ h4, Cert.FiniteReal.real_of_all a5 _ _ _ h5,
    Cert.FiniteReal.real_of_all a6 _ _ _ h6, Cert.FiniteReal.real_of_all a7 _ _ _ h7⟩

/-- Under the kernel's precondition, on every core, every entry of every argument array is real. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S4x2048x1024 .f32) i = (r : EReal))
    ∧ (∀ i, ∃ r : ℝ, (m ((c.tc : Thread Cert.KernelIdeal.nD Cert.KernelIdeal.τ).loc Cert.KernelIdeal.main_arg1) : FVec Ideal S4x2048x1024 .f32) i = (r : EReal))
    ∧ (∀ i, ∃ r : ℝ, (m ((c.tc : Thread Cert.KernelIdeal.nD Cert.KernelIdeal.τ).loc Cert.KernelIdeal.main_arg2) : FVec Ideal S1024x1024 .f32) i = (r : EReal))
    ∧ (∀ i, ∃ r : ℝ, (m ((c.tc : Thread Cert.KernelIdeal.nD Cert.KernelIdeal.τ).loc Cert.KernelIdeal.main_arg3) : FVec Ideal S1024 .f32) i = (r : EReal))
    ∧ (∀ i, ∃ r : ℝ, (m ((c.tc : Thread Cert.KernelIdeal.nD Cert.KernelIdeal.τ).loc Cert.KernelIdeal.main_arg4) : FVec Ideal S1024x1024 .f32) i = (r : EReal))
    ∧ (∀ i, ∃ r : ℝ, (m ((c.tc : Thread Cert.KernelIdeal.nD Cert.KernelIdeal.τ).loc Cert.KernelIdeal.main_arg5) : FVec Ideal S1024 .f32) i = (r : EReal))
    ∧ (∀ i, ∃ r : ℝ, (m ((c.tc : Thread Cert.KernelIdeal.nD Cert.KernelIdeal.τ).loc Cert.KernelIdeal.main_arg6) : FVec Ideal S1024x1024 .f32) i = (r : EReal))
    ∧ (∀ i, ∃ r : ℝ, (m ((c.tc : Thread Cert.KernelIdeal.nD Cert.KernelIdeal.τ).loc Cert.KernelIdeal.main_arg7) : FVec Ideal S1024 .f32) i = (r : EReal)) :=
  real_of_fn _ _ _ _ _ _ _ _ (hpre c)

end Cert.AttnMath.Finite

end
-- ==== Proof.lean ====
/-
  The certificate: a flash-attention kernel against plain attention, over the extended reals.

  The reference computes, for event features ev and image features img of shape 4 × 2048 × 1024, weights Wq, Wk, Wv and
  biases bq, bk, bv:  q = ev·Wq + bq,  k = img·Wk + bk,  v = img·Wv + bv,  scores = (q·kᵀ)·(1/√1024),  softmax over the
  2048 keys,  result = softmax·v.  The kernel program first computes k and v in one pass, from the joined weight [Wk | Wv]
  and bias [bk | bv], in blocks of 512 rows; then, per batch and per block of 512 queries, it forms q' = (ev·Wq + bq)·2⁻⁵
  and takes two steps over the keys, 1024 at a time, keeping a running row maximum m, row sum l and weighted sum acc
  (m ← max(m, rowmax s), l ← e^(m_old − m)·l + Σ e^(s − m), acc ← e^(m_old − m)·acc + e^(s − m)·v, from m = −∞, l = acc = 0),
  and stores acc / l.

  Why the two agree. √1024 = 32 exactly, so the reference's 1/√1024 is the kernel's 2⁻⁵. Every input entry is real (the
  precondition), so the scale moves across the sum over channels, and the rescaling by e^(m_old − m) and the final division
  by l distribute over the sums over keys; the first step's factor e^(−∞ − m) is 0 against l = acc = 0; and after both
  steps acc / l is the softmax-weighted average of the values over all 2048 keys, with the overall maximum as the shift.
  Rounding to the matrix unit's input format is the identity over the extended reals, a blockwise matrix product is the
  whole product read blockwise, and the flattening and reshaping of rows are re-indexings.

  The frames: @main is host operations, the key/value kernel, host operations, the attention kernel. Each kernel's body
  is run at a generic grid point (the attention kernel once per case: first key step, last key step), the four buffers
  the attention kernel carries between its two key steps are tracked by an invariant point by point, and the two kernels
  are composed with the host stretches into one run in which every buffer is read back at the end; that run holds at
  any interpretation of the floats, so it serves the program as printed and its idealization alike.

  The ideal pass rewrote nothing, so that conjunct is trivial.
-/
import proofs.«101194_j90348932038964_2_alg».proof.Defs
import proofs.«101194_j90348932038964_2_alg».proof.Proof.Gen.Kernel
import proofs.«101194_j90348932038964_2_alg».proof.Proof.Gen.KernelIdeal
import proofs.«101194_j90348932038964_2_alg».proof.Proof.Gen.ReferenceIdeal
import proofs.«101194_j90348932038964_2_alg».proof.Proof.Gen.ReferenceIdeal.Run
import proofs.«101194_j90348932038964_2_alg».proof.Proof.Gen.ReferenceIdeal.Read
import proofs.«101194_j90348932038964_2_alg».proof.Proof.Gen.Pre_finite_inputs
import proofs.«101194_j90348932038964_2_alg».proof.Proof.Word.WholeFrame
import proofs.«101194_j90348932038964_2_alg».proof.Proof.WholeFrame
import proofs.«101194_j90348932038964_2_alg».proof.Proof.WholeValue
import proofs.«101194_j90348932038964_2_alg».proof.Proof.ResultIsAttn
import proofs.«101194_j90348932038964_2_alg».proof.Proof.RefIsAttn
import proofs.«101194_j90348932038964_2_alg».proof.Proof.FiniteArgs
import Idealize.ShloMosaic.Adequacy
import Idealize.ShloMosaic.Init

noncomputable section

namespace Cert.Proof

open Idealize.ShloMosaic Idealize.ShloMosaic.TcCoe Idealize.SL.Sem

/-- The program as printed runs to the end, faults nowhere and leaves its arguments unchanged. -/
theorem frame_kernel : Cert.frame_Kernel :=
  fun m ρ _ => Cert.Kernel.Whole.frame m ρ

/-- So does its idealization. -/
theorem frame_kernelIdeal : Cert.frame_KernelIdeal :=
  fun m ρ _ => Cert.KernelIdeal.Whole.frame m ρ

/-- And the reference: its run, the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Over the extended reals, from memories agreeing on the arguments, the kernel program and the reference end with the
    same result: the attention function of the arguments. -/
theorem algebraic : Cert.algebraic_KernelIdeal_ReferenceIdeal := by
  intro m ρ m' ρ' hpre hagree
  refine ⟨fun c => Cert.KernelIdeal.Whole.resultAt (F := Ideal) m c, Cert.KernelIdeal.Whole.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := Cert.AttnMath.Finite.real_args m hpre c
  rw [Cert.AttnMath.Ref.res_is_Attn, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Whole.result_is_attn m c h0 h1 h2 h3 h4 h5 h6 h7).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
